-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v144)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v144) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel

variable [Facts]

def fn {F : FTy → Type} [FloatOps F] (main_arg0 : FVec F S4x4096x1024 .f32) (main_arg1 : FVec F S4x4096x1024 .f32) (main_arg2 : FVec F S4x4096x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  main_v13
-- ==== Kernel.lean ====
abbrev S4x4096x1024 : Shape := ⟨3, ![4, 4096, 1024]⟩
abbrev S64x4096x64 : Shape := ⟨3, ![64, 4096, 64]⟩
abbrev S64x4096x8 : Shape := ⟨3, ![64, 4096, 8]⟩
abbrev S64x8x8 : Shape := ⟨3, ![64, 8, 8]⟩
abbrev S64x8x64 : Shape := ⟨3, ![64, 8, 64]⟩
abbrev S1x4096x64 : Shape := ⟨3, ![1, 4096, 64]⟩
abbrev S1x4096x8 : Shape := ⟨3, ![1, 4096, 8]⟩
abbrev S1x8x8 : Shape := ⟨3, ![1, 8, 8]⟩
abbrev S1x8x64 : Shape := ⟨3, ![1, 8, 64]⟩
abbrev S4096x64 : Shape := ⟨2, ![4096, 64]⟩
abbrev S512x64 : Shape := ⟨2, ![512, 64]⟩
abbrev S64 : Shape := ⟨1, ![64]⟩
abbrev S1x64 : Shape := ⟨2, ![1, 64]⟩
abbrev S8x64 : Shape := ⟨2, ![8, 64]⟩
abbrev S8x8 : Shape := ⟨2, ![8, 8]⟩
abbrev S8 : Shape := ⟨1, ![8]⟩
abbrev S8x1 : Shape := ⟨2, ![8, 1]⟩
abbrev S4096x8 : Shape := ⟨2, ![4096, 8]⟩
abbrev S4096 : Shape := ⟨1, ![4096]⟩
abbrev S4096x1 : Shape := ⟨2, ![4096, 1]⟩
abbrev S8x4096 : Shape := ⟨2, ![8, 4096]⟩
abbrev S_ : Shape := ⟨0, ![]⟩
abbrev S64x8 : Shape := ⟨2, ![64, 8]⟩

abbrev nBuf : Space → Nat
  | .hbm => 178
  | .vmem => 18
  | .smem => 0
  | _ => 0

abbrev hbmTy0_0 (i : Nat) : BufTy := match i % 128 with
  | 0 => ⟨S4x4096x1024, .f32⟩
  | 1 => ⟨S4x4096x1024, .f32⟩
  | 2 => ⟨S4x4096x1024, .f32⟩
  | 3 => ⟨S64x4096x64, .f32⟩
  | 4 => ⟨S64x4096x64, .f32⟩
  | 5 => ⟨S64x4096x64, .f32⟩
  | 6 => ⟨S64x4096x8, .bf16⟩
  | 7 => ⟨S64x8x8, .f32⟩
  | 8 => ⟨S64x8x64, .f32⟩
  | 9 => ⟨S8x8, .i32⟩
  | 10 => ⟨S8x8, .i32⟩
  | 11 => ⟨S_, .i32⟩
  | 12 => ⟨S8x8, .i32⟩
  | 13 => ⟨S8x8, .i32⟩
  | 14 => ⟨S8x8, .i1⟩
  | 15 => ⟨S8x8, .f32⟩
  | 16 => ⟨S_, .f32⟩
  | 17 => ⟨S64x8, .f32⟩
  | 18 => ⟨S_, .f32⟩
  | 19 => ⟨S_, .f32⟩
  | 20 => ⟨S_, .f32⟩
  | 21 => ⟨S_, .f32⟩
  | 22 => ⟨S64x8x8, .f32⟩
  | 23 => ⟨S64x8x8, .f32⟩
  | 24 => ⟨S64x8x8, .f32⟩
  | 25 => ⟨S64x8x8, .f32⟩
  | 26 => ⟨S_, .f32⟩
  | 27 => ⟨S8x8, .f32⟩
  | 28 => ⟨S8x8, .f32⟩
  | 29 => ⟨S1x8x8, .f32⟩
  | 30 => ⟨S64x8x8, .f32⟩
  | 31 => ⟨S64x8x8, .f32⟩
  | 32 => ⟨S_, .f32⟩
  | 33 => ⟨S8x8, .f32⟩
  | 34 => ⟨S8x8, .f32⟩
  | 35 => ⟨S64x8x8, .f32⟩
  | 36 => ⟨S1x8x8, .f32⟩
  | 37 => ⟨S64x8x8, .f32⟩
  | 38 => ⟨S64x8x8, .f32⟩
  | 39 => ⟨S_, .f32⟩
  | 40 => ⟨S8x8, .f32⟩
  | 41 => ⟨S8x8, .f32⟩
  | 42 => ⟨S64x8x8, .f32⟩
  | 43 => ⟨S1x8x8, .f32⟩
  | 44 => ⟨S64x8x8, .f32⟩
  | 45 => ⟨S64x8x8, .f32⟩
  | 46 => ⟨S_, .f32⟩
  | 47 => ⟨S64x8x8, .f32⟩
  | 48 => ⟨S64x8x8, .f32⟩
  | 49 => ⟨S64x8x8, .f32⟩
  | 50 => ⟨S64x8x8, .f32⟩
  | 51 => ⟨S_, .f32⟩
  | 52 => ⟨S8x8, .f32⟩
  | 53 => ⟨S8x8, .f32⟩
  | 54 => ⟨S1x8x8, .f32⟩
  | 55 => ⟨S64x8x8, .f32⟩
  | 56 => ⟨S64x8x8, .f32⟩
  | 57 => ⟨S_, .f32⟩
  | 58 => ⟨S8x8, .f32⟩
  | 59 => ⟨S8x8, .f32⟩
  | 60 => ⟨S64x8x8, .f32⟩
  | 61 => ⟨S1x8x8, .f32⟩
  | 62 => ⟨S64x8x8, .f32⟩
  | 63 => ⟨S64x8x8, .f32⟩
  | 64 => ⟨S_, .f32⟩
  | 65 => ⟨S8x8, .f32⟩
  | 66 => ⟨S8x8, .f32⟩
  | 67 => ⟨S64x8x8, .f32⟩
  | 68 => ⟨S1x8x8, .f32⟩
  | 69 => ⟨S64x8x8, .f32⟩
  | 70 => ⟨S64x8x8, .f32⟩
  | 71 => ⟨S_, .f32⟩
  | 72 => ⟨S64x8x8, .f32⟩
  | 73 => ⟨S64x8x8, .f32⟩
  | 74 => ⟨S64x8x8, .f32⟩
  | 75 => ⟨S64x8x8, .f32⟩
  | 76 => ⟨S_, .f32⟩
  | 77 => ⟨S8x8, .f32⟩
  | 78 => ⟨S8x8, .f32⟩
  | 79 => ⟨S1x8x8, .f32⟩
  | 80 => ⟨S64x8x8, .f32⟩
  | 81 => ⟨S64x8x8, .f32⟩
  | 82 => ⟨S_, .f32⟩
  | 83 => ⟨S8x8, .f32⟩
  | 84 => ⟨S8x8, .f32⟩
  | 85 => ⟨S64x8x8, .f32⟩
  | 86 => ⟨S1x8x8, .f32⟩
  | 87 => ⟨S64x8x8, .f32⟩
  | 88 => ⟨S64x8x8, .f32⟩
  | 89 => ⟨S_, .f32⟩
  | 90 => ⟨S8x8, .f32⟩
  | 91 => ⟨S8x8, .f32⟩
  | 92 => ⟨S64x8x8, .f32⟩
  | 93 => ⟨S1x8x8, .f32⟩
  | 94 => ⟨S64x8x8, .f32⟩
  | 95 => ⟨S64x8x8, .f32⟩
  | 96 => ⟨S_, .f32⟩
  | 97 => ⟨S64x8x8, .f32⟩
  | 98 => ⟨S64x8x8, .f32⟩
  | 99 => ⟨S64x8x8, .f32⟩
  | 100 => ⟨S64x8x8, .f32⟩
  | 101 => ⟨S_, .f32⟩
  | 102 => ⟨S8x8, .f32⟩
  | 103 => ⟨S8x8, .f32⟩
  | 104 => ⟨S1x8x8, .f32⟩
  | 105 => ⟨S64x8x8, .f32⟩
  | 106 => ⟨S64x8x8, .f32⟩
  | 107 => ⟨S_, .f32⟩
  | 108 => ⟨S8x8, .f32⟩
  | 109 => ⟨S8x8, .f32⟩
  | 110 => ⟨S64x8x8, .f32⟩
  | 111 => ⟨S1x8x8, .f32⟩
  | 112 => ⟨S64x8x8, .f32⟩
  | 113 => ⟨S64x8x8, .f32⟩
  | 114 => ⟨S_, .f32⟩
  | 115 => ⟨S8x8, .f32⟩
  | 116 => ⟨S8x8, .f32⟩
  | 117 => ⟨S64x8x8, .f32⟩
  | 118 => ⟨S1x8x8, .f32⟩
  | 119 => ⟨S64x8x8, .f32⟩
  | 120 => ⟨S64x8x8, .f32⟩
  | 121 => ⟨S_, .f32⟩
  | 122 => ⟨S64x8x8, .f32⟩
  | 123 => ⟨S64x8x8, .f32⟩
  | 124 => ⟨S64x8x8, .f32⟩
  | 125 => ⟨S64x8x8, .f32⟩
  | 126 => ⟨S_, .f32⟩
  | 127 => ⟨S8x8, .f32⟩
  | _ => ⟨S4x4096x1024, .f32⟩

abbrev hbmTy0_1 (i : Nat) : BufTy := match i % 128 with
  | 0 => ⟨S8x8, .f32⟩
  | 1 => ⟨S1x8x8, .f32⟩
  | 2 => ⟨S64x8x8, .f32⟩
  | 3 => ⟨S64x8x8, .f32⟩
  | 4 => ⟨S_, .f32⟩
  | 5 => ⟨S8x8, .f32⟩
  | 6 => ⟨S8x8, .f32⟩
  | 7 => ⟨S64x8x8, .f32⟩
  | 8 => ⟨S1x8x8, .f32⟩
  | 9 => ⟨S64x8x8, .f32⟩
  | 10 => ⟨S64x8x8, .f32⟩
  | 11 => ⟨S_, .f32⟩
  | 12 => ⟨S8x8, .f32⟩
  | 13 => ⟨S8x8, .f32⟩
  | 14 => ⟨S64x8x8, .f32⟩
  | 15 => ⟨S1x8x8, .f32⟩
  | 16 => ⟨S64x8x8, .f32⟩
  | 17 => ⟨S64x8x8, .f32⟩
  | 18 => ⟨S_, .f32⟩
  | 19 => ⟨S64x8x8, .f32⟩
  | 20 => ⟨S64x8x8, .f32⟩
  | 21 => ⟨S64x8x8, .f32⟩
  | 22 => ⟨S64x8x8, .f32⟩
  | 23 => ⟨S_, .f32⟩
  | 24 => ⟨S8x8, .f32⟩
  | 25 => ⟨S8x8, .f32⟩
  | 26 => ⟨S1x8x8, .f32⟩
  | 27 => ⟨S64x8x8, .f32⟩
  | 28 => ⟨S64x8x8, .f32⟩
  | 29 => ⟨S_, .f32⟩
  | 30 => ⟨S8x8, .f32⟩
  | 31 => ⟨S8x8, .f32⟩
  | 32 => ⟨S64x8x8, .f32⟩
  | 33 => ⟨S1x8x8, .f32⟩
  | 34 => ⟨S64x8x8, .f32⟩
  | 35 => ⟨S64x8x8, .f32⟩
  | 36 => ⟨S_, .f32⟩
  | 37 => ⟨S8x8, .f32⟩
  | 38 => ⟨S8x8, .f32⟩
  | 39 => ⟨S64x8x8, .f32⟩
  | 40 => ⟨S1x8x8, .f32⟩
  | 41 => ⟨S64x8x8, .f32⟩
  | 42 => ⟨S64x8x8, .f32⟩
  | 43 => ⟨S_, .f32⟩
  | 44 => ⟨S64x8x8, .f32⟩
  | 45 => ⟨S64x8x8, .f32⟩
  | 46 => ⟨S64x8x8, .f32⟩
  | 47 => ⟨S64x8x64, .f32⟩
  | 48 => ⟨S64x4096x64, .f32⟩
  | 49 => ⟨S4x4096x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | .local _ .vmem, ⟨0, _⟩ => ⟨S1x4096x64, .f32⟩
  | .local _ .vmem, ⟨1, _⟩ => ⟨S1x4096x64, .f32⟩
  | .local _ .vmem, ⟨2, _⟩ => ⟨S1x4096x64, .f32⟩
  | .local _ .vmem, ⟨3, _⟩ => ⟨S1x4096x64, .f32⟩
  | .local _ .vmem, ⟨4, _⟩ => ⟨S1x4096x64, .f32⟩
  | .local _ .vmem, ⟨5, _⟩ => ⟨S1x4096x64, .f32⟩
  | .local _ .vmem, ⟨6, _⟩ => ⟨S1x4096x8, .bf16⟩
  | .local _ .vmem, ⟨7, _⟩ => ⟨S1x4096x8, .bf16⟩
  | .local _ .vmem, ⟨8, _⟩ => ⟨S1x8x8, .f32⟩
  | .local _ .vmem, ⟨9, _⟩ => ⟨S1x8x8, .f32⟩
  | .local _ .vmem, ⟨10, _⟩ => ⟨S1x8x64, .f32⟩
  | .local _ .vmem, ⟨11, _⟩ => ⟨S1x8x64, .f32⟩
  | .local _ .vmem, ⟨12, _⟩ => ⟨S1x4096x8, .bf16⟩
  | .local _ .vmem, ⟨13, _⟩ => ⟨S1x4096x8, .bf16⟩
  | .local _ .vmem, ⟨14, _⟩ => ⟨S1x8x64, .f32⟩
  | .local _ .vmem, ⟨15, _⟩ => ⟨S1x8x64, .f32⟩
  | .local _ .vmem, ⟨16, _⟩ => ⟨S1x4096x64, .f32⟩
  | .local _ .vmem, ⟨17, _⟩ => ⟨S1x4096x64, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_9 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_11 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_12 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_13 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_14 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_15 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_16 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_17 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_cst_18 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_19 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_20 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_cst_21 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_cst_22 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_cst_23 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_cst_24 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_cst_25 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x8 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x8 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S4x4096x1024_S64x4096x64 : S4x4096x1024.ShapeCasts S64x4096x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  slices_S4096x64_o0_0_S512x64 : S4096x64.Slices ![0, 0] S512x64
  reduces_S512x64_S64 : S512x64.Reduces [0] S64
  shapeCasts_S64_S1x64 : S64.ShapeCasts S1x64
  slices_S4096x64_o512_0_S512x64 : S4096x64.Slices ![512, 0] S512x64
  slices_S4096x64_o1024_0_S512x64 : S4096x64.Slices ![1024, 0] S512x64
  slices_S4096x64_o1536_0_S512x64 : S4096x64.Slices ![1536, 0] S512x64
  slices_S4096x64_o2048_0_S512x64 : S4096x64.Slices ![2048, 0] S512x64
  slices_S4096x64_o2560_0_S512x64 : S4096x64.Slices ![2560, 0] S512x64
  slices_S4096x64_o3072_0_S512x64 : S4096x64.Slices ![3072, 0] S512x64
  slices_S4096x64_o3584_0_S512x64 : S4096x64.Slices ![3584, 0] S512x64
  concatenates_S1x64_S1x64_S1x64_S1x64_S1x64_S1x64_S1x64_S1x64_S8x64_d0 : Shape.Concatenates [S1x64, S1x64, S1x64, S1x64, S1x64, S1x64, S1x64, S1x64] S8x64 0
  reduces_S8x8_S8 : S8x8.Reduces [1] S8
  shapeCasts_S8_S8x1 : S8.ShapeCasts S8x1
  broadcasts_S8x1_S8x8 : S8x1.Broadcasts S8x8
  inb_S1x8x8_S1x8x8_0_0_0 : ∀ a, (![0, 0, 0] : Fin 3 → Nat) a + S1x8x8.size a ≤ S1x8x8.size a
  h_S1x8x8 : 0 < S1x8x8.numel
  shapeCasts_S1x8x8_S8x8 : S1x8x8.ShapeCasts S8x8
  shapeCasts_S8x8_S1x8x8 : S8x8.ShapeCasts S1x8x8
  bitsLt_bf16_f32 : FTy.bits .bf16 < FTy.bits .f32
  reduces_S4096x8_S4096 : S4096x8.Reduces [1] S4096
  shapeCasts_S4096_S4096x1 : S4096.ShapeCasts S4096x1
  broadcasts_S4096x1_S4096x8 : S4096x1.Broadcasts S4096x8
  inb_S1x4096x8_S1x4096x8_0_0_0 : ∀ a, (![0, 0, 0] : Fin 3 → Nat) a + S1x4096x8.size a ≤ S1x4096x8.size a
  h_S1x4096x8 : 0 < S1x4096x8.numel
  shapeCasts_S1x4096x8_S4096x8 : S1x4096x8.ShapeCasts S4096x8
  shapeCasts_S4096x8_S1x4096x8 : S4096x8.ShapeCasts S1x4096x8
  packedbf16_S1x4096x8_S1x4096x8_0_0_0 : (Rect.unit (s := S1x4096x8) ![0, 0, 0] S1x4096x8.size inb_S1x4096x8_S1x4096x8_0_0_0).PackedRows (EltTy.packing .bf16)
  reduces_S8x4096_S8 : S8x4096.Reduces [1] S8
  broadcasts_S8x1_S8x4096 : S8x1.Broadcasts S8x4096
  inb_S1x8x64_S1x8x64_0_0_0 : ∀ a, (![0, 0, 0] : Fin 3 → Nat) a + S1x8x64.size a ≤ S1x8x64.size a
  h_S1x8x64 : 0 < S1x8x64.numel
  shapeCasts_S1x8x64_S8x64 : S1x8x64.ShapeCasts S8x64
  shapeCasts_S8x64_S1x8x64 : S8x64.ShapeCasts S1x8x64
  bcast_S_S8x8 : S_.BroadcastsInDim S8x8 (![] : Fin 0 → Fin S8x8.rank)
  reducesTo_S64x8x8_S64x8_d1 : S64x8x8.ReducesTo [1] S64x8
  h_S_ : 0 < S_.numel
  reducesTo_S64x8_S_d0_1 : S64x8.ReducesTo [0, 1] S_
  transposes_S64x8x8_S64x8x8_0_2_1 : S64x8x8.Transposes [0, 2, 1] S64x8x8
  bcast_S_S64x8x8 : S_.BroadcastsInDim S64x8x8 (![] : Fin 0 → Fin S64x8x8.rank)
  bcast_S8x8_S1x8x8_1_2 : S8x8.BroadcastsInDim S1x8x8 (![1, 2] : Fin 2 → Fin S1x8x8.rank)
  bcast_S1x8x8_S64x8x8_0_1_2 : S1x8x8.BroadcastsInDim S64x8x8 (![0, 1, 2] : Fin 3 → Fin S64x8x8.rank)
  shapeCasts_S4096x64_S1x4096x64 : S4096x64.ShapeCasts S1x4096x64
  shapeCasts_S64x4096x64_S4x4096x1024 : S64x4096x64.ShapeCasts S4x4096x1024
  dot_S8x64_S8x64_S8x8_1_1_0_0_n_n_wf : DotDims.WF S8x64 S8x64 S8x8 [1] [1] [0] [0] [] []
  dot_S4096x64_S8x64_S4096x8_1_1_0_0_n_n_wf : DotDims.WF S4096x64 S8x64 S4096x8 [1] [1] [0] [0] [] []
  dot_S8x64_S4096x64_S8x4096_1_1_0_0_n_n_wf : DotDims.WF S8x64 S4096x64 S8x4096 [1] [1] [0] [0] [] []
  dot_S8x4096_S4096x64_S8x64_1_0_0_1_n_n_wf : DotDims.WF S8x4096 S4096x64 S8x64 [1] [0] [0] [1] [] []
  dot_S64x8x8_S64x8x8_S64x8x8_2_1_1_2_0_0_wf : DotDims.WF S64x8x8 S64x8x8 S64x8x8 [2] [1] [1] [2] [0] [0]
  dot_S64x8x8_S64x8x64_S64x8x64_2_1_1_2_0_0_wf : DotDims.WF S64x8x8 S64x8x64 S64x8x64 [2] [1] [1] [2] [0] [0]
  dot_S4096x8_S8x64_S4096x64_1_0_0_1_n_n_wf : DotDims.WF S4096x8 S8x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S64x4096x64.size a
  hwx0_0 : ∀ i : grid0.Coords, EltTy.bits .f32 = 32 ∨ (Rect.block (s := S64x4096x64) S1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S64x4096x64.size a
  hwx0_1 : ∀ i : grid0.Coords, EltTy.bits .f32 = 32 ∨ (Rect.block (s := S64x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S64x4096x64.size a
  hwx0_2 : ∀ i : grid0.Coords, EltTy.bits .f32 = 32 ∨ (Rect.block (s := S64x4096x64) S1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x8.size a ≤ S64x4096x8.size a
  hwx0_3 : ∀ i : grid0.Coords, EltTy.bits .bf16 = 32 ∨ (Rect.block (s := S64x4096x8) S1x4096x8.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x8.size a ≤ S64x8x8.size a
  hwx0_4 : ∀ i : grid0.Coords, EltTy.bits .f32 = 32 ∨ (Rect.block (s := S64x8x8) S1x8x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x64.size a ≤ S64x8x64.size a
  hwx0_5 : ∀ i : grid0.Coords, EltTy.bits .f32 = 32 ∨ (Rect.block (s := S64x8x64) S1x8x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x8.size a ≤ S64x4096x8.size a
  hwx1_0 : ∀ i : grid1.Coords, EltTy.bits .bf16 = 32 ∨ (Rect.block (s := S64x4096x8) S1x4096x8.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x64.size a ≤ S64x8x64.size a
  hwx1_1 : ∀ i : grid1.Coords, EltTy.bits .f32 = 32 ∨ (Rect.block (s := S64x8x64) S1x8x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x64.size a ≤ S64x4096x64.size a
  hwx1_2 : ∀ i : grid1.Coords, EltTy.bits .f32 = 32 ∨ (Rect.block (s := S64x4096x64) S1x4096x64.size (cc1_transform_2 i) (hinb1_2 i)).WholeWords (EltTy.packing .f32)

variable [Facts₀]

def dot_S8x64_S8x64_S8x8_1_1_0_0_n_n : DotDims S8x64 S8x64 S8x8 where
  lhsContracting := [1]
  rhsContracting := [1]
  lhsNonContracting := [0]
  rhsNonContracting := [0]
  lhsBatch := []
  rhsBatch := []
  wf := dot_S8x64_S8x64_S8x8_1_1_0_0_n_n_wf
def dot_S4096x64_S8x64_S4096x8_1_1_0_0_n_n : DotDims S4096x64 S8x64 S4096x8 where
  lhsContracting := [1]
  rhsContracting := [1]
  lhsNonContracting := [0]
  rhsNonContracting := [0]
  lhsBatch := []
  rhsBatch := []
  wf := dot_S4096x64_S8x64_S4096x8_1_1_0_0_n_n_wf
def dot_S8x64_S4096x64_S8x4096_1_1_0_0_n_n : DotDims S8x64 S4096x64 S8x4096 where
  lhsContracting := [1]
  rhsContracting := [1]
  lhsNonContracting := [0]
  rhsNonContracting := [0]
  lhsBatch := []
  rhsBatch := []
  wf := dot_S8x64_S4096x64_S8x4096_1_1_0_0_n_n_wf
def dot_S8x4096_S4096x64_S8x64_1_0_0_1_n_n : DotDims S8x4096 S4096x64 S8x64 where
  lhsContracting := [1]
  rhsContracting := [0]
  lhsNonContracting := [0]
  rhsNonContracting := [1]
  lhsBatch := []
  rhsBatch := []
  wf := dot_S8x4096_S4096x64_S8x64_1_0_0_1_n_n_wf
def dot_S64x8x8_S64x8x8_S64x8x8_2_1_1_2_0_0 : DotDims S64x8x8 S64x8x8 S64x8x8 where
  lhsContracting := [2]
  rhsContracting := [1]
  lhsNonContracting := [1]
  rhsNonContracting := [2]
  lhsBatch := [0]
  rhsBatch := [0]
  wf := dot_S64x8x8_S64x8x8_S64x8x8_2_1_1_2_0_0_wf
def dot_S64x8x8_S64x8x64_S64x8x64_2_1_1_2_0_0 : DotDims S64x8x8 S64x8x64 S64x8x64 where
  lhsContracting := [2]
  rhsContracting := [1]
  lhsNonContracting := [1]
  rhsNonContracting := [2]
  lhsBatch := [0]
  rhsBatch := [0]
  wf := dot_S64x8x8_S64x8x64_S64x8x64_2_1_1_2_0_0_wf
def dot_S4096x8_S8x64_S4096x64_1_0_0_1_n_n : DotDims S4096x8 S8x64 S4096x64 where
  lhsContracting := [1]
  rhsContracting := [0]
  lhsNonContracting := [0]
  rhsNonContracting := [1]
  lhsBatch := []
  rhsBatch := []
  wf := dot_S4096x8_S8x64_S4096x64_1_0_0_1_n_n_wf

abbrev win0_0 : Pipeline.Window sig grid0 :=
  Pipeline.Window.ofSpec (Memref.whole main_v0) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x4096x8.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x8x8.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S1x8x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v3_0) S1x4096x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v142) S1x8x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v143) S1x4096x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S4x16x4096x64 : Shape := ⟨4, ![4, 16, 4096, 64]⟩
abbrev S4x16x8x512x64 : Shape := ⟨5, ![4, 16, 8, 512, 64]⟩
abbrev S_ : Shape := ⟨0, ![]⟩
abbrev S4x16x8x64 : Shape := ⟨4, ![4, 16, 8, 64]⟩
abbrev S4x16x4096x8 : Shape := ⟨4, ![4, 16, 4096, 8]⟩
abbrev S4x16x4096 : Shape := ⟨3, ![4, 16, 4096]⟩
abbrev S4x16x4096x1 : Shape := ⟨4, ![4, 16, 4096, 1]⟩
abbrev S4x16x8x8 : Shape := ⟨4, ![4, 16, 8, 8]⟩
abbrev S4x16x8 : Shape := ⟨3, ![4, 16, 8]⟩
abbrev S4x16x8x1 : Shape := ⟨4, ![4, 16, 8, 1]⟩
abbrev S4x16x8x4096 : Shape := ⟨4, ![4, 16, 8, 4096]⟩
abbrev S8x8 : Shape := ⟨2, ![8, 8]⟩
abbrev S1x1x8x8 : Shape := ⟨4, ![1, 1, 8, 8]⟩

abbrev nBuf : Space → Nat
  | .hbm => 242
  | .vmem => 0
  | .smem => 0
  | _ => 0

abbrev hbmTy0_0 (i : Nat) : BufTy := match i % 128 with
  | 0 => ⟨S4x4096x1024, .f32⟩
  | 1 => ⟨S4x4096x1024, .f32⟩
  | 2 => ⟨S4x4096x1024, .f32⟩
  | 3 => ⟨S4x16x4096x64, .f32⟩
  | 4 => ⟨S4x16x4096x64, .f32⟩
  | 5 => ⟨S4x16x4096x64, .f32⟩
  | 6 => ⟨S4x16x8x512x64, .f32⟩
  | 7 => ⟨S_, .f32⟩
  | 8 => ⟨S4x16x8x64, .f32⟩
  | 9 => ⟨S_, .f32⟩
  | 10 => ⟨S4x16x8x64, .f32⟩
  | 11 => ⟨S4x16x8x64, .f32⟩
  | 12 => ⟨S4x16x8x512x64, .f32⟩
  | 13 => ⟨S_, .f32⟩
  | 14 => ⟨S4x16x8x64, .f32⟩
  | 15 => ⟨S_, .f32⟩
  | 16 => ⟨S4x16x8x64, .f32⟩
  | 17 => ⟨S4x16x8x64, .f32⟩
  | 18 => ⟨S4x16x4096x8, .f32⟩
  | 19 => ⟨S_, .f32⟩
  | 20 => ⟨S4x16x4096x8, .f32⟩
  | 21 => ⟨S4x16x4096x8, .f32⟩
  | 22 => ⟨S_, .f32⟩
  | 23 => ⟨S4x16x4096, .f32⟩
  | 24 => ⟨S_, .f32⟩
  | 25 => ⟨S4x16x4096, .f32⟩
  | 26 => ⟨S4x16x4096, .f32⟩
  | 27 => ⟨S4x16x4096x1, .f32⟩
  | 28 => ⟨S4x16x4096x8, .f32⟩
  | 29 => ⟨S4x16x4096x8, .f32⟩
  | 30 => ⟨S4x16x4096x8, .f32⟩
  | 31 => ⟨S_, .f32⟩
  | 32 => ⟨S4x16x4096, .f32⟩
  | 33 => ⟨S4x16x4096x1, .f32⟩
  | 34 => ⟨S4x16x4096x8, .f32⟩
  | 35 => ⟨S4x16x4096x8, .f32⟩
  | 36 => ⟨S4x16x8x8, .f32⟩
  | 37 => ⟨S_, .f32⟩
  | 38 => ⟨S4x16x8x8, .f32⟩
  | 39 => ⟨S4x16x8x8, .f32⟩
  | 40 => ⟨S_, .f32⟩
  | 41 => ⟨S4x16x8, .f32⟩
  | 42 => ⟨S_, .f32⟩
  | 43 => ⟨S4x16x8, .f32⟩
  | 44 => ⟨S4x16x8, .f32⟩
  | 45 => ⟨S4x16x8x1, .f32⟩
  | 46 => ⟨S4x16x8x8, .f32⟩
  | 47 => ⟨S4x16x8x8, .f32⟩
  | 48 => ⟨S4x16x8x8, .f32⟩
  | 49 => ⟨S_, .f32⟩
  | 50 => ⟨S4x16x8, .f32⟩
  | 51 => ⟨S4x16x8x1, .f32⟩
  | 52 => ⟨S4x16x8x8, .f32⟩
  | 53 => ⟨S4x16x8x8, .f32⟩
  | 54 => ⟨S4x16x8x4096, .f32⟩
  | 55 => ⟨S_, .f32⟩
  | 56 => ⟨S4x16x8x4096, .f32⟩
  | 57 => ⟨S4x16x8x4096, .f32⟩
  | 58 => ⟨S_, .f32⟩
  | 59 => ⟨S4x16x8, .f32⟩
  | 60 => ⟨S_, .f32⟩
  | 61 => ⟨S4x16x8, .f32⟩
  | 62 => ⟨S4x16x8, .f32⟩
  | 63 => ⟨S4x16x8x1, .f32⟩
  | 64 => ⟨S4x16x8x4096, .f32⟩
  | 65 => ⟨S4x16x8x4096, .f32⟩
  | 66 => ⟨S4x16x8x4096, .f32⟩
  | 67 => ⟨S_, .f32⟩
  | 68 => ⟨S4x16x8, .f32⟩
  | 69 => ⟨S4x16x8x1, .f32⟩
  | 70 => ⟨S4x16x8x4096, .f32⟩
  | 71 => ⟨S4x16x8x4096, .f32⟩
  | 72 => ⟨S8x8, .i32⟩
  | 73 => ⟨S8x8, .i32⟩
  | 74 => ⟨S_, .i32⟩
  | 75 => ⟨S8x8, .i32⟩
  | 76 => ⟨S8x8, .i32⟩
  | 77 => ⟨S8x8, .i1⟩
  | 78 => ⟨S8x8, .f32⟩
  | 79 => ⟨S_, .f32⟩
  | 80 => ⟨S4x16x8, .f32⟩
  | 81 => ⟨S_, .f32⟩
  | 82 => ⟨S_, .f32⟩
  | 83 => ⟨S_, .f32⟩
  | 84 => ⟨S_, .f32⟩
  | 85 => ⟨S4x16x8x8, .f32⟩
  | 86 => ⟨S4x16x8x8, .f32⟩
  | 87 => ⟨S4x16x8x8, .f32⟩
  | 88 => ⟨S4x16x8x8, .f32⟩
  | 89 => ⟨S_, .f32⟩
  | 90 => ⟨S4x16x8x8, .f32⟩
  | 91 => ⟨S4x16x8x8, .f32⟩
  | 92 => ⟨S_, .f32⟩
  | 93 => ⟨S8x8, .f32⟩
  | 94 => ⟨S8x8, .f32⟩
  | 95 => ⟨S_, .f32⟩
  | 96 => ⟨S8x8, .f32⟩
  | 97 => ⟨S8x8, .f32⟩
  | 98 => ⟨S_, .f32⟩
  | 99 => ⟨S8x8, .f32⟩
  | 100 => ⟨S8x8, .f32⟩
  | 101 => ⟨S1x1x8x8, .f32⟩
  | 102 => ⟨S4x16x8x8, .f32⟩
  | 103 => ⟨S4x16x8x8, .f32⟩
  | 104 => ⟨S4x16x8x8, .f32⟩
  | 105 => ⟨S1x1x8x8, .f32⟩
  | 106 => ⟨S4x16x8x8, .f32⟩
  | 107 => ⟨S4x16x8x8, .f32⟩
  | 108 => ⟨S4x16x8x8, .f32⟩
  | 109 => ⟨S1x1x8x8, .f32⟩
  | 110 => ⟨S4x16x8x8, .f32⟩
  | 111 => ⟨S4x16x8x8, .f32⟩
  | 112 => ⟨S4x16x8x8, .f32⟩
  | 113 => ⟨S4x16x8x8, .f32⟩
  | 114 => ⟨S_, .f32⟩
  | 115 => ⟨S4x16x8x8, .f32⟩
  | 116 => ⟨S4x16x8x8, .f32⟩
  | 117 => ⟨S_, .f32⟩
  | 118 => ⟨S8x8, .f32⟩
  | 119 => ⟨S8x8, .f32⟩
  | 120 => ⟨S_, .f32⟩
  | 121 => ⟨S8x8, .f32⟩
  | 122 => ⟨S8x8, .f32⟩
  | 123 => ⟨S_, .f32⟩
  | 124 => ⟨S8x8, .f32⟩
  | 125 => ⟨S8x8, .f32⟩
  | 126 => ⟨S1x1x8x8, .f32⟩
  | 127 => ⟨S4x16x8x8, .f32⟩
  | _ => ⟨S4x4096x1024, .f32⟩

abbrev hbmTy0_1 (i : Nat) : BufTy := match i % 128 with
  | 0 => ⟨S4x16x8x8, .f32⟩
  | 1 => ⟨S4x16x8x8, .f32⟩
  | 2 => ⟨S1x1x8x8, .f32⟩
  | 3 => ⟨S4x16x8x8, .f32⟩
  | 4 => ⟨S4x16x8x8, .f32⟩
  | 5 => ⟨S4x16x8x8, .f32⟩
  | 6 => ⟨S1x1x8x8, .f32⟩
  | 7 => ⟨S4x16x8x8, .f32⟩
  | 8 => ⟨S4x16x8x8, .f32⟩
  | 9 => ⟨S4x16x8x8, .f32⟩
  | 10 => ⟨S4x16x8x8, .f32⟩
  | 11 => ⟨S_, .f32⟩
  | 12 => ⟨S4x16x8x8, .f32⟩
  | 13 => ⟨S4x16x8x8, .f32⟩
  | 14 => ⟨S_, .f32⟩
  | 15 => ⟨S8x8, .f32⟩
  | 16 => ⟨S8x8, .f32⟩
  | 17 => ⟨S_, .f32⟩
  | 18 => ⟨S8x8, .f32⟩
  | 19 => ⟨S8x8, .f32⟩
  | 20 => ⟨S_, .f32⟩
  | 21 => ⟨S8x8, .f32⟩
  | 22 => ⟨S8x8, .f32⟩
  | 23 => ⟨S1x1x8x8, .f32⟩
  | 24 => ⟨S4x16x8x8, .f32⟩
  | 25 => ⟨S4x16x8x8, .f32⟩
  | 26 => ⟨S4x16x8x8, .f32⟩
  | 27 => ⟨S1x1x8x8, .f32⟩
  | 28 => ⟨S4x16x8x8, .f32⟩
  | 29 => ⟨S4x16x8x8, .f32⟩
  | 30 => ⟨S4x16x8x8, .f32⟩
  | 31 => ⟨S1x1x8x8, .f32⟩
  | 32 => ⟨S4x16x8x8, .f32⟩
  | 33 => ⟨S4x16x8x8, .f32⟩
  | 34 => ⟨S4x16x8x8, .f32⟩
  | 35 => ⟨S4x16x8x8, .f32⟩
  | 36 => ⟨S_, .f32⟩
  | 37 => ⟨S4x16x8x8, .f32⟩
  | 38 => ⟨S4x16x8x8, .f32⟩
  | 39 => ⟨S_, .f32⟩
  | 40 => ⟨S8x8, .f32⟩
  | 41 => ⟨S8x8, .f32⟩
  | 42 => ⟨S_, .f32⟩
  | 43 => ⟨S8x8, .f32⟩
  | 44 => ⟨S8x8, .f32⟩
  | 45 => ⟨S_, .f32⟩
  | 46 => ⟨S8x8, .f32⟩
  | 47 => ⟨S8x8, .f32⟩
  | 48 => ⟨S1x1x8x8, .f32⟩
  | 49 => ⟨S4x16x8x8, .f32⟩
  | 50 => ⟨S4x16x8x8, .f32⟩
  | 51 => ⟨S4x16x8x8, .f32⟩
  | 52 => ⟨S1x1x8x8, .f32⟩
  | 53 => ⟨S4x16x8x8, .f32⟩
  | 54 => ⟨S4x16x8x8, .f32⟩
  | 55 => ⟨S4x16x8x8, .f32⟩
  | 56 => ⟨S1x1x8x8, .f32⟩
  | 57 => ⟨S4x16x8x8, .f32⟩
  | 58 => ⟨S4x16x8x8, .f32⟩
  | 59 => ⟨S4x16x8x8, .f32⟩
  | 60 => ⟨S4x16x8x8, .f32⟩
  | 61 => ⟨S_, .f32⟩
  | 62 => ⟨S4x16x8x8, .f32⟩
  | 63 => ⟨S4x16x8x8, .f32⟩
  | 64 => ⟨S_, .f32⟩
  | 65 => ⟨S8x8, .f32⟩
  | 66 => ⟨S8x8, .f32⟩
  | 67 => ⟨S_, .f32⟩
  | 68 => ⟨S8x8, .f32⟩
  | 69 => ⟨S8x8, .f32⟩
  | 70 => ⟨S_, .f32⟩
  | 71 => ⟨S8x8, .f32⟩
  | 72 => ⟨S8x8, .f32⟩
  | 73 => ⟨S1x1x8x8, .f32⟩
  | 74 => ⟨S4x16x8x8, .f32⟩
  | 75 => ⟨S4x16x8x8, .f32⟩
  | 76 => ⟨S4x16x8x8, .f32⟩
  | 77 => ⟨S1x1x8x8, .f32⟩
  | 78 => ⟨S4x16x8x8, .f32⟩
  | 79 => ⟨S4x16x8x8, .f32⟩
  | 80 => ⟨S4x16x8x8, .f32⟩
  | 81 => ⟨S1x1x8x8, .f32⟩
  | 82 => ⟨S4x16x8x8, .f32⟩
  | 83 => ⟨S4x16x8x8, .f32⟩
  | 84 => ⟨S4x16x8x8, .f32⟩
  | 85 => ⟨S4x16x8x8, .f32⟩
  | 86 => ⟨S_, .f32⟩
  | 87 => ⟨S4x16x8x8, .f32⟩
  | 88 => ⟨S4x16x8x8, .f32⟩
  | 89 => ⟨S_, .f32⟩
  | 90 => ⟨S8x8, .f32⟩
  | 91 => ⟨S8x8, .f32⟩
  | 92 => ⟨S_, .f32⟩
  | 93 => ⟨S8x8, .f32⟩
  | 94 => ⟨S8x8, .f32⟩
  | 95 => ⟨S_, .f32⟩
  | 96 => ⟨S8x8, .f32⟩
  | 97 => ⟨S8x8, .f32⟩
  | 98 => ⟨S1x1x8x8, .f32⟩
  | 99 => ⟨S4x16x8x8, .f32⟩
  | 100 => ⟨S4x16x8x8, .f32⟩
  | 101 => ⟨S4x16x8x8, .f32⟩
  | 102 => ⟨S1x1x8x8, .f32⟩
  | 103 => ⟨S4x16x8x8, .f32⟩
  | 104 => ⟨S4x16x8x8, .f32⟩
  | 105 => ⟨S4x16x8x8, .f32⟩
  | 106 => ⟨S1x1x8x8, .f32⟩
  | 107 => ⟨S4x16x8x8, .f32⟩
  | 108 => ⟨S4x16x8x8, .f32⟩
  | 109 => ⟨S4x16x8x8, .f32⟩
  | 110 => ⟨S4x16x8x64, .f32⟩
  | 111 => ⟨S4x16x4096x8, .f32⟩
  | 112 => ⟨S4x16x4096x64, .f32⟩
  | 113 => ⟨S4x4096x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev main_cst_9 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_10 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_11 : Ref sig .tc := ⟨.hbm, 55, rfl⟩
abbrev main_v40 : Ref sig .tc := ⟨.hbm, 56, rfl⟩
abbrev main_v41 : Ref sig .tc := ⟨.hbm, 57, rfl⟩
abbrev main_cst_12 : Ref sig .tc := ⟨.hbm, 58, rfl⟩
abbrev main_v42 : Ref sig .tc := ⟨.hbm, 59, rfl⟩
abbrev main_cst_13 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_14 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_15 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_cst_17 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_18 : Ref sig .tc := ⟨.hbm, 89, rfl⟩
abbrev main_v66 : Ref sig .tc := ⟨.hbm, 90, rfl⟩
abbrev main_v67 : Ref sig .tc := ⟨.hbm, 91, rfl⟩
abbrev main_cst_19 : Ref sig .tc := ⟨.hbm, 92, rfl⟩
abbrev main_v68 : Ref sig .tc := ⟨.hbm, 93, rfl⟩
abbrev main_v69 : Ref sig .tc := ⟨.hbm, 94, rfl⟩
abbrev main_cst_20 : Ref sig .tc := ⟨.hbm, 95, rfl⟩
abbrev main_v70 : Ref sig .tc := ⟨.hbm, 96, rfl⟩
abbrev main_v71 : Ref sig .tc := ⟨.hbm, 97, rfl⟩
abbrev main_cst_21 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_22 : Ref sig .tc := ⟨.hbm, 114, rfl⟩
abbrev main_v87 : Ref sig .tc := ⟨.hbm, 115, rfl⟩
abbrev main_v88 : Ref sig .tc := ⟨.hbm, 116, rfl⟩
abbrev main_cst_23 : Ref sig .tc := ⟨.hbm, 117, rfl⟩
abbrev main_v89 : Ref sig .tc := ⟨.hbm, 118, rfl⟩
abbrev main_v90 : Ref sig .tc := ⟨.hbm, 119, rfl⟩
abbrev main_cst_24 : Ref sig .tc := ⟨.hbm, 120, rfl⟩
abbrev main_v91 : Ref sig .tc := ⟨.hbm, 121, rfl⟩
abbrev main_v92 : Ref sig .tc := ⟨.hbm, 122, rfl⟩
abbrev main_cst_25 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_26 : Ref sig .tc := ⟨.hbm, 139, rfl⟩
abbrev main_v108 : Ref sig .tc := ⟨.hbm, 140, rfl⟩
abbrev main_v109 : Ref sig .tc := ⟨.hbm, 141, rfl⟩
abbrev main_cst_27 : Ref sig .tc := ⟨.hbm, 142, rfl⟩
abbrev main_v110 : Ref sig .tc := ⟨.hbm, 143, rfl⟩
abbrev main_v111 : Ref sig .tc := ⟨.hbm, 144, rfl⟩
abbrev main_cst_28 : Ref sig .tc := ⟨.hbm, 145, rfl⟩
abbrev main_v112 : Ref sig .tc := ⟨.hbm, 146, rfl⟩
abbrev main_v113 : Ref sig .tc := ⟨.hbm, 147, rfl⟩
abbrev main_cst_29 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_cst_30 : Ref sig .tc := ⟨.hbm, 164, rfl⟩
abbrev main_v129 : Ref sig .tc := ⟨.hbm, 165, rfl⟩
abbrev main_v130 : Ref sig .tc := ⟨.hbm, 166, rfl⟩
abbrev main_cst_31 : Ref sig .tc := ⟨.hbm, 167, rfl⟩
abbrev main_v131 : Ref sig .tc := ⟨.hbm, 168, rfl⟩
abbrev main_v132 : Ref sig .tc := ⟨.hbm, 169, rfl⟩
abbrev main_cst_32 : Ref sig .tc := ⟨.hbm, 170, rfl⟩
abbrev main_v133 : Ref sig .tc := ⟨.hbm, 171, rfl⟩
abbrev main_v134 : Ref sig .tc := ⟨.hbm, 172, rfl⟩
abbrev main_cst_33 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_cst_34 : Ref sig .tc := ⟨.hbm, 189, rfl⟩
abbrev main_v150 : Ref sig .tc := ⟨.hbm, 190, rfl⟩
abbrev main_v151 : Ref sig .tc := ⟨.hbm, 191, rfl⟩
abbrev main_cst_35 : Ref sig .tc := ⟨.hbm, 192, rfl⟩
abbrev main_v152 : Ref sig .tc := ⟨.hbm, 193, rfl⟩
abbrev main_v153 : Ref sig .tc := ⟨.hbm, 194, rfl⟩
abbrev main_cst_36 : Ref sig .tc := ⟨.hbm, 195, rfl⟩
abbrev main_v154 : Ref sig .tc := ⟨.hbm, 196, rfl⟩
abbrev main_v155 : Ref sig .tc := ⟨.hbm, 197, rfl⟩
abbrev main_cst_37 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_cst_38 : Ref sig .tc := ⟨.hbm, 214, rfl⟩
abbrev main_v171 : Ref sig .tc := ⟨.hbm, 215, rfl⟩
abbrev main_v172 : Ref sig .tc := ⟨.hbm, 216, rfl⟩
abbrev main_cst_39 : Ref sig .tc := ⟨.hbm, 217, rfl⟩
abbrev main_v173 : Ref sig .tc := ⟨.hbm, 218, rfl⟩
abbrev main_v174 : Ref sig .tc := ⟨.hbm, 219, rfl⟩
abbrev main_cst_40 : Ref sig .tc := ⟨.hbm, 220, rfl⟩
abbrev main_v175 : Ref sig .tc := ⟨.hbm, 221, rfl⟩
abbrev main_v176 : Ref sig .tc := ⟨.hbm, 222, rfl⟩
abbrev main_cst_41 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩

abbrev nD : Nat := 1
abbrev τ : Topo := Topo.v7x

variable {F : FTy → Type} [FloatOps F]

class Facts₀ : Prop where
  shapeCasts_S4x4096x1024_S4x16x4096x64 : S4x4096x1024.ShapeCasts S4x16x4096x64
  shapeCasts_S4x16x4096x64_S4x16x8x512x64 : S4x16x4096x64.ShapeCasts S4x16x8x512x64
  reducesTo_S4x16x8x512x64_S4x16x8x64_d3 : S4x16x8x512x64.ReducesTo [3] S4x16x8x64
  h_S_ : 0 < S_.numel
  bcast_S_S4x16x8x64 : S_.BroadcastsInDim S4x16x8x64 (![] : Fin 0 → Fin S4x16x8x64.rank)
  bcast_S_S4x16x4096x8 : S_.BroadcastsInDim S4x16x4096x8 (![] : Fin 0 → Fin S4x16x4096x8.rank)
  reducesTo_S4x16x4096x8_S4x16x4096_d3 : S4x16x4096x8.ReducesTo [3] S4x16x4096
  bcast_S_S4x16x4096 : S_.BroadcastsInDim S4x16x4096 (![] : Fin 0 → Fin S4x16x4096.rank)
  bcast_S4x16x4096_S4x16x4096x1_0_1_2 : S4x16x4096.BroadcastsInDim S4x16x4096x1 (![0, 1, 2] : Fin 3 → Fin S4x16x4096x1.rank)
  bcast_S4x16x4096x1_S4x16x4096x8_0_1_2_3 : S4x16x4096x1.BroadcastsInDim S4x16x4096x8 (![0, 1, 2, 3] : Fin 4 → Fin S4x16x4096x8.rank)
  bcast_S_S4x16x8x8 : S_.BroadcastsInDim S4x16x8x8 (![] : Fin 0 → Fin S4x16x8x8.rank)
  reducesTo_S4x16x8x8_S4x16x8_d3 : S4x16x8x8.ReducesTo [3] S4x16x8
  bcast_S_S4x16x8 : S_.BroadcastsInDim S4x16x8 (![] : Fin 0 → Fin S4x16x8.rank)
  bcast_S4x16x8_S4x16x8x1_0_1_2 : S4x16x8.BroadcastsInDim S4x16x8x1 (![0, 1, 2] : Fin 3 → Fin S4x16x8x1.rank)
  bcast_S4x16x8x1_S4x16x8x8_0_1_2_3 : S4x16x8x1.BroadcastsInDim S4x16x8x8 (![0, 1, 2, 3] : Fin 4 → Fin S4x16x8x8.rank)
  bcast_S_S4x16x8x4096 : S_.BroadcastsInDim S4x16x8x4096 (![] : Fin 0 → Fin S4x16x8x4096.rank)
  reducesTo_S4x16x8x4096_S4x16x8_d3 : S4x16x8x4096.ReducesTo [3] S4x16x8
  bcast_S4x16x8x1_S4x16x8x4096_0_1_2_3 : S4x16x8x1.BroadcastsInDim S4x16x8x4096 (![0, 1, 2, 3] : Fin 4 → Fin S4x16x8x4096.rank)
  bcast_S_S8x8 : S_.BroadcastsInDim S8x8 (![] : Fin 0 → Fin S8x8.rank)
  reducesTo_S4x16x8x8_S4x16x8_d2 : S4x16x8x8.ReducesTo [2] S4x16x8
  reducesTo_S4x16x8_S_d0_1_2 : S4x16x8.ReducesTo [0, 1, 2] S_
  transposes_S4x16x8x8_S4x16x8x8_0_1_3_2 : S4x16x8x8.Transposes [0, 1, 3, 2] S4x16x8x8
  bcast_S8x8_S1x1x8x8_2_3 : S8x8.BroadcastsInDim S1x1x8x8 (![2, 3] : Fin 2 → Fin S1x1x8x8.rank)
  bcast_S1x1x8x8_S4x16x8x8_0_1_2_3 : S1x1x8x8.BroadcastsInDim S4x16x8x8 (![0, 1, 2, 3] : Fin 4 → Fin S4x16x8x8.rank)
  shapeCasts_S4x16x4096x64_S4x4096x1024 : S4x16x4096x64.ShapeCasts S4x4096x1024
  dot_S4x16x4096x64_S4x16x8x64_S4x16x4096x8_3_3_2_2_01_01_wf : DotDims.WF S4x16x4096x64 S4x16x8x64 S4x16x4096x8 [3] [3] [2] [2] [0, 1] [0, 1]
  dot_S4x16x8x64_S4x16x8x64_S4x16x8x8_3_3_2_2_01_01_wf : DotDims.WF S4x16x8x64 S4x16x8x64 S4x16x8x8 [3] [3] [2] [2] [0, 1] [0, 1]
  dot_S4x16x8x64_S4x16x4096x64_S4x16x8x4096_3_3_2_2_01_01_wf : DotDims.WF S4x16x8x64 S4x16x4096x64 S4x16x8x4096 [3] [3] [2] [2] [0, 1] [0, 1]
  dot_S4x16x8x8_S4x16x8x8_S4x16x8x8_3_2_2_3_01_01_wf : DotDims.WF S4x16x8x8 S4x16x8x8 S4x16x8x8 [3] [2] [2] [3] [0, 1] [0, 1]
  dot_S4x16x8x4096_S4x16x4096x64_S4x16x8x64_3_2_2_3_01_01_wf : DotDims.WF S4x16x8x4096 S4x16x4096x64 S4x16x8x64 [3] [2] [2] [3] [0, 1] [0, 1]
  dot_S4x16x4096x8_S4x16x8x8_S4x16x4096x8_3_2_2_3_01_01_wf : DotDims.WF S4x16x4096x8 S4x16x8x8 S4x16x4096x8 [3] [2] [2] [3] [0, 1] [0, 1]
  dot_S4x16x4096x8_S4x16x8x64_S4x16x4096x64_3_2_2_3_01_01_wf : DotDims.WF S4x16x4096x8 S4x16x8x64 S4x16x4096x64 [3] [2] [2] [3] [0, 1] [0, 1]

variable [Facts₀]

def dot_S4x16x4096x64_S4x16x8x64_S4x16x4096x8_3_3_2_2_01_01 : DotDims S4x16x4096x64 S4x16x8x64 S4x16x4096x8 where
  lhsContracting := [3]
  rhsContracting := [3]
  lhsNonContracting := [2]
  rhsNonContracting := [2]
  lhsBatch := [0, 1]
  rhsBatch := [0, 1]
  wf := dot_S4x16x4096x64_S4x16x8x64_S4x16x4096x8_3_3_2_2_01_01_wf
def dot_S4x16x8x64_S4x16x8x64_S4x16x8x8_3_3_2_2_01_01 : DotDims S4x16x8x64 S4x16x8x64 S4x16x8x8 where
  lhsContracting := [3]
  rhsContracting := [3]
  lhsNonContracting := [2]
  rhsNonContracting := [2]
  lhsBatch := [0, 1]
  rhsBatch := [0, 1]
  wf := dot_S4x16x8x64_S4x16x8x64_S4x16x8x8_3_3_2_2_01_01_wf
def dot_S4x16x8x64_S4x16x4096x64_S4x16x8x4096_3_3_2_2_01_01 : DotDims S4x16x8x64 S4x16x4096x64 S4x16x8x4096 where
  lhsContracting := [3]
  rhsContracting := [3]
  lhsNonContracting := [2]
  rhsNonContracting := [2]
  lhsBatch := [0, 1]
  rhsBatch := [0, 1]
  wf := dot_S4x16x8x64_S4x16x4096x64_S4x16x8x4096_3_3_2_2_01_01_wf
def dot_S4x16x8x8_S4x16x8x8_S4x16x8x8_3_2_2_3_01_01 : DotDims S4x16x8x8 S4x16x8x8 S4x16x8x8 where
  lhsContracting := [3]
  rhsContracting := [2]
  lhsNonContracting := [2]
  rhsNonContracting := [3]
  lhsBatch := [0, 1]
  rhsBatch := [0, 1]
  wf := dot_S4x16x8x8_S4x16x8x8_S4x16x8x8_3_2_2_3_01_01_wf
def dot_S4x16x8x4096_S4x16x4096x64_S4x16x8x64_3_2_2_3_01_01 : DotDims S4x16x8x4096 S4x16x4096x64 S4x16x8x64 where
  lhsContracting := [3]
  rhsContracting := [2]
  lhsNonContracting := [2]
  rhsNonContracting := [3]
  lhsBatch := [0, 1]
  rhsBatch := [0, 1]
  wf := dot_S4x16x8x4096_S4x16x4096x64_S4x16x8x64_3_2_2_3_01_01_wf
def dot_S4x16x4096x8_S4x16x8x8_S4x16x4096x8_3_2_2_3_01_01 : DotDims S4x16x4096x8 S4x16x8x8 S4x16x4096x8 where
  lhsContracting := [3]
  rhsContracting := [2]
  lhsNonContracting := [2]
  rhsNonContracting := [3]
  lhsBatch := [0, 1]
  rhsBatch := [0, 1]
  wf := dot_S4x16x4096x8_S4x16x8x8_S4x16x4096x8_3_2_2_3_01_01_wf
def dot_S4x16x4096x8_S4x16x8x64_S4x16x4096x64_3_2_2_3_01_01 : DotDims S4x16x4096x8 S4x16x8x64 S4x16x4096x64 where
  lhsContracting := [3]
  rhsContracting := [2]
  lhsNonContracting := [2]
  rhsNonContracting := [3]
  lhsBatch := [0, 1]
  rhsBatch := [0, 1]
  wf := dot_S4x16x4096x8_S4x16x8x64_S4x16x4096x64_3_2_2_3_01_01_wf

class Facts : Prop extends Facts₀ where

variable [Facts]
-- ==== Proof.KernelRun.lean ====
/-
  The idealized kernel's run with its result named.

  Every weakly fair execution of the kernel's @main terminates without a fault, leaves the three argument arrays as
  launched, and leaves the result array at the last boundary's contents: the fold of the launch memory through the host
  operations before the first region, the first region's write-backs, the host operations between the regions, the
  second region's write-backs and the final regrouping. The launch and the segments are the frame's own; only the
  conclusion read off the last thread state is larger — the result buffer beside the arguments.
-/
import proofs.«120126_j23330262352482_2_alg».proof.Proof.Gen.KernelIdeal.Frame

set_option maxRecDepth 16384

noncomputable section

namespace Cert.KernelIdeal.Landmark

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, the result at the last boundary's contents, the arguments unchanged. -/
theorem run_value : θ_run defs (onTc (τ := τ) (main (F := F))) ⟨m, fun _ => 0, ρ⟩ (fun r => ∀ c : Dev nD,
      r.2.mem ((c.tc : Thread nD τ).loc main_v144) = W5 m ρ c (Proc.devRef .tc main_v144)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v144 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Landmark

end
-- ==== Proof.KernelHost.lean ====
/-
  The host operations between the two regions, read as functions of what the first region left.

  From the stacked 8 × 8 softmax tables K (64 of them) the host forms the identity matrix, the column sums, their
  largest value over all heads, its reciprocal c, the start c · Kᵀ, six steps of the iteration
  V ↦ (V/4) · (13·I − KV · (15·I − KV · (7·I − KV))) with KV = K · V, and the product of the result with the stacked
  K3·v tables. The list of operations is cut into the prelude, the six steps and the last product; each piece is read
  on its own from the contents before it, so that no term repeats an earlier one.
-/
import proofs.«120126_j23330262352482_2_alg».proof.Proof.Gen.KernelIdeal.Frame
import Idealize.ShloMosaic.Lib.StableHlo.Run

set_option maxRecDepth 16384

noncomputable section

namespace Cert.KernelIdeal.Landmark

open Cert.KernelIdeal Cert.KernelIdeal.Gen
open Idealize.ShloMosaic Idealize.ShloMosaic.TcCoe Idealize.ShloMosaic.StableHlo

variable {F : FTy → Type} [FloatOps F]

/-- The identity matrix as the host forms it: the row index compared with the column index, converted to a float. -/
def eyeArr : FVec F S8x8 .f32 :=
  uitofp .f32 (cmpi .eq (addi (iotaInDim S8x8 32 0) (broadcastInDim S8x8 ![] bcast_S_S8x8 (constantI S_ 32 0#32))) (iotaInDim S8x8 32 1))

/-- The start of the iteration: the reciprocal of the largest column sum over all heads, times the transposes. -/
def initArr (K : FVec F S64x8x8 .f32) : FVec F S64x8x8 .f32 :=
  mulf
    (broadcastInDim S64x8x8 ![] bcast_S_S64x8x8
      (Host.divf (constant S_ .f32 0x3F800000#32)
        (Host.reduce FloatOps.maximumf
          (Host.reduceAdd K (constant S_ .f32 0x00000000#32) reducesTo_S64x8x8_S64x8_d1 h_S_)
          (constant S_ .f32 0xFF800000#32) reducesTo_S64x8_S_d0_1 h_S_)))
    (transpose S64x8x8 [0, 2, 1] K transposes_S64x8x8_S64x8x8_0_2_1)

/-- A multiple of the identity, stacked 64 times. -/
def eyeTimes (w : BitVec 32) (E : FVec F S8x8 .f32) : FVec F S64x8x8 .f32 :=
  broadcastInDim S64x8x8 ![0, 1, 2] bcast_S1x8x8_S64x8x8_0_1_2
    (broadcastInDim S1x8x8 ![1, 2] bcast_S8x8_S1x8x8_1_2
      (mulf (broadcastInDim S8x8 ![] bcast_S_S8x8 (constant S_ .f32 w)) E))

/-- The stacked matrix product, head by head. -/
def bmm (A B : FVec F S64x8x8 .f32) : FVec F S64x8x8 .f32 :=
  Host.dotGeneral dot_S64x8x8_S64x8x8_S64x8x8_2_1_1_2_0_0 (some ContractPrecision.fp32) A B

/-- One step of the iteration on the stacked matrices. -/
def stepArr (E : FVec F S8x8 .f32) (K V : FVec F S64x8x8 .f32) : FVec F S64x8x8 .f32 :=
  bmm (mulf (broadcastInDim S64x8x8 ![] bcast_S_S64x8x8 (constant S_ .f32 0x3E800000#32)) V)
    (subf (eyeTimes 0x41500000#32 E)
      (bmm (bmm K V)
        (subf (eyeTimes 0x41700000#32 E)
          (bmm (bmm K V) (subf (eyeTimes 0x40E00000#32 E) (bmm K V))))))

/-- The contents after the prelude (the identity, the scale and the start). -/
def Y0 (V : Valuation τ sig (Elt F)) : Valuation τ sig (Elt F) := after (List.take 16 hostOps1) V
/-- The contents after step 1. -/
def Y1 (V : Valuation τ sig (Elt F)) : Valuation τ sig (Elt F) := after (List.take 25 (List.drop 16 hostOps1)) (Y0 V)
/-- The contents after step 2. -/
def Y2 (V : Valuation τ sig (Elt F)) : Valuation τ sig (Elt F) := after (List.take 25 (List.drop 41 hostOps1)) (Y1 V)
/-- The contents after step 3. -/
def Y3 (V : Valuation τ sig (Elt F)) : Valuation τ sig (Elt F) := after (List.take 25 (List.drop 66 hostOps1)) (Y2 V)
/-- The contents after step 4. -/
def Y4 (V : Valuation τ sig (Elt F)) : Valuation τ sig (Elt F) := after (List.take 25 (List.drop 91 hostOps1)) (Y3 V)
/-- The contents after step 5. -/
def Y5 (V : Valuation τ sig (Elt F)) : Valuation τ sig (Elt F) := after (List.take 25 (List.drop 116 hostOps1)) (Y4 V)
/-- The contents after step 6. -/
def Y6 (V : Valuation τ sig (Elt F)) : Valuation τ sig (Elt F) := after (List.take 25 (List.drop 141 hostOps1)) (Y5 V)
/-- The contents after the last product. -/
def Y7 (V : Valuation τ sig (Elt F)) : Valuation τ sig (Elt F) := after (List.drop 166 hostOps1) (Y6 V)

/-- The list of operations is its pieces in order. -/
theorem hostOps1_pieces : (hostOps1 : List (HloOp τ sig (Elt F))) =
    List.take 16 hostOps1 ++ (List.take 25 (List.drop 16 hostOps1) ++ (List.take 25 (List.drop 41 hostOps1) ++ (List.take 25 (List.drop 66 hostOps1) ++ (List.take 25 (List.drop 91 hostOps1) ++ (List.take 25 (List.drop 116 hostOps1) ++ (List.take 25 (List.drop 141 hostOps1) ++ List.drop 166 hostOps1)))))) := by
  simp only [hostOps1, List.drop_succ_cons, List.drop_zero, List.take_succ_cons, List.take_zero, List.cons_append, List.nil_append]

/-- Running the whole list is running the pieces one after the other. -/
theorem after_hostOps1 (V : Valuation τ sig (Elt F)) : after hostOps1 V = Y7 V := by
  have e := congrArg (fun l => after l V) (hostOps1_pieces (F := F))
  simp only [after_append] at e
  exact e

theorem Y0_eye (V : Valuation τ sig (Elt F)) : Y0 V (Proc.devRef .tc main_v9) = eyeArr := by
  unfold Y0
  simp only [hostOps1, List.drop_succ_cons, List.drop_zero, List.take_succ_cons, List.take_zero]
  after_results_simp
  all_goals rfl

theorem Y0_start (V : Valuation τ sig (Elt F)) : Y0 V (Proc.devRef .tc main_v15) = initArr (V (Proc.devRef .tc main_v3_1)) := by
  unfold Y0
  simp only [hostOps1, List.drop_succ_cons, List.drop_zero, List.take_succ_cons, List.take_zero]
  after_results_simp
  all_goals rfl

theorem Y0_keep_main_v3_1 (V : Valuation τ sig (Elt F)) : Y0 V (Proc.devRef .tc main_v3_1) = V (Proc.devRef .tc main_v3_1) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y0_keep_main_v3_0 (V : Valuation τ sig (Elt F)) : Y0 V (Proc.devRef .tc main_v3_0) = V (Proc.devRef .tc main_v3_0) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y0_keep_main_v3_2 (V : Valuation τ sig (Elt F)) : Y0 V (Proc.devRef .tc main_v3_2) = V (Proc.devRef .tc main_v3_2) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y1_step (V : Valuation τ sig (Elt F)) : Y1 V (Proc.devRef .tc main_v36) =
    stepArr (Y0 V (Proc.devRef .tc main_v9)) (Y0 V (Proc.devRef .tc main_v3_1)) (Y0 V (Proc.devRef .tc main_v15)) := by
  unfold Y1
  simp only [hostOps1, List.drop_succ_cons, List.drop_zero, List.take_succ_cons, List.take_zero]
  after_results_simp
  all_goals rfl

theorem Y1_keep_main_v9 (V : Valuation τ sig (Elt F)) : Y1 V (Proc.devRef .tc main_v9) = Y0 V (Proc.devRef .tc main_v9) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y1_keep_main_v3_1 (V : Valuation τ sig (Elt F)) : Y1 V (Proc.devRef .tc main_v3_1) = Y0 V (Proc.devRef .tc main_v3_1) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y1_keep_main_v3_0 (V : Valuation τ sig (Elt F)) : Y1 V (Proc.devRef .tc main_v3_0) = Y0 V (Proc.devRef .tc main_v3_0) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y1_keep_main_v3_2 (V : Valuation τ sig (Elt F)) : Y1 V (Proc.devRef .tc main_v3_2) = Y0 V (Proc.devRef .tc main_v3_2) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y2_step (V : Valuation τ sig (Elt F)) : Y2 V (Proc.devRef .tc main_v57) =
    stepArr (Y1 V (Proc.devRef .tc main_v9)) (Y1 V (Proc.devRef .tc main_v3_1)) (Y1 V (Proc.devRef .tc main_v36)) := by
  unfold Y2
  simp only [hostOps1, List.drop_succ_cons, List.drop_zero, List.take_succ_cons, List.take_zero]
  after_results_simp
  all_goals rfl

theorem Y2_keep_main_v9 (V : Valuation τ sig (Elt F)) : Y2 V (Proc.devRef .tc main_v9) = Y1 V (Proc.devRef .tc main_v9) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y2_keep_main_v3_1 (V : Valuation τ sig (Elt F)) : Y2 V (Proc.devRef .tc main_v3_1) = Y1 V (Proc.devRef .tc main_v3_1) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y2_keep_main_v3_0 (V : Valuation τ sig (Elt F)) : Y2 V (Proc.devRef .tc main_v3_0) = Y1 V (Proc.devRef .tc main_v3_0) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y2_keep_main_v3_2 (V : Valuation τ sig (Elt F)) : Y2 V (Proc.devRef .tc main_v3_2) = Y1 V (Proc.devRef .tc main_v3_2) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y3_step (V : Valuation τ sig (Elt F)) : Y3 V (Proc.devRef .tc main_v78) =
    stepArr (Y2 V (Proc.devRef .tc main_v9)) (Y2 V (Proc.devRef .tc main_v3_1)) (Y2 V (Proc.devRef .tc main_v57)) := by
  unfold Y3
  simp only [hostOps1, List.drop_succ_cons, List.drop_zero, List.take_succ_cons, List.take_zero]
  after_results_simp
  all_goals rfl

theorem Y3_keep_main_v9 (V : Valuation τ sig (Elt F)) : Y3 V (Proc.devRef .tc main_v9) = Y2 V (Proc.devRef .tc main_v9) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y3_keep_main_v3_1 (V : Valuation τ sig (Elt F)) : Y3 V (Proc.devRef .tc main_v3_1) = Y2 V (Proc.devRef .tc main_v3_1) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y3_keep_main_v3_0 (V : Valuation τ sig (Elt F)) : Y3 V (Proc.devRef .tc main_v3_0) = Y2 V (Proc.devRef .tc main_v3_0) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y3_keep_main_v3_2 (V : Valuation τ sig (Elt F)) : Y3 V (Proc.devRef .tc main_v3_2) = Y2 V (Proc.devRef .tc main_v3_2) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y4_step (V : Valuation τ sig (Elt F)) : Y4 V (Proc.devRef .tc main_v99) =
    stepArr (Y3 V (Proc.devRef .tc main_v9)) (Y3 V (Proc.devRef .tc main_v3_1)) (Y3 V (Proc.devRef .tc main_v78)) := by
  unfold Y4
  simp only [hostOps1, List.drop_succ_cons, List.drop_zero, List.take_succ_cons, List.take_zero]
  after_results_simp
  all_goals rfl

theorem Y4_keep_main_v9 (V : Valuation τ sig (Elt F)) : Y4 V (Proc.devRef .tc main_v9) = Y3 V (Proc.devRef .tc main_v9) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y4_keep_main_v3_1 (V : Valuation τ sig (Elt F)) : Y4 V (Proc.devRef .tc main_v3_1) = Y3 V (Proc.devRef .tc main_v3_1) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y4_keep_main_v3_0 (V : Valuation τ sig (Elt F)) : Y4 V (Proc.devRef .tc main_v3_0) = Y3 V (Proc.devRef .tc main_v3_0) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y4_keep_main_v3_2 (V : Valuation τ sig (Elt F)) : Y4 V (Proc.devRef .tc main_v3_2) = Y3 V (Proc.devRef .tc main_v3_2) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y5_step (V : Valuation τ sig (Elt F)) : Y5 V (Proc.devRef .tc main_v120) =
    stepArr (Y4 V (Proc.devRef .tc main_v9)) (Y4 V (Proc.devRef .tc main_v3_1)) (Y4 V (Proc.devRef .tc main_v99)) := by
  unfold Y5
  simp only [hostOps1, List.drop_succ_cons, List.drop_zero, List.take_succ_cons, List.take_zero]
  after_results_simp
  all_goals rfl

theorem Y5_keep_main_v9 (V : Valuation τ sig (Elt F)) : Y5 V (Proc.devRef .tc main_v9) = Y4 V (Proc.devRef .tc main_v9) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y5_keep_main_v3_1 (V : Valuation τ sig (Elt F)) : Y5 V (Proc.devRef .tc main_v3_1) = Y4 V (Proc.devRef .tc main_v3_1) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y5_keep_main_v3_0 (V : Valuation τ sig (Elt F)) : Y5 V (Proc.devRef .tc main_v3_0) = Y4 V (Proc.devRef .tc main_v3_0) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y5_keep_main_v3_2 (V : Valuation τ sig (Elt F)) : Y5 V (Proc.devRef .tc main_v3_2) = Y4 V (Proc.devRef .tc main_v3_2) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y6_step (V : Valuation τ sig (Elt F)) : Y6 V (Proc.devRef .tc main_v141) =
    stepArr (Y5 V (Proc.devRef .tc main_v9)) (Y5 V (Proc.devRef .tc main_v3_1)) (Y5 V (Proc.devRef .tc main_v120)) := by
  unfold Y6
  simp only [hostOps1, List.drop_succ_cons, List.drop_zero, List.take_succ_cons, List.take_zero]
  after_results_simp
  all_goals rfl

theorem Y6_keep_main_v9 (V : Valuation τ sig (Elt F)) : Y6 V (Proc.devRef .tc main_v9) = Y5 V (Proc.devRef .tc main_v9) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y6_keep_main_v3_1 (V : Valuation τ sig (Elt F)) : Y6 V (Proc.devRef .tc main_v3_1) = Y5 V (Proc.devRef .tc main_v3_1) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y6_keep_main_v3_0 (V : Valuation τ sig (Elt F)) : Y6 V (Proc.devRef .tc main_v3_0) = Y5 V (Proc.devRef .tc main_v3_0) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y6_keep_main_v3_2 (V : Valuation τ sig (Elt F)) : Y6 V (Proc.devRef .tc main_v3_2) = Y5 V (Proc.devRef .tc main_v3_2) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem Y7_last (V : Valuation τ sig (Elt F)) : Y7 V (Proc.devRef .tc main_v142) =
    Host.dotGeneral dot_S64x8x8_S64x8x64_S64x8x64_2_1_1_2_0_0 (some ContractPrecision.fp32)
      (Y6 V (Proc.devRef .tc main_v141)) (Y6 V (Proc.devRef .tc main_v3_2)) := by
  unfold Y7
  simp only [hostOps1, List.drop_succ_cons, List.drop_zero, List.take_succ_cons, List.take_zero]
  after_results_simp
  all_goals rfl

theorem Y7_keep_main_v3_0 (V : Valuation τ sig (Elt F)) : Y7 V (Proc.devRef .tc main_v3_0) = Y6 V (Proc.devRef .tc main_v3_0) :=
  StableHlo.after_of_forall_not_mem _ _ (List.forall_iff_forall_mem.mp (by
    simp only [hostOps1, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

/-- The stacked pseudo-inverses: six steps from the start. -/
def pinvArr (K : FVec F S64x8x8 .f32) : FVec F S64x8x8 .f32 :=
  stepArr eyeArr K (stepArr eyeArr K (stepArr eyeArr K (stepArr eyeArr K (stepArr eyeArr K (stepArr eyeArr K (initArr K))))))

/-- After the host operations between the regions the second factor of the last product holds the stacked
    pseudo-inverses times the stacked K3·v tables of what the first region left. -/
theorem after_hostOps1_W (V : Valuation τ sig (Elt F)) : after hostOps1 V (Proc.devRef .tc main_v142) =
    Host.dotGeneral dot_S64x8x8_S64x8x64_S64x8x64_2_1_1_2_0_0 (some ContractPrecision.fp32)
      (pinvArr (V (Proc.devRef .tc main_v3_1))) (V (Proc.devRef .tc main_v3_2)) := by
  rw [after_hostOps1, Y7_last, Y6_step, Y5_step, Y4_step, Y3_step, Y2_step, Y1_step]
  rw [Y6_keep_main_v3_2, Y5_keep_main_v3_2, Y4_keep_main_v3_2, Y3_keep_main_v3_2, Y2_keep_main_v3_2, Y1_keep_main_v3_2, Y0_keep_main_v3_2, Y5_keep_main_v9, Y4_keep_main_v9, Y3_keep_main_v9, Y2_keep_main_v9, Y1_keep_main_v9, Y0_eye, Y5_keep_main_v3_1, Y4_keep_main_v3_1, Y3_keep_main_v3_1, Y2_keep_main_v3_1, Y1_keep_main_v3_1, Y0_start, Y0_keep_main_v3_1]
  rfl

/-- The first region's softmax table K1 passes the host operations untouched. -/
theorem after_hostOps1_K1 (V : Valuation τ sig (Elt F)) : after hostOps1 V (Proc.devRef .tc main_v3_0) = V (Proc.devRef .tc main_v3_0) := by
  rw [after_hostOps1, Y7_keep_main_v3_0, Y6_keep_main_v3_0, Y5_keep_main_v3_0, Y4_keep_main_v3_0, Y3_keep_main_v3_0, Y2_keep_main_v3_0, Y1_keep_main_v3_0, Y0_keep_main_v3_0]

end Cert.KernelIdeal.Landmark

end
-- ==== Proof.Spec.lean ====
/-
  Landmark attention with an iterated pseudo-inverse, head by head, as functions of extended reals.

  One head is a triple of 4096 × 64 tables q, k, v. Its eight landmark rows are the means of the eight
  consecutive segments of 512 rows (`land`). Three row-wise softmaxes of scaled inner products follow:
  K1 (tokens against the key landmarks, 4096 × 8), K2 (query landmarks against key landmarks, 8 × 8) and
  K3 (query landmarks against the keys, 8 × 4096); K3V is K3 times v (8 × 64). The softmax subtracts the
  row's maximum (taken against −∞, twice, as both programs do), exponentiates and divides by the row's sum.
  A head of the [4, 4096, 1024] input is read through the row-major regrouping into 64 heads (`head`).
-/
import Idealize.ShloMosaic.PureOps.Ideal
import Idealize.ShloMosaic.Lib.ValueIdx

noncomputable section

namespace Cert.Landmark

open Idealize.ShloMosaic Idealize.ShloMosaic.ValueIdx
open scoped BigOperators

/-- The f32 word of −∞, the value every maximum starts from. -/
abbrev negInf : EReal := Ideal.ofBits .f32 0xFF800000#32
/-- The f32 word of 512, the length of a segment. -/
abbrev c512 : EReal := Ideal.ofBits .f32 0x44000000#32
/-- The f32 word of 1/8, the scale of every inner product (1 / √64). -/
abbrev cScale : EReal := Ideal.ofBits .f32 0x3E000000#32

/-- A row's maximum as both programs take it: the fold of `max` from −∞, once more against −∞. -/
def rowMax {n : Nat} (f : Fin n → EReal) : EReal := max negInf ((Finset.univ : Finset (Fin n)).fold max negInf f)

/-- The softmax of a row at an entry: exp (f i − max) over the sum of the exp (f j − max). -/
def smax {n : Nat} (f : Fin n → EReal) (i : Fin n) : EReal :=
  Ideal.div (Ideal.exp (f i - rowMax f)) (∑ j : Fin n, Ideal.exp (f j - rowMax f))

/-- Row `r` of segment `m`. -/
def seg (m : Fin 8) (r : Fin 512) : Fin 4096 := ⟨512 * m.val + r.val, by have := m.isLt; have := r.isLt; omega⟩

/-- The landmark rows: the mean of each segment of 512 rows. -/
def land (x : Fin 4096 → Fin 64 → EReal) (m : Fin 8) (d : Fin 64) : EReal :=
  Ideal.div (∑ r : Fin 512, x (seg m r) d) c512

/-- Tokens against key landmarks: softmax over the 8 landmarks of ⟨q t, land k m⟩ / 8. -/
def K1 (q k : Fin 4096 → Fin 64 → EReal) (t : Fin 4096) (m : Fin 8) : EReal :=
  smax (fun m' : Fin 8 => (∑ d : Fin 64, q t d * land k m' d) * cScale) m

/-- Query landmarks against key landmarks: softmax over n of ⟨land q m, land k n⟩ / 8. -/
def K2 (q k : Fin 4096 → Fin 64 → EReal) (m n : Fin 8) : EReal :=
  smax (fun n' : Fin 8 => (∑ d : Fin 64, land q m d * land k n' d) * cScale) n

/-- Query landmarks against the keys: softmax over the 4096 tokens of ⟨land q m, k t⟩ / 8. -/
def K3 (q k : Fin 4096 → Fin 64 → EReal) (m : Fin 8) (t : Fin 4096) : EReal :=
  smax (fun t' : Fin 4096 => (∑ d : Fin 64, land q m d * k t' d) * cScale) t

/-- K3 times the values. -/
def K3V (q k v : Fin 4096 → Fin 64 → EReal) (m : Fin 8) (d : Fin 64) : EReal :=
  ∑ t : Fin 4096, K3 q k m t * v t d

/-- Head `b` of a [4, 4096, 1024] array under the row-major regrouping into [64, 4096, 64]: entry (b, t, d) is
    the entry whose flat position is (b · 4096 + t) · 64 + d, that is (b / 16, (b % 16) · 256 + t / 16, (t % 16) · 64 + d). -/
def head (X : (⟨3, ![4, 4096, 1024]⟩ : Shape).Idx → EReal) (b : Fin 64) (t : Fin 4096) (d : Fin 64) : EReal :=
  X (ix3 (⟨b.val / 16, by have := b.isLt; omega⟩ : Fin 4)
    (⟨(b.val % 16) * 256 + t.val / 16, by have := b.isLt; have := t.isLt; omega⟩ : Fin 4096)
    (⟨(t.val % 16) * 64 + d.val, by have := t.isLt; have := d.isLt; omega⟩ : Fin 1024))

end Cert.Landmark

end
-- ==== Proof.KernelBoundaries.lean ====
/-
  The idealized kernel's buffers at the boundaries of its run, one by one.

  Before the first region the three inputs are regrouped into 64 heads; the first region's three outputs are what its
  write-backs leave; the host operations between the regions keep the first softmax table and form the stacked
  pseudo-inverses times the stacked K3·v tables; the second region's output is what its write-backs leave; the result is
  that output regrouped.
-/
import proofs.«120126_j23330262352482_2_alg».proof.Proof.KernelHost
import proofs.«120126_j23330262352482_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Landmark

open Cert.KernelIdeal Cert.KernelIdeal.Gen
open Idealize.ShloMosaic Idealize.ShloMosaic.TcCoe Idealize.ShloMosaic.StableHlo Idealize.ShloMosaic.ValueIdx Cert.Landmark
open scoped BigOperators

variable (m : (ℓ : Loc nD τ sig) → Buf (Elt Ideal) ℓ) (ρ : Dev nD → PrngReg)

/-- The regrouping of a [4, 4096, 1024] array into 64 heads, read at (b, t, d). -/
theorem regroup3_apply (X : S4x4096x1024.Idx → EReal) (b : Fin 64) (t : Fin 4096) (d : Fin 64) :
    shapeCast S64x4096x64 X shapeCasts_S4x4096x1024_S64x4096x64 (ix3 b t d) = head X b t d := by
  unfold head
  refine shapeCast_apply X _ (ix3 b t d) _ ?_
  rw [Shape.rowMajor_val_three, Shape.rowMajor_val_three]
  show ((b.val / 16) * 4096 + ((b.val % 16) * 256 + t.val / 16)) * 1024 + ((t.val % 16) * 64 + d.val)
      = (b.val * 4096 + t.val) * 64 + d.val
  have := b.isLt; have := t.isLt; have := d.isLt
  omega

theorem W1_q (c : Dev nD) : W1 m ρ c (Proc.devRef .tc main_v0)
    = shapeCast S64x4096x64 (m ((c : Thread nD τ).loc main_arg0)) shapeCasts_S4x4096x1024_S64x4096x64 := by
  show StableHlo.after hostOps0 (W0 m ρ c) (Proc.devRef .tc main_v0) = _
  after_results
  rfl

theorem W1_k (c : Dev nD) : W1 m ρ c (Proc.devRef .tc main_v1)
    = shapeCast S64x4096x64 (m ((c : Thread nD τ).loc main_arg1)) shapeCasts_S4x4096x1024_S64x4096x64 := by
  show StableHlo.after hostOps0 (W0 m ρ c) (Proc.devRef .tc main_v1) = _
  after_results
  rfl

theorem W1_v (c : Dev nD) : W1 m ρ c (Proc.devRef .tc main_v2)
    = shapeCast S64x4096x64 (m ((c : Thread nD τ).loc main_arg2)) shapeCasts_S4x4096x1024_S64x4096x64 := by
  show StableHlo.after hostOps0 (W0 m ρ c) (Proc.devRef .tc main_v2) = _
  after_results
  rfl

/-- The first region's outputs after it. -/
theorem W2_K1 (c : Dev nD) : W2 m ρ c (Proc.devRef .tc main_v3_0) = (dat0 (V1 m ρ) c).arrAt 3 cfg0.N := W2_arr m ρ c 3
theorem W2_K2 (c : Dev nD) : W2 m ρ c (Proc.devRef .tc main_v3_1) = (dat0 (V1 m ρ) c).arrAt 4 cfg0.N := W2_arr m ρ c 4
theorem W2_K3V (c : Dev nD) : W2 m ρ c (Proc.devRef .tc main_v3_2) = (dat0 (V1 m ρ) c).arrAt 5 cfg0.N := W2_arr m ρ c 5

/-- The second region's inputs at its entry. -/
theorem W3_K1 (c : Dev nD) : W3 m ρ c (Proc.devRef .tc main_v3_0) = (dat0 (V1 m ρ) c).arrAt 3 cfg0.N :=
  (after_hostOps1_K1 (W2 m ρ c)).trans (W2_K1 m ρ c)

theorem W3_W (c : Dev nD) : W3 m ρ c (Proc.devRef .tc main_v142)
    = Host.dotGeneral (F := Ideal) (φ₁ := .f32) (φ₂ := .f32) dot_S64x8x8_S64x8x64_S64x8x64_2_1_1_2_0_0 (some ContractPrecision.fp32)
        (pinvArr ((dat0 (V1 m ρ) c).arrAt 4 cfg0.N)) ((dat0 (V1 m ρ) c).arrAt 5 cfg0.N) := by
  rw [← W2_K2, ← W2_K3V]
  exact after_hostOps1_W (W2 m ρ c)

/-- The second region's output after it, and the result. -/
theorem W4_out (c : Dev nD) : W4 m ρ c (Proc.devRef .tc main_v143) = (dat1 (V3 m ρ) c).arrAt 2 cfg1.N := W4_arr m ρ c 2

theorem W5_result (c : Dev nD) : W5 m ρ c (Proc.devRef .tc main_v144)
    = shapeCast S4x4096x1024 ((dat1 (V3 m ρ) c).arrAt 2 cfg1.N) shapeCasts_S64x4096x64_S4x4096x1024 := by
  rw [← W4_out]
  show StableHlo.after hostOps2 (W4 m ρ c) (Proc.devRef .tc main_v144) = _
  after_results
  rfl

/-- The stacked product of the pseudo-inverses with the K3·v tables, at a head. -/
theorem wdot_apply (A : FVec Ideal S64x8x8 .f32) (B : FVec Ideal S64x8x64 .f32) (b : Fin 64) (i : Fin 8) (d : Fin 64) :
    Host.dotGeneral (F := Ideal) (φ₁ := .f32) (φ₂ := .f32) dot_S64x8x8_S64x8x64_S64x8x64_2_1_1_2_0_0 (some ContractPrecision.fp32) A B (ix3 b i d)
      = ∑ l : Fin 8, A (ix3 b i l) * B (ix3 b l d) := by
  simp only [Host.dotGeneral]
  rw [Ideal.dotGeneral_apply]
  rw [← Equiv.sum_comp (contrEquiv1 dot_S64x8x8_S64x8x64_S64x8x64_2_1_1_2_0_0 8 rfl rfl).symm]
  refine Finset.sum_congr rfl fun l _ => ?_
  have hk := contrEquiv1_symm_val dot_S64x8x8_S64x8x64_S64x8x64_2_1_1_2_0_0 8 rfl rfl l
  congr 2
  · funext c
    refine Fin.ext ?_
    match c with
    | ⟨0, _⟩ => rfl
    | ⟨1, _⟩ => rfl
    | ⟨2, _⟩ => exact (dot_S64x8x8_S64x8x64_S64x8x64_2_1_1_2_0_0.lhsIdx_val_of_single rfl (ix3 b i d) _).trans hk
  · funext c
    refine Fin.ext ?_
    match c with
    | ⟨0, _⟩ => rfl
    | ⟨1, _⟩ => exact (dot_S64x8x8_S64x8x64_S64x8x64_2_1_1_2_0_0.rhsIdx_val_of_single rfl (ix3 b i d) _).trans hk
    | ⟨2, _⟩ => rfl

end Cert.KernelIdeal.Landmark

end
-- ==== Proof.LibRealSums.lean ====
/-
  General lemmas on extended reals that are real numbers. `IsR a` says the extended real `a` is (the coercion of) a real
  number; real numbers are closed under sums, products, maxima and finite sums, and on them the extended reals' arithmetic
  is the reals'. Consequences: a count of ones is a natural number, division by a nonzero real is multiplication by its
  reciprocal, and a finite aggregation (a sum over a finite set plus one more term, scaled by a constant) commutes with a
  linear projection `x ↦ ∑ k, x k * W k`.
-/
import Idealize.ShloMosaic.PureOps.Ideal

noncomputable section

namespace Cert.RealSums

open Idealize.ShloMosaic
open scoped BigOperators

/-- An extended real is real when it is the coercion of a real number (it is neither `⊥` nor `⊤`). -/
def IsR (a : EReal) : Prop := ∃ r : ℝ, a = (r : EReal)

/-- The coercion of a real number is real. -/
theorem IsR.coe (r : ℝ) : IsR (r : EReal) := ⟨r, rfl⟩

/-- Zero is real. -/
theorem IsR.zero : IsR 0 := ⟨0, rfl⟩

/-- One is real. -/
theorem IsR.one : IsR 1 := ⟨1, rfl⟩

/-- The sum of two reals is real. -/
theorem IsR.add {a b : EReal} (ha : IsR a) (hb : IsR b) : IsR (a + b) := by
  obtain ⟨x, rfl⟩ := ha
  obtain ⟨y, rfl⟩ := hb
  exact ⟨x + y, (EReal.coe_add x y).symm⟩

/-- The product of two reals is real. -/
theorem IsR.mul {a b : EReal} (ha : IsR a) (hb : IsR b) : IsR (a * b) := by
  obtain ⟨x, rfl⟩ := ha
  obtain ⟨y, rfl⟩ := hb
  exact ⟨x * y, (EReal.coe_mul x y).symm⟩

/-- The maximum of two reals is real. -/
theorem IsR.max {a b : EReal} (ha : IsR a) (hb : IsR b) : IsR (Max.max a b) := by
  obtain ⟨x, rfl⟩ := ha
  obtain ⟨y, rfl⟩ := hb
  rcases le_total x y with h | h
  · exact ⟨y, max_eq_right (EReal.coe_le_coe_iff.2 h)⟩
  · exact ⟨x, max_eq_left (EReal.coe_le_coe_iff.2 h)⟩

/-- A finite sum of reals is real. -/
theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

/-- The coercion from the reals to the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of ones over a finite set is the set's cardinality. -/
theorem sum_one_eq_card {ι : Type*} (s : Finset ι) : (∑ _i ∈ s, (1 : EReal)) = ((s.card : ℝ) : EReal) := by
  rw [Finset.sum_const, nsmul_one, EReal.coe_coe_eq_natCast]

/-- One more than a count of ones, started at zero, is a positive real number. -/
theorem count_add_one_pos {ι : Type*} (s : Finset ι) :
    ∃ d : ℝ, 0 < d ∧ ((0 : EReal) + ∑ _i ∈ s, (1 : EReal)) + 1 = (d : EReal) := by
  refine ⟨(s.card : ℝ) + 1, by positivity, ?_⟩
  rw [sum_one_eq_card, zero_add, EReal.coe_add, EReal.coe_one]

/-- Multiplying by the quotient `1 / d` of a nonzero real `d` is dividing by `d`. -/
theorem mul_div_one {d : ℝ} (hd : d ≠ 0) (a : EReal) : a * Ideal.div 1 (d : EReal) = Ideal.div a (d : EReal) := by
  rw [Ideal.div_coe hd, Ideal.div_coe hd, one_mul]

/-- The quotient of one by a nonzero real `d` is the real number `1 / d`. -/
theorem div_one_isR {d : ℝ} (hd : d ≠ 0) : Ideal.div 1 (d : EReal) = ((1 / d : ℝ) : EReal) := by
  rw [Ideal.div_coe hd, one_mul]

/-- Aggregation commutes with a linear projection: summing the projections `∑ k, x k * W k` of finitely many real rows,
    adding one more row's projection and scaling by a real constant `c` gives the projection of the row that sums the rows
    coordinatewise, adds the extra row and scales by `c`. -/
theorem aggregate_project {ε : Type*} (P : Finset ε) {K : ℕ} (hrow : ε → Fin K → EReal) (hn : Fin K → EReal)
    (W : Fin K → EReal) (c : EReal) (hh : ∀ e k, IsR (hrow e k)) (hhn : ∀ k, IsR (hn k)) (hW : ∀ k, IsR (W k))
    (hc : IsR c) :
    ((0 + ∑ e ∈ P, ∑ k, hrow e k * W k) + ∑ k, hn k * W k) * c
      = ∑ k, (((0 + ∑ e ∈ P, hrow e k) + hn k) * c) * W k := by
  have hh' : ∀ e k, ∃ r : ℝ, hrow e k = (r : EReal) := hh
  have hhn' : ∀ k, ∃ r : ℝ, hn k = (r : EReal) := hhn
  have hW' : ∀ k, ∃ r : ℝ, W k = (r : EReal) := hW
  choose H hH using hh'
  choose N hN using hhn'
  choose V hV using hW'
  obtain ⟨C, rfl⟩ := hc
  -- everything is the coercion of a real expression
  simp only [hH, hN, hV, zero_add, ← EReal.coe_mul, ← coe_sum, ← EReal.coe_add]
  -- the identity in the reals: exchange the two sums, then distribute
  congr 1
  rw [Finset.sum_comm, ← Finset.sum_add_distrib, Finset.sum_mul]
  refine Finset.sum_congr rfl fun k _ => ?_
  rw [← Finset.sum_mul]
  ring

end Cert.RealSums

end
-- ==== Proof.PseudoInverse.lean ====
/-
  The iterated pseudo-inverse of an 8 × 8 matrix and the two ways of applying it, as functions of extended reals.

  One step of the iteration sends V to (V/4) · (13·I − KV · (15·I − KV · (7·I − KV))) with KV = K · V; it starts from
  c · Kᵀ, where c is the reciprocal of the largest column sum over all heads, and runs six times. The result P enters
  the output either as (K1 · P) · K3V or as K1 · (P · K3V): for real matrices the two agree, by associativity of the
  matrix product over the reals.
-/
import proofs.«120126_j23330262352482_2_alg».proof.Proof.Spec
import proofs.«120126_j23330262352482_2_alg».proof.Proof.LibRealSums

noncomputable section

namespace Cert.Landmark

open Idealize.ShloMosaic Cert.RealSums
open scoped BigOperators

/-- An 8 × 8 matrix of extended reals. -/
abbrev Mat := Fin 8 → Fin 8 → EReal

/-- The f32 words of 7, 15, 13, 1/4 and 1. -/
abbrev c7 : EReal := Ideal.ofBits .f32 0x40E00000#32
abbrev c15 : EReal := Ideal.ofBits .f32 0x41700000#32
abbrev c13 : EReal := Ideal.ofBits .f32 0x41500000#32
abbrev cQuarter : EReal := Ideal.ofBits .f32 0x3E800000#32
abbrev cOne : EReal := Ideal.ofBits .f32 0x3F800000#32

/-- The product of two 8 × 8 matrices. -/
def mmul (A B : Mat) : Mat := fun i j => ∑ l : Fin 8, A i l * B l j

/-- One step of the iteration, `eye` standing for the identity matrix. -/
def nsStep (eye K V : Mat) : Mat :=
  mmul (fun i j => cQuarter * V i j)
    (fun i j => c13 * eye i j - mmul (mmul K V)
      (fun i j => c15 * eye i j - mmul (mmul K V) (fun i j => c7 * eye i j - mmul K V i j) i j) i j)

/-- The starting matrix: the transpose scaled by `c`. -/
def nsInit (c : EReal) (K : Mat) : Mat := fun i j => c * K j i

/-- Six steps from the scaled transpose. -/
def pinv (eye : Mat) (c : EReal) (K : Mat) : Mat :=
  nsStep eye K (nsStep eye K (nsStep eye K (nsStep eye K (nsStep eye K (nsStep eye K (nsInit c K))))))

/-- The output row by row, the pseudo-inverse applied to K3V first. -/
def outRight (A : Fin 4096 → Fin 8 → EReal) (Pm : Mat) (B : Fin 8 → Fin 64 → EReal) (t : Fin 4096) (d : Fin 64) : EReal :=
  ∑ m : Fin 8, A t m * (∑ j : Fin 8, Pm m j * B j d)

/-- The output row by row, K1 applied to the pseudo-inverse first. -/
def outLeft (A : Fin 4096 → Fin 8 → EReal) (Pm : Mat) (B : Fin 8 → Fin 64 → EReal) (t : Fin 4096) (d : Fin 64) : EReal :=
  ∑ j : Fin 8, (∑ m : Fin 8, A t m * Pm m j) * B j d

theorem c7_eq : c7 = ((7 : ℝ) : EReal) := by simp [c7, Ideal.ofBits, Ideal.ieee, -EReal.coe_mul]; norm_num
theorem c15_eq : c15 = ((15 : ℝ) : EReal) := by simp [c15, Ideal.ofBits, Ideal.ieee, -EReal.coe_mul]; norm_num
theorem c13_eq : c13 = ((13 : ℝ) : EReal) := by simp [c13, Ideal.ofBits, Ideal.ieee, -EReal.coe_mul]; norm_num
theorem cQuarter_eq : cQuarter = ((1 / 4 : ℝ) : EReal) := by simp [cQuarter, Ideal.ofBits, Ideal.ieee, -EReal.coe_mul]; norm_num
theorem cOne_eq : cOne = ((1 : ℝ) : EReal) := by simp [cOne, Ideal.ofBits, Ideal.ieee, -EReal.coe_mul]; norm_num

/-- The difference of two reals is real. -/
theorem isR_sub {a b : EReal} (ha : IsR a) (hb : IsR b) : IsR (a - b) := by
  obtain ⟨x, rfl⟩ := ha
  obtain ⟨y, rfl⟩ := hb
  exact ⟨x - y, (EReal.coe_sub x y).symm⟩

/-- A product of real matrices is real. -/
theorem mmul_isR {A B : Mat} (hA : ∀ i j, IsR (A i j)) (hB : ∀ i j, IsR (B i j)) (i j : Fin 8) : IsR (mmul A B i j) :=
  IsR.sum _ _ fun l _ => (hA i l).mul (hB l j)

/-- A step of the iteration keeps real matrices real. -/
theorem nsStep_isR {eye K V : Mat} (hE : ∀ i j, IsR (eye i j)) (hK : ∀ i j, IsR (K i j)) (hV : ∀ i j, IsR (V i j))
    (i j : Fin 8) : IsR (nsStep eye K V i j) := by
  unfold nsStep
  have hKV := mmul_isR hK hV
  refine mmul_isR (fun i j => ?_) (fun i j => ?_) i j
  · rw [cQuarter_eq]; exact (IsR.coe _).mul (hV i j)
  · refine isR_sub (by rw [c13_eq]; exact (IsR.coe _).mul (hE i j)) (mmul_isR hKV (fun i j => ?_) i j)
    refine isR_sub (by rw [c15_eq]; exact (IsR.coe _).mul (hE i j)) (mmul_isR hKV (fun i j => ?_) i j)
    exact isR_sub (by rw [c7_eq]; exact (IsR.coe _).mul (hE i j)) (hKV i j)

/-- The pseudo-inverse of a real matrix from a real scale is real. -/
theorem pinv_isR {eye K : Mat} {c : EReal} (hE : ∀ i j, IsR (eye i j)) (hK : ∀ i j, IsR (K i j)) (hc : IsR c)
    (i j : Fin 8) : IsR (pinv eye c K i j) := by
  unfold pinv
  have h0 : ∀ i j, IsR (nsInit c K i j) := fun i j => hc.mul (hK j i)
  exact nsStep_isR hE hK (nsStep_isR hE hK (nsStep_isR hE hK (nsStep_isR hE hK (nsStep_isR hE hK
    (nsStep_isR hE hK h0))))) i j

/-- For real factors the two ways of applying the pseudo-inverse agree: associativity of the matrix product. -/
theorem outRight_eq_outLeft (A : Fin 4096 → Fin 8 → EReal) (Pm : Mat) (B : Fin 8 → Fin 64 → EReal)
    (hA : ∀ t m, IsR (A t m)) (hP : ∀ i j, IsR (Pm i j)) (hB : ∀ j d, IsR (B j d)) (t : Fin 4096) (d : Fin 64) :
    outRight A Pm B t d = outLeft A Pm B t d := by
  have hA' : ∀ t m, ∃ r : ℝ, A t m = (r : EReal) := hA
  have hP' : ∀ i j, ∃ r : ℝ, Pm i j = (r : EReal) := hP
  have hB' : ∀ j d, ∃ r : ℝ, B j d = (r : EReal) := hB
  choose a ha using hA'
  choose p hp using hP'
  choose b hb using hB'
  unfold outRight outLeft
  simp only [ha, hp, hb, ← EReal.coe_mul, ← coe_sum]
  congr 1
  simp only [Finset.mul_sum, Finset.sum_mul]
  rw [Finset.sum_comm]
  refine Finset.sum_congr rfl fun j _ => Finset.sum_congr rfl fun m _ => ?_
  ring

end Cert.Landmark

end
-- ==== Proof.KernelPinvHeads.lean ====
/-
  The host's stretch between the regions read head by head.

  At head b the stacked matrix product is the product of the head's 8 × 8 matrices, a stacked multiple of the
  identity is that multiple of the identity, and so one step of the iteration on the stacked matrices is, entry by entry,
  one step on the head's matrices; six steps from the scaled transposes give the head's pseudo-inverse.
-/
import proofs.«120126_j23330262352482_2_alg».proof.Proof.KernelHost
import proofs.«120126_j23330262352482_2_alg».proof.Proof.PseudoInverse
import Idealize.ShloMosaic.PureOps.Ideal.Laws
import Idealize.ShloMosaic.Lib.Pipeline.Value
import Idealize.ShloMosaic.Lib.ValueIdx

set_option maxRecDepth 16384

noncomputable section

namespace Cert.KernelIdeal.Landmark

open Cert.KernelIdeal Cert.KernelIdeal.Gen
open Idealize.ShloMosaic Idealize.ShloMosaic.ValueIdx Cert.Landmark
open scoped BigOperators

/-- The stacked product at a head is the product of the head's matrices. -/
theorem bmm_apply (A B : FVec Ideal S64x8x8 .f32) (b : Fin 64) (i j : Fin 8) :
    bmm A B (ix3 b i j) = ∑ l : Fin 8, A (ix3 b i l) * B (ix3 b l j) := by
  unfold bmm
  simp only [Host.dotGeneral]
  rw [Ideal.dotGeneral_apply]
  rw [← Equiv.sum_comp (contrEquiv1 dot_S64x8x8_S64x8x8_S64x8x8_2_1_1_2_0_0 8 rfl rfl).symm]
  refine Finset.sum_congr rfl fun l _ => ?_
  have hk := contrEquiv1_symm_val dot_S64x8x8_S64x8x8_S64x8x8_2_1_1_2_0_0 8 rfl rfl l
  congr 2
  · funext c
    refine Fin.ext ?_
    match c with
    | ⟨0, _⟩ => rfl
    | ⟨1, _⟩ => rfl
    | ⟨2, _⟩ => exact (dot_S64x8x8_S64x8x8_S64x8x8_2_1_1_2_0_0.lhsIdx_val_of_single rfl (ix3 b i j) _).trans hk
  · funext c
    refine Fin.ext ?_
    match c with
    | ⟨0, _⟩ => rfl
    | ⟨1, _⟩ => exact (dot_S64x8x8_S64x8x8_S64x8x8_2_1_1_2_0_0.rhsIdx_val_of_single rfl (ix3 b i j) _).trans hk
    | ⟨2, _⟩ => rfl

/-- A stacked multiple of the identity at a head. -/
theorem eyeTimes_apply (w : BitVec 32) (E : FVec Ideal S8x8 .f32) (b : Fin 64) (i j : Fin 8) :
    eyeTimes w E (ix3 b i j) = Ideal.ofBits .f32 w * E (ix2 i j) := by
  unfold eyeTimes
  rw [broadcastInDim_apply _ _ _ _ (ix3 (0 : Fin 1) i j) (by intro a; match a with | ⟨0, _⟩ => rfl | ⟨1, _⟩ => rfl | ⟨2, _⟩ => rfl)]
  rw [broadcastInDim_apply _ _ _ _ (ix2 i j) (by intro a; match a with | ⟨0, _⟩ => rfl | ⟨1, _⟩ => rfl)]
  rfl

/-- A scalar spread over the stack reads the scalar everywhere. -/
theorem splat_apply (x : FVec Ideal S_ .f32) (b : Fin 64) (i j : Fin 8) :
    broadcastInDim S64x8x8 ![] bcast_S_S64x8x8 x (ix3 b i j) = x ix0 := by
  rw [broadcastInDim_apply _ _ _ _ ix0 (by intro a; exact a.elim0)]

/-- The head's matrix of a stack. -/
def headMat (X : FVec Ideal S64x8x8 .f32) (b : Fin 64) : Mat := fun i j => X (ix3 b i j)

/-- The identity matrix as a matrix of extended reals. -/
def eyeMat (E : FVec Ideal S8x8 .f32) : Mat := fun i j => E (ix2 i j)

/-- One step on the stack is, at a head, one step on the head's matrices. -/
theorem stepArr_apply (E : FVec Ideal S8x8 .f32) (K V : FVec Ideal S64x8x8 .f32) (b : Fin 64) :
    headMat (stepArr E K V) b = nsStep (eyeMat E) (headMat K b) (headMat V b) := by
  have hKV : headMat (bmm K V) b = mmul (headMat K b) (headMat V b) := by
    funext i j; exact bmm_apply K V b i j
  have inner : ∀ (w : BitVec 32) (X : FVec Ideal S64x8x8 .f32) (Xs : Mat), headMat X b = Xs →
      headMat (subf (eyeTimes w E) (bmm (bmm K V) X)) b
        = fun i j => Ideal.ofBits .f32 w * eyeMat E i j - mmul (mmul (headMat K b) (headMat V b)) Xs i j := by
    intro w X Xs hX
    funext i j
    show eyeTimes w E (ix3 b i j) - bmm (bmm K V) X (ix3 b i j) = _
    rw [eyeTimes_apply, bmm_apply]
    have e1 : ∀ l, bmm K V (ix3 b i l) = mmul (headMat K b) (headMat V b) i l := fun l => congrFun (congrFun hKV i) l
    have e2 : ∀ l, X (ix3 b l j) = Xs l j := fun l => congrFun (congrFun hX l) j
    simp only [e1, e2]
    rfl
  have h7 : headMat (subf (eyeTimes 0x40E00000#32 E) (bmm K V)) b
      = fun i j => c7 * eyeMat E i j - mmul (headMat K b) (headMat V b) i j := by
    funext i j
    show eyeTimes _ E (ix3 b i j) - bmm K V (ix3 b i j) = _
    rw [eyeTimes_apply, bmm_apply]
    rfl
  have h15 := inner 0x41700000#32 _ _ h7
  have h13 := inner 0x41500000#32 _ _ h15
  funext i j
  show bmm _ _ (ix3 b i j) = _
  rw [bmm_apply]
  unfold nsStep
  show _ = ∑ l : Fin 8, _
  refine Finset.sum_congr rfl fun l _ => ?_
  have eL : (mulf (broadcastInDim S64x8x8 ![] bcast_S_S64x8x8 (constant S_ .f32 0x3E800000#32)) V) (ix3 b i l)
      = cQuarter * headMat V b i l := by
    show broadcastInDim S64x8x8 ![] bcast_S_S64x8x8 (constant S_ .f32 0x3E800000#32) (ix3 b i l) * V (ix3 b i l) = _
    rw [splat_apply]
    rfl
  rw [eL]
  exact congrArg (cQuarter * headMat V b i l * ·) (congrFun (congrFun h13 l) j)

/-- The scale of the start: the reciprocal of the largest column sum over all heads. -/
def startScale (K : FVec Ideal S64x8x8 .f32) : EReal :=
  (Host.divf (constant S_ .f32 0x3F800000#32)
    (Host.reduce FloatOps.maximumf
      (Host.reduceAdd K (constant S_ .f32 0x00000000#32) reducesTo_S64x8x8_S64x8_d1 h_S_)
      (constant S_ .f32 0xFF800000#32) reducesTo_S64x8_S_d0_1 h_S_)) ix0

/-- The start at a head: the scaled transpose. -/
theorem initArr_apply (K : FVec Ideal S64x8x8 .f32) (b : Fin 64) :
    headMat (initArr K) b = nsInit (startScale K) (headMat K b) := by
  funext i j
  show initArr K (ix3 b i j) = _
  unfold initArr
  rw [mulf_apply, splat_apply, transpose_apply _ _ _ _ (ix3 b j i) (by intro a; match a with | ⟨0, _⟩ => rfl | ⟨1, _⟩ => rfl | ⟨2, _⟩ => rfl)]
  rfl

/-- Six steps on the stack are, at a head, the head's pseudo-inverse. -/
theorem pinvArr_apply (K : FVec Ideal S64x8x8 .f32) (b : Fin 64) :
    headMat (pinvArr K) b = pinv (eyeMat eyeArr) (startScale K) (headMat K b) := by
  have h0 := initArr_apply K b
  have h1 := (stepArr_apply eyeArr K _ b).trans (congrArg (nsStep (eyeMat eyeArr) (headMat K b)) h0)
  have h2 := (stepArr_apply eyeArr K _ b).trans (congrArg (nsStep (eyeMat eyeArr) (headMat K b)) h1)
  have h3 := (stepArr_apply eyeArr K _ b).trans (congrArg (nsStep (eyeMat eyeArr) (headMat K b)) h2)
  have h4 := (stepArr_apply eyeArr K _ b).trans (congrArg (nsStep (eyeMat eyeArr) (headMat K b)) h3)
  have h5 := (stepArr_apply eyeArr K _ b).trans (congrArg (nsStep (eyeMat eyeArr) (headMat K b)) h4)
  exact (stepArr_apply eyeArr K _ b).trans (congrArg (nsStep (eyeMat eyeArr) (headMat K b)) h5)

end Cert.KernelIdeal.Landmark

end
-- ==== Proof.SoftmaxReal.lean ====
/-
  Real-valuedness through the softmax.

  The extended reals that are real numbers (`IsR`) are closed under the operations the two programs apply to finite
  inputs: differences, the exponential (which is moreover positive), the maximum of a nonempty row started from −∞,
  and the quotient by a positive real. Hence every entry of a softmax of a real row is a positive real, every landmark
  entry of a real table is real, and the three softmax tables and K3·v of a real head are real.
-/
import proofs.«120126_j23330262352482_2_alg».proof.Proof.Spec
import proofs.«120126_j23330262352482_2_alg».proof.Proof.LibRealSums

noncomputable section

namespace Cert.Landmark

open Idealize.ShloMosaic Cert.RealSums
open scoped BigOperators

/-- The word of −∞ is the bottom of the extended reals. -/
theorem negInf_eq : negInf = ⊥ := by
  simp [negInf, Ideal.ofBits, Ideal.ieee]

/-- The word 0x44000000 is 512. -/
theorem c512_eq : c512 = ((512 : ℝ) : EReal) := by
  simp [c512, Ideal.ofBits, Ideal.ieee, -EReal.coe_mul]; norm_num

/-- The word 0x3E000000 is 1/8. -/
theorem cScale_eq : cScale = ((1 / 8 : ℝ) : EReal) := by
  simp [cScale, Ideal.ofBits, Ideal.ieee, -EReal.coe_mul]; norm_num

/-- An extended real that is a positive real number. -/
def IsPos (a : EReal) : Prop := ∃ r : ℝ, 0 < r ∧ a = (r : EReal)

theorem IsPos.isR {a : EReal} (h : IsPos a) : IsR a := let ⟨r, _, e⟩ := h; ⟨r, e⟩

/-- The difference of two reals is real. -/
theorem _root_.Cert.RealSums.IsR.sub {a b : EReal} (ha : IsR a) (hb : IsR b) : IsR (a - b) := by
  obtain ⟨x, rfl⟩ := ha
  obtain ⟨y, rfl⟩ := hb
  exact ⟨x - y, (EReal.coe_sub x y).symm⟩

/-- The exponential of a real is a positive real. -/
theorem IsPos.exp {a : EReal} (ha : IsR a) : IsPos (Ideal.exp a) := by
  obtain ⟨x, rfl⟩ := ha
  exact ⟨Real.exp x, Real.exp_pos x, rfl⟩

/-- The sum of two positive reals is a positive real. -/
theorem IsPos.add {a b : EReal} (ha : IsPos a) (hb : IsPos b) : IsPos (a + b) := by
  obtain ⟨x, hx, rfl⟩ := ha
  obtain ⟨y, hy, rfl⟩ := hb
  exact ⟨x + y, add_pos hx hy, (EReal.coe_add x y).symm⟩

/-- A sum of positive reals over a nonempty finite set is a positive real. -/
theorem IsPos.sum {ι : Type*} (s : Finset ι) (hs : s.Nonempty) (f : ι → EReal) (h : ∀ i ∈ s, IsPos (f i)) :
    IsPos (∑ i ∈ s, f i) := by
  classical
  induction hs using Finset.Nonempty.cons_induction with
  | singleton a => rw [Finset.sum_singleton]; exact h a (Finset.mem_singleton_self a)
  | cons a s ha hs ih =>
    rw [Finset.sum_cons]
    exact (h a (Finset.mem_cons_self a s)).add (ih fun i hi => h i (Finset.mem_cons.mpr (Or.inr hi)))

/-- The quotient of a real by a positive real is real. -/
theorem _root_.Cert.RealSums.IsR.div_pos {a b : EReal} (ha : IsR a) (hb : IsPos b) : IsR (Ideal.div a b) := by
  obtain ⟨y, hy, rfl⟩ := hb
  rw [Ideal.div_coe (ne_of_gt hy)]
  exact ha.mul (IsR.coe _)

/-- The quotient of a positive real by a positive real is a positive real. -/
theorem IsPos.div {a b : EReal} (ha : IsPos a) (hb : IsPos b) : IsPos (Ideal.div a b) := by
  obtain ⟨x, hx, rfl⟩ := ha
  obtain ⟨y, hy, rfl⟩ := hb
  rw [Ideal.div_coe (ne_of_gt hy)]
  exact ⟨x * (1 / y), mul_pos hx (one_div_pos.mpr hy), (EReal.coe_mul x (1 / y)).symm⟩

/-- The fold of `max` from −∞ over a finite set of reals is −∞ on the empty set and real otherwise. -/
theorem fold_max_bot_isR {ι : Type*} (s : Finset ι) (f : ι → EReal) (h : ∀ i ∈ s, IsR (f i)) :
    (s = ∅ ∧ s.fold max (⊥ : EReal) f = ⊥) ∨ IsR (s.fold max (⊥ : EReal) f) := by
  classical
  induction s using Finset.induction_on with
  | empty => exact Or.inl ⟨rfl, Finset.fold_empty⟩
  | insert a s ha ih =>
    refine Or.inr ?_
    rw [Finset.fold_insert ha]
    have hfa := h a (Finset.mem_insert_self a s)
    rcases ih (fun i hi => h i (Finset.mem_insert_of_mem hi)) with ⟨-, e⟩ | hr
    · rw [e, max_bot_right]; exact hfa
    · exact hfa.max hr

/-- The maximum of a nonempty real row is real. -/
theorem rowMax_isR {n : Nat} (hn : 0 < n) (f : Fin n → EReal) (h : ∀ i, IsR (f i)) : IsR (rowMax f) := by
  unfold rowMax
  rw [negInf_eq]
  rcases fold_max_bot_isR (Finset.univ : Finset (Fin n)) f (fun i _ => h i) with ⟨e, -⟩ | hr
  · exact absurd e (Finset.univ_nonempty_iff.mpr ⟨⟨0, hn⟩⟩).ne_empty
  · rw [max_eq_right bot_le]; exact hr

/-- Every entry of the softmax of a nonempty real row is a positive real. -/
theorem smax_isPos {n : Nat} (hn : 0 < n) (f : Fin n → EReal) (h : ∀ i, IsR (f i)) (i : Fin n) : IsPos (smax f i) := by
  unfold smax
  have hm := rowMax_isR hn f h
  exact (IsPos.exp ((h i).sub hm)).div
    (IsPos.sum _ (Finset.univ_nonempty_iff.mpr ⟨⟨0, hn⟩⟩) _ fun j _ => IsPos.exp ((h j).sub hm))

/-- The landmark rows of a real table are real. -/
theorem land_isR (x : Fin 4096 → Fin 64 → EReal) (hx : ∀ t d, IsR (x t d)) (m : Fin 8) (d : Fin 64) : IsR (land x m d) := by
  unfold land
  rw [c512_eq]
  exact (IsR.sum _ _ fun r _ => hx _ _).div_pos ⟨512, by norm_num, rfl⟩

/-- A scaled inner product of real rows is real. -/
theorem dot_scale_isR (a b : Fin 64 → EReal) (ha : ∀ d, IsR (a d)) (hb : ∀ d, IsR (b d)) :
    IsR ((∑ d : Fin 64, a d * b d) * cScale) := by
  rw [cScale_eq]
  exact (IsR.sum _ _ fun d _ => (ha d).mul (hb d)).mul (IsR.coe _)

variable (q k v : Fin 4096 → Fin 64 → EReal) (hq : ∀ t d, IsR (q t d)) (hk : ∀ t d, IsR (k t d)) (hv : ∀ t d, IsR (v t d))
include hq hk

/-- K1 of a real head is positive real. -/
theorem K1_isPos (t : Fin 4096) (m : Fin 8) : IsPos (K1 q k t m) :=
  smax_isPos (by norm_num) _ (fun m' => dot_scale_isR _ _ (hq t) (land_isR k hk m')) m

/-- K2 of a real head is positive real. -/
theorem K2_isPos (m n : Fin 8) : IsPos (K2 q k m n) :=
  smax_isPos (by norm_num) _ (fun n' => dot_scale_isR _ _ (land_isR q hq m) (land_isR k hk n')) n

/-- K3 of a real head is positive real. -/
theorem K3_isPos (m : Fin 8) (t : Fin 4096) : IsPos (K3 q k m t) :=
  smax_isPos (by norm_num) _ (fun t' => dot_scale_isR _ _ (land_isR q hq m) (hk t')) t

include hv in
/-- K3·v of a real head is real. -/
theorem K3V_isR (m : Fin 8) (d : Fin 64) : IsR (K3V q k v m d) :=
  IsR.sum _ _ fun t _ => (K3_isPos q k hq hk m t).isR.mul (hv t d)

end Cert.Landmark

end
-- ==== Proof.ColumnMax.lean ====
/-
  The largest column sum over all heads and the scale it gives.

  Both programs fold `max` from −∞ over every (head, column) pair of the column sums of the second softmax table and
  divide 1 by the result. The fold does not depend on how the pairs are indexed; over positive real column sums it is a
  positive real, so the scale is a real number.
-/
import proofs.«120126_j23330262352482_2_alg».proof.Proof.SoftmaxReal
import proofs.«120126_j23330262352482_2_alg».proof.Proof.PseudoInverse

noncomputable section

namespace Cert.Landmark

open Idealize.ShloMosaic Cert.RealSums
open scoped BigOperators

/-- The fold of `max` from −∞ over all indices. -/
def colMax {ι : Type*} [Fintype ι] (col : ι → EReal) : EReal := (Finset.univ : Finset ι).fold max negInf col

/-- The scale of the start of the iteration: 1 over the largest column sum. -/
def scaleOf (g : EReal) : EReal := Ideal.div cOne g

/-- The fold does not depend on the indexing: along a bijection of the index sets it is the same. -/
theorem colMax_equiv {α β : Type*} [Fintype α] [Fintype β] (e : α ≃ β) (f : β → EReal) :
    colMax (fun x => f (e x)) = colMax f := by
  unfold colMax
  have h := Finset.fold_map (op := (max : EReal → EReal → EReal)) (b := negInf) (f := f) (g := e.toEmbedding)
    (s := (Finset.univ : Finset α))
  rw [Finset.map_univ_equiv] at h
  exact h.symm

/-- The column sums of the heads' second softmax tables, by (head, column). -/
def colSums (Kh : Fin 64 → Mat) : Fin 64 × Fin 8 → EReal := fun p => ∑ m : Fin 8, Kh p.1 m p.2

/-- Over positive real columns the largest column sum is a positive real. -/
theorem colMax_isPos {ι : Type*} [Fintype ι] [Nonempty ι] (col : ι → EReal) (h : ∀ i, IsPos (col i)) : IsPos (colMax col) := by
  classical
  unfold colMax
  rw [negInf_eq]
  have key : ∀ s : Finset ι, (s = ∅ ∧ s.fold max (⊥ : EReal) col = ⊥) ∨ IsPos (s.fold max (⊥ : EReal) col) := by
    intro s
    induction s using Finset.induction_on with
    | empty => exact Or.inl ⟨rfl, Finset.fold_empty⟩
    | insert a s ha ih =>
      refine Or.inr ?_
      rw [Finset.fold_insert ha]
      rcases ih with ⟨-, e⟩ | hr
      · rw [e, max_bot_right]; exact h a
      · obtain ⟨x, hx, ex⟩ := h a
        obtain ⟨y, hy, ey⟩ := hr
        rw [ex, ey]
        rcases le_total x y with hxy | hxy
        · exact ⟨y, hy, max_eq_right (EReal.coe_le_coe_iff.2 hxy)⟩
        · exact ⟨x, hx, max_eq_left (EReal.coe_le_coe_iff.2 hxy)⟩
  rcases key Finset.univ with ⟨e, -⟩ | hr
  · exact absurd e Finset.univ_nonempty.ne_empty
  · exact hr

/-- The scale of a positive real is real. -/
theorem scaleOf_isR {g : EReal} (hg : IsPos g) : IsR (scaleOf g) := by
  unfold scaleOf
  rw [cOne_eq]
  exact (IsR.coe _).div_pos hg

/-- The column sums of positive real tables are positive reals. -/
theorem colSums_isPos (Kh : Fin 64 → Mat) (h : ∀ b i j, IsPos (Kh b i j)) (p : Fin 64 × Fin 8) : IsPos (colSums Kh p) :=
  IsPos.sum _ Finset.univ_nonempty _ fun m _ => h p.1 m p.2

end Cert.Landmark

end
-- ==== Proof.KernelScale.lean ====
/-
  The scale of the iteration's start, in the host's stretch between the regions.

  The column sums of the stacked tables (from 0) are folded by `max` from −∞ over every head and column, and 1 is divided
  by the result: that is the scale of the largest column sum over the (head, column) pairs, however the stack is indexed.
-/
import proofs.«120126_j23330262352482_2_alg».proof.Proof.KernelPinvHeads
import proofs.«120126_j23330262352482_2_alg».proof.Proof.ColumnMax
import Idealize.ShloMosaic.PureOps.Reduce

set_option maxRecDepth 16384

noncomputable section

namespace Cert.KernelIdeal.Landmark

open Cert.KernelIdeal Cert.KernelIdeal.Gen
open Idealize.ShloMosaic Idealize.ShloMosaic.ValueIdx Cert.Landmark
open scoped BigOperators

instance : Subsingleton S_.Idx := ⟨fun a b => funext fun d => d.elim0⟩

/-- The scale is 1 over the largest column sum over the (head, column) pairs. -/
theorem startScale_eq (K : FVec Ideal S64x8x8 .f32) (Kh : Fin 64 → Mat) (hK : ∀ b, headMat K b = Kh b) :
    startScale K = scaleOf (colMax (colSums Kh)) := by
  have hR : S64x8x8.Reduces [1] S64x8 := by decide
  unfold startScale scaleOf
  show Ideal.div cOne (Host.reduce (FloatOps.maximumf (F := Ideal) (φ := .f32)) _ _ _ _ ix0) = _
  refine congrArg (Ideal.div cOne) ?_
  rw [Host.reduce_eq_fold, Finset.filter_true_of_mem (fun i _ => Subsingleton.elim _ _),
    ← colMax_equiv (idxEquiv2 : S64x8.Idx ≃ Fin 64 × Fin 8) (colSums Kh)]
  unfold colMax
  show (Finset.univ : Finset S64x8.Idx).fold max negInf _ = _
  refine Finset.fold_congr fun x _ => ?_
  obtain ⟨p, n, rfl⟩ : ∃ (p : Fin 64) (n : Fin 8), x = ix2 p n := ⟨x 0, x 1, eq_ix2 x⟩
  show Ideal.hostReduceAdd reducesTo_S64x8x8_S64x8_d1 K (Ideal.ofBits .f32 0x00000000#32) (ix2 p n) = colSums Kh (p, n)
  rw [Ideal.hostReduceAdd_single _ hR, Ideal.ofBits_zero_f32, zero_add]
  unfold colSums
  refine Finset.sum_congr rfl fun m _ => ?_
  rw [← hK p]
  exact congrArg K (funext fun c => Fin.ext (by match c with | ⟨0, _⟩ => rfl | ⟨1, _⟩ => rfl | ⟨2, _⟩ => rfl))

end Cert.KernelIdeal.Landmark

end
-- ==== Proof.BlkLandmarks.lean ====
/-
  The landmark rows of one head as the kernel's body forms them.

  The body cuts the 4096 × 64 table into eight slices of 512 consecutive rows, sums each slice down its rows, divides
  the sums by 512 and stacks the eight resulting rows. Read at an entry, row m of the stack is the mean of segment m:
  the specification's `land`.
-/
import proofs.«120126_j23330262352482_2_alg».proof.Proof.Gen.KernelIdeal.Skeleton
import proofs.«120126_j23330262352482_2_alg».proof.Proof.Spec
import Idealize.ShloMosaic.PureOps.Ideal.Laws
import Idealize.ShloMosaic.Lib.Pipeline.Value
import Idealize.ShloMosaic.Lib.ValueIdx

noncomputable section

namespace Cert.Landmark

open Idealize.ShloMosaic Idealize.ShloMosaic.ValueIdx Cert.KernelIdeal Cert.KernelIdeal.Gen
open scoped BigOperators

/-- The sum down the rows of the slice of 512 rows that starts at row `off`, as a 1 × 64 row. -/
def segSum (x : FVec Ideal S4096x64 .f32) (off : Nat) (h : S4096x64.Slices ![off, 0] S512x64) : FVec Ideal S1x64 .f32 :=
  shapeCast S1x64 (multiReduction .add [0] S64 (extractStridedSlice S512x64 ![off, 0] x h) 0x00000000#32
    reduces_S512x64_S64 (.inl rfl) rfl) shapeCasts_S64_S1x64

/-- That sum at column d: the sum over the segment's rows. -/
theorem segSum_apply (x : FVec Ideal S4096x64 .f32) (off : Nat) (h : S4096x64.Slices ![off, 0] S512x64)
    (m : Fin 8) (hm : off = 512 * m.val) (d : Fin 64) :
    segSum x off h (ix2 (0 : Fin 1) d) = ∑ r : Fin 512, x (ix2 (seg m r) d) := by
  unfold segSum
  refine (shapeCast_apply _ shapeCasts_S64_S1x64 (ix2 (0 : Fin 1) d) (ix1 d) ?_).trans ?_
  · rw [Shape.rowMajor_val_one, Shape.rowMajor_val_two]
    show d.val = 0 * 64 + d.val
    omega
  refine (Ideal.multiReduction_add_single _ _ reduces_S512x64_S64 _ _ (ix1 d)).trans ?_
  refine Finset.sum_congr rfl fun r _ => ?_
  refine extractStridedSlice_apply _ x h _ (ix2 (seg m r) d) fun a => ?_
  match a with
  | ⟨0, _⟩ =>
    show 512 * m.val + r.val = off + r.val
    omega
  | ⟨1, _⟩ =>
    show d.val = 0 + d.val
    omega

/-- The mean of the slice: its sum divided by 512. -/
def segMean (x : FVec Ideal S4096x64 .f32) (off : Nat) (h : S4096x64.Slices ![off, 0] S512x64) : FVec Ideal S1x64 .f32 :=
  divf (segSum x off h) (broadcast S1x64 (Scalar.ofBits .f32 0x44000000#32))

/-- The mean of the slice that starts at row 512 m is landmark row m. -/
theorem segMean_apply (x : FVec Ideal S4096x64 .f32) (off : Nat) (h : S4096x64.Slices ![off, 0] S512x64)
    (m : Fin 8) (hm : off = 512 * m.val) (d : Fin 64) :
    segMean x off h (ix2 (0 : Fin 1) d) = land (fun t d => x (ix2 t d)) m d := by
  unfold segMean land
  show Ideal.div (segSum x off h (ix2 (0 : Fin 1) d)) (Ideal.ofBits .f32 0x44000000#32) = _
  rw [segSum_apply x off h m hm d]

/-- Eight 1 × 64 rows stacked: row m of the stack is the m-th piece. -/
theorem rows8_apply (p0 p1 p2 p3 p4 p5 p6 p7 : FVec Ideal S1x64 .f32)
    (h : Shape.Concatenates [S1x64, S1x64, S1x64, S1x64, S1x64, S1x64, S1x64, S1x64] S8x64 0)
    (g : Fin 8 → Fin 64 → EReal)
    (h0 : ∀ d, p0 (ix2 (0 : Fin 1) d) = g 0 d) (h1 : ∀ d, p1 (ix2 (0 : Fin 1) d) = g 1 d)
    (h2 : ∀ d, p2 (ix2 (0 : Fin 1) d) = g 2 d) (h3 : ∀ d, p3 (ix2 (0 : Fin 1) d) = g 3 d)
    (h4 : ∀ d, p4 (ix2 (0 : Fin 1) d) = g 4 d) (h5 : ∀ d, p5 (ix2 (0 : Fin 1) d) = g 5 d)
    (h6 : ∀ d, p6 (ix2 (0 : Fin 1) d) = g 6 d) (h7 : ∀ d, p7 (ix2 (0 : Fin 1) d) = g 7 d)
    (m : Fin 8) (d : Fin 64) :
    concatenate S8x64 0 [⟨S1x64, p0⟩, ⟨S1x64, p1⟩, ⟨S1x64, p2⟩, ⟨S1x64, p3⟩, ⟨S1x64, p4⟩, ⟨S1x64, p5⟩, ⟨S1x64, p6⟩, ⟨S1x64, p7⟩] h (ix2 m d)
      = g m d := by
  match m with
  | ⟨0, _⟩ =>
    exact (concatenate_apply_piece (t := S8x64) (0 : Fin S8x64.rank) [⟨S1x64, p0⟩, ⟨S1x64, p1⟩, ⟨S1x64, p2⟩, ⟨S1x64, p3⟩, ⟨S1x64, p4⟩, ⟨S1x64, p5⟩, ⟨S1x64, p6⟩, ⟨S1x64, p7⟩] h (ix2 (⟨0, by omega⟩ : Fin 8) d) 0 (by show 0 < 8; omega) S1x64 p0 rfl rfl 0 rfl (ix2 (0 : Fin 1) d)
      (fun b hb => by match b with | ⟨0, _⟩ => exact absurd rfl hb | ⟨1, _⟩ => rfl) rfl).trans (h0 d)
  | ⟨1, _⟩ =>
    exact (concatenate_apply_piece (t := S8x64) (0 : Fin S8x64.rank) [⟨S1x64, p0⟩, ⟨S1x64, p1⟩, ⟨S1x64, p2⟩, ⟨S1x64, p3⟩, ⟨S1x64, p4⟩, ⟨S1x64, p5⟩, ⟨S1x64, p6⟩, ⟨S1x64, p7⟩] h (ix2 (⟨1, by omega⟩ : Fin 8) d) 1 (by show 1 < 8; omega) S1x64 p1 rfl rfl 1 rfl (ix2 (0 : Fin 1) d)
      (fun b hb => by match b with | ⟨0, _⟩ => exact absurd rfl hb | ⟨1, _⟩ => rfl) rfl).trans (h1 d)
  | ⟨2, _⟩ =>
    exact (concatenate_apply_piece (t := S8x64) (0 : Fin S8x64.rank) [⟨S1x64, p0⟩, ⟨S1x64, p1⟩, ⟨S1x64, p2⟩, ⟨S1x64, p3⟩, ⟨S1x64, p4⟩, ⟨S1x64, p5⟩, ⟨S1x64, p6⟩, ⟨S1x64, p7⟩] h (ix2 (⟨2, by omega⟩ : Fin 8) d) 2 (by show 2 < 8; omega) S1x64 p2 rfl rfl 2 rfl (ix2 (0 : Fin 1) d)
      (fun b hb => by match b with | ⟨0, _⟩ => exact absurd rfl hb | ⟨1, _⟩ => rfl) rfl).trans (h2 d)
  | ⟨3, _⟩ =>
    exact (concatenate_apply_piece (t := S8x64) (0 : Fin S8x64.rank) [⟨S1x64, p0⟩, ⟨S1x64, p1⟩, ⟨S1x64, p2⟩, ⟨S1x64, p3⟩, ⟨S1x64, p4⟩, ⟨S1x64, p5⟩, ⟨S1x64, p6⟩, ⟨S1x64, p7⟩] h (ix2 (⟨3, by omega⟩ : Fin 8) d) 3 (by show 3 < 8; omega) S1x64 p3 rfl rfl 3 rfl (ix2 (0 : Fin 1) d)
      (fun b hb => by match b with | ⟨0, _⟩ => exact absurd rfl hb | ⟨1, _⟩ => rfl) rfl).trans (h3 d)
  | ⟨4, _⟩ =>
    exact (concatenate_apply_piece (t := S8x64) (0 : Fin S8x64.rank) [⟨S1x64, p0⟩, ⟨S1x64, p1⟩, ⟨S1x64, p2⟩, ⟨S1x64, p3⟩, ⟨S1x64, p4⟩, ⟨S1x64, p5⟩, ⟨S1x64, p6⟩, ⟨S1x64, p7⟩] h (ix2 (⟨4, by omega⟩ : Fin 8) d) 4 (by show 4 < 8; omega) S1x64 p4 rfl rfl 4 rfl (ix2 (0 : Fin 1) d)
      (fun b hb => by match b with | ⟨0, _⟩ => exact absurd rfl hb | ⟨1, _⟩ => rfl) rfl).trans (h4 d)
  | ⟨5, _⟩ =>
    exact (concatenate_apply_piece (t := S8x64) (0 : Fin S8x64.rank) [⟨S1x64, p0⟩, ⟨S1x64, p1⟩, ⟨S1x64, p2⟩, ⟨S1x64, p3⟩, ⟨S1x64, p4⟩, ⟨S1x64, p5⟩, ⟨S1x64, p6⟩, ⟨S1x64, p7⟩] h (ix2 (⟨5, by omega⟩ : Fin 8) d) 5 (by show 5 < 8; omega) S1x64 p5 rfl rfl 5 rfl (ix2 (0 : Fin 1) d)
      (fun b hb => by match b with | ⟨0, _⟩ => exact absurd rfl hb | ⟨1, _⟩ => rfl) rfl).trans (h5 d)
  | ⟨6, _⟩ =>
    exact (concatenate_apply_piece (t := S8x64) (0 : Fin S8x64.rank) [⟨S1x64, p0⟩, ⟨S1x64, p1⟩, ⟨S1x64, p2⟩, ⟨S1x64, p3⟩, ⟨S1x64, p4⟩, ⟨S1x64, p5⟩, ⟨S1x64, p6⟩, ⟨S1x64, p7⟩] h (ix2 (⟨6, by omega⟩ : Fin 8) d) 6 (by show 6 < 8; omega) S1x64 p6 rfl rfl 6 rfl (ix2 (0 : Fin 1) d)
      (fun b hb => by match b with | ⟨0, _⟩ => exact absurd rfl hb | ⟨1, _⟩ => rfl) rfl).trans (h6 d)
  | ⟨7, _⟩ =>
    exact (concatenate_apply_piece (t := S8x64) (0 : Fin S8x64.rank) [⟨S1x64, p0⟩, ⟨S1x64, p1⟩, ⟨S1x64, p2⟩, ⟨S1x64, p3⟩, ⟨S1x64, p4⟩, ⟨S1x64, p5⟩, ⟨S1x64, p6⟩, ⟨S1x64, p7⟩] h (ix2 (⟨7, by omega⟩ : Fin 8) d) 7 (by show 7 < 8; omega) S1x64 p7 rfl rfl 7 rfl (ix2 (0 : Fin 1) d)
      (fun b hb => by match b with | ⟨0, _⟩ => exact absurd rfl hb | ⟨1, _⟩ => rfl) rfl).trans (h7 d)

/-- A block of one head is its 4096 × 64 table under a leading axis of length one. -/
theorem table_apply (x : Vec Ideal S1x4096x64 .f32) (t : Fin 4096) (d : Fin 64) :
    k0_pay3 x (ix2 t d) = x (ix3 (0 : Fin 1) t d) := by
  unfold k0_pay3
  refine shapeCast_apply x shapeCasts_S1x4096x64_S4096x64 (ix2 t d) (ix3 (0 : Fin 1) t d) ?_
  rw [Shape.rowMajor_val_two, Shape.rowMajor_val_three]
  show (0 * 4096 + t.val) * 64 + d.val = t.val * 64 + d.val
  omega

/-- The table of a block, entry by entry. -/
theorem table_eq (x : Vec Ideal S1x4096x64 .f32) :
    (fun (t : Fin 4096) (d : Fin 64) => k0_pay3 x (ix2 t d)) = fun t d => x (ix3 (0 : Fin 1) t d) :=
  funext fun t => funext fun d => table_apply x t d

/-- The stack of the eight segment means of the query block, as the body forms it. -/
def qLand (x0 : Vec Ideal S1x4096x64 .f32) : FVec Ideal S8x64 .f32 :=
  k0_pay23 (k0_pay6 x0) (k0_pay8 x0) (k0_pay10 x0) (k0_pay13 (k0_pay12 x0)) (k0_pay15 (k0_pay3 x0)) (k0_pay17 (k0_pay3 x0))
    (k0_pay19 (k0_pay3 x0)) (k0_pay21 (k0_pay3 x0)) (k0_pay22 (F := Ideal))

/-- The stack of the eight segment means of the key block, as the body forms it. -/
def kLand (x1 : Vec Ideal S1x4096x64 .f32) : FVec Ideal S8x64 .f32 :=
  k0_pay24 (k0_pay4 x1) (k0_pay7 x1) (k0_pay9 x1) (k0_pay11 x1) (k0_pay14 (k0_pay4 x1)) (k0_pay16 (k0_pay4 x1))
    (k0_pay18 (k0_pay4 x1)) (k0_pay20 (k0_pay4 x1))

/-- Row m of the query stack is landmark row m of the query table. -/
theorem qLand_apply (x0 : Vec Ideal S1x4096x64 .f32) (m : Fin 8) (d : Fin 64) :
    qLand x0 (ix2 m d) = land (fun t d => x0 (ix3 (0 : Fin 1) t d)) m d := by
  rw [← table_eq x0]
  unfold qLand k0_pay23
  exact rows8_apply _ _ _ _ _ _ _ _ _ (land fun t d => k0_pay3 x0 (ix2 t d))
    (fun d => segMean_apply (k0_pay3 x0) 0 slices_S4096x64_o0_0_S512x64 (⟨0, by omega⟩ : Fin 8) (by show 0 = 512 * 0; omega) d)
    (fun d => segMean_apply (k0_pay3 x0) 512 slices_S4096x64_o512_0_S512x64 (⟨1, by omega⟩ : Fin 8) (by show 512 = 512 * 1; omega) d)
    (fun d => segMean_apply (k0_pay3 x0) 1024 slices_S4096x64_o1024_0_S512x64 (⟨2, by omega⟩ : Fin 8) (by show 1024 = 512 * 2; omega) d)
    (fun d => segMean_apply (k0_pay3 x0) 1536 slices_S4096x64_o1536_0_S512x64 (⟨3, by omega⟩ : Fin 8) (by show 1536 = 512 * 3; omega) d)
    (fun d => segMean_apply (k0_pay3 x0) 2048 slices_S4096x64_o2048_0_S512x64 (⟨4, by omega⟩ : Fin 8) (by show 2048 = 512 * 4; omega) d)
    (fun d => segMean_apply (k0_pay3 x0) 2560 slices_S4096x64_o2560_0_S512x64 (⟨5, by omega⟩ : Fin 8) (by show 2560 = 512 * 5; omega) d)
    (fun d => segMean_apply (k0_pay3 x0) 3072 slices_S4096x64_o3072_0_S512x64 (⟨6, by omega⟩ : Fin 8) (by show 3072 = 512 * 6; omega) d)
    (fun d => segMean_apply (k0_pay3 x0) 3584 slices_S4096x64_o3584_0_S512x64 (⟨7, by omega⟩ : Fin 8) (by show 3584 = 512 * 7; omega) d)
    m d

/-- Row m of the key stack is landmark row m of the key table. -/
theorem kLand_apply (x1 : Vec Ideal S1x4096x64 .f32) (m : Fin 8) (d : Fin 64) :
    kLand x1 (ix2 m d) = land (fun t d => x1 (ix3 (0 : Fin 1) t d)) m d := by
  rw [← table_eq x1]
  unfold kLand k0_pay24
  exact rows8_apply _ _ _ _ _ _ _ _ _ (land fun t d => k0_pay3 x1 (ix2 t d))
    (fun d => segMean_apply (k0_pay3 x1) 0 slices_S4096x64_o0_0_S512x64 (⟨0, by omega⟩ : Fin 8) (by show 0 = 512 * 0; omega) d)
    (fun d => segMean_apply (k0_pay3 x1) 512 slices_S4096x64_o512_0_S512x64 (⟨1, by omega⟩ : Fin 8) (by show 512 = 512 * 1; omega) d)
    (fun d => segMean_apply (k0_pay3 x1) 1024 slices_S4096x64_o1024_0_S512x64 (⟨2, by omega⟩ : Fin 8) (by show 1024 = 512 * 2; omega) d)
    (fun d => segMean_apply (k0_pay3 x1) 1536 slices_S4096x64_o1536_0_S512x64 (⟨3, by omega⟩ : Fin 8) (by show 1536 = 512 * 3; omega) d)
    (fun d => segMean_apply (k0_pay3 x1) 2048 slices_S4096x64_o2048_0_S512x64 (⟨4, by omega⟩ : Fin 8) (by show 2048 = 512 * 4; omega) d)
    (fun d => segMean_apply (k0_pay3 x1) 2560 slices_S4096x64_o2560_0_S512x64 (⟨5, by omega⟩ : Fin 8) (by show 2560 = 512 * 5; omega) d)
    (fun d => segMean_apply (k0_pay3 x1) 3072 slices_S4096x64_o3072_0_S512x64 (⟨6, by omega⟩ : Fin 8) (by show 3072 = 512 * 6; omega) d)
    (fun d => segMean_apply (k0_pay3 x1) 3584 slices_S4096x64_o3584_0_S512x64 (⟨7, by omega⟩ : Fin 8) (by show 3584 = 512 * 7; omega) d)
    m d

end Cert.Landmark

end
-- ==== Proof.BlkRowOps.lean ====
/-
  Row operations on tables of extended reals, read at an entry.

  The product of a table with the transpose of another (entry (a, b) is the inner product of row a of the first with
  row b of the second), the plain product of two tables, a column of row values spread back over the rows, and the
  softmax of every row: the row's maximum (taken from −∞, and once more against −∞) is subtracted, the differences are
  exponentiated, and each is divided by the row's sum.
-/
import Idealize.ShloMosaic.PureOps.Ideal.Laws
import Idealize.ShloMosaic.Lib.Pipeline.Value
import Idealize.ShloMosaic.Lib.ValueIdx

noncomputable section

namespace Cert.Landmark

open Idealize.ShloMosaic Idealize.ShloMosaic.ValueIdx
open scoped BigOperators

variable {M N K : Nat}

/-- Entry (a, b) of a table times the transpose of another: the inner product of row a with row b. -/
theorem matmul_rows_apply {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    matmul (⟨[1], [1], [0], [0], [], [], w⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun c _ => ?_
  have c2 := contrEquiv1_symm_val (⟨[1], [1], [0], [0], [], [], w⟩ : DotDims ⟨2, ![M, K]⟩ ⟨2, ![N, K]⟩ ⟨2, ![M, N]⟩) K rfl rfl c
  have l2 : DotDims.lhsIdx (⟨[1], [1], [0], [0], [], [], w⟩ : DotDims ⟨2, ![M, K]⟩ ⟨2, ![N, K]⟩ ⟨2, ![M, N]⟩) (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : DotDims.rhsIdx (⟨[1], [1], [0], [0], [], [], w⟩ : DotDims ⟨2, ![M, K]⟩ ⟨2, ![N, K]⟩ ⟨2, ![M, N]⟩) (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- Entry (a, b) of the plain product of two tables: row a of the first against column b of the second. -/
theorem matmul_plain_apply {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims ⟨2, ![M, K]⟩ ⟨2, ![K, N]⟩ ⟨2, ![M, N]⟩) prec A B
        (constant ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : DotDims.lhsIdx (⟨[1], [0], [0], [1], [], [], w⟩ : DotDims ⟨2, ![M, K]⟩ ⟨2, ![K, N]⟩ ⟨2, ![M, N]⟩) (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : DotDims.rhsIdx (⟨[1], [0], [0], [1], [], [], w⟩ : DotDims ⟨2, ![M, K]⟩ ⟨2, ![K, N]⟩ ⟨2, ![M, N]⟩) (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A value per row, set as a column and spread over the row's entries, is that row's value at every entry. -/
theorem colSpread_apply {α : Type} (v : (⟨1, ![M]⟩ : Shape).Idx → α)
    (hc : (⟨1, ![M]⟩ : Shape).ShapeCasts ⟨2, ![M, 1]⟩) (hb : (⟨2, ![M, 1]⟩ : Shape).Broadcasts ⟨2, ![M, N]⟩)
    (a : Fin M) (b : Fin N) :
    broadcastTo ⟨2, ![M, N]⟩ (shapeCast ⟨2, ![M, 1]⟩ v hc) hb (ix2 a b) = v (ix1 a) := by
  refine (broadcastTo_apply _ hb (ix2 a b) (ix2 a (0 : Fin 1)) fun ax => ?_).trans ?_
  · match ax with
    | ⟨0, _⟩ =>
      show a.val = if M = 1 then 0 else a.val
      have := a.isLt
      split <;> omega
    | ⟨1, _⟩ => rfl
  · refine shapeCast_apply v hc (ix2 a (0 : Fin 1)) (ix1 a) ?_
    rw [Shape.rowMajor_val_one, Shape.rowMajor_val_two]
    show a.val = a.val * 1 + 0
    omega

/-- The softmax of every row of a table, as the operations take it: the row's maximum from −∞ and once more against
    −∞, the differences exponentiated, each divided by the row's sum. -/
def rowSoftmax (Z : FVec Ideal ⟨2, ![M, N]⟩ .f32)
    (hr : (⟨2, ![M, N]⟩ : Shape).Reduces [1] ⟨1, ![M]⟩) (hc : (⟨1, ![M]⟩ : Shape).ShapeCasts ⟨2, ![M, 1]⟩)
    (hb : (⟨2, ![M, 1]⟩ : Shape).Broadcasts ⟨2, ![M, N]⟩) : FVec Ideal ⟨2, ![M, N]⟩ .f32 :=
  divf
    (exp (subf Z (broadcastTo ⟨2, ![M, N]⟩ (shapeCast ⟨2, ![M, 1]⟩
      (maximumf (broadcast ⟨1, ![M]⟩ (Scalar.ofBits .f32 0xFF800000#32))
        (multiReduction .maximumf [1] ⟨1, ![M]⟩ Z 0xFF800000#32 hr (.inl rfl) rfl)) hc) hb)))
    (broadcastTo ⟨2, ![M, N]⟩ (shapeCast ⟨2, ![M, 1]⟩
      (multiReduction .add [1] ⟨1, ![M]⟩
        (exp (subf Z (broadcastTo ⟨2, ![M, N]⟩ (shapeCast ⟨2, ![M, 1]⟩
          (maximumf (broadcast ⟨1, ![M]⟩ (Scalar.ofBits .f32 0xFF800000#32))
            (multiReduction .maximumf [1] ⟨1, ![M]⟩ Z 0xFF800000#32 hr (.inl rfl) rfl)) hc) hb)))
        0x00000000#32 hr (.inl rfl) rfl) hc) hb)

/-- The maximum of a row as the softmax takes it. -/
def rowTop (f : Fin N → EReal) : EReal :=
  max (Ideal.ofBits .f32 0xFF800000#32) ((Finset.univ : Finset (Fin N)).fold max (Ideal.ofBits .f32 0xFF800000#32) f)

/-- The row reduction's source index over row a at column n. -/
theorem lift_row (hr : (⟨2, ![M, N]⟩ : Shape).Reduces [1] ⟨1, ![M]⟩) (a : Fin M) (n : Fin N) :
    hr.lift (ix1 a) n = ix2 a n := by
  funext c; apply Fin.ext
  match c with
  | ⟨0, _⟩ => rfl
  | ⟨1, _⟩ => rfl

/-- Entry (a, b) of the row softmax. -/
theorem rowSoftmax_apply (Z : FVec Ideal ⟨2, ![M, N]⟩ .f32)
    (hr : (⟨2, ![M, N]⟩ : Shape).Reduces [1] ⟨1, ![M]⟩) (hc : (⟨1, ![M]⟩ : Shape).ShapeCasts ⟨2, ![M, 1]⟩)
    (hb : (⟨2, ![M, 1]⟩ : Shape).Broadcasts ⟨2, ![M, N]⟩) (a : Fin M) (b : Fin N) :
    rowSoftmax Z hr hc hb (ix2 a b)
      = Ideal.div (Ideal.exp (Z (ix2 a b) - rowTop fun n => Z (ix2 a n)))
          (∑ j : Fin N, Ideal.exp (Z (ix2 a j) - rowTop fun n => Z (ix2 a n))) := by
  have hmx : (maximumf (broadcast ⟨1, ![M]⟩ (Scalar.ofBits .f32 0xFF800000#32))
      (multiReduction .maximumf [1] ⟨1, ![M]⟩ Z 0xFF800000#32 hr (.inl rfl) rfl) : FVec Ideal ⟨1, ![M]⟩ .f32) (ix1 a)
      = rowTop fun n => Z (ix2 a n) := by
    show max (Ideal.ofBits .f32 0xFF800000#32) (multiReduction .maximumf [1] ⟨1, ![M]⟩ Z 0xFF800000#32 hr (.inl rfl) rfl (ix1 a)) = _
    refine congrArg (max _) ((Ideal.multiReduction_maximumf_single Z _ hr _ _ (ix1 a)).trans ?_)
    refine congrArg (fun g => Finset.fold max _ g Finset.univ) (funext fun n => ?_)
    exact congrArg Z (lift_row hr a n)
  have he : ∀ n : Fin N, (exp (subf Z (broadcastTo ⟨2, ![M, N]⟩ (shapeCast ⟨2, ![M, 1]⟩
        (maximumf (broadcast ⟨1, ![M]⟩ (Scalar.ofBits .f32 0xFF800000#32))
          (multiReduction .maximumf [1] ⟨1, ![M]⟩ Z 0xFF800000#32 hr (.inl rfl) rfl)) hc) hb)) : FVec Ideal ⟨2, ![M, N]⟩ .f32) (ix2 a n)
      = Ideal.exp (Z (ix2 a n) - rowTop fun n => Z (ix2 a n)) := by
    intro n
    show Ideal.exp (Z (ix2 a n) - broadcastTo ⟨2, ![M, N]⟩ (shapeCast ⟨2, ![M, 1]⟩ _ hc) hb (ix2 a n)) = _
    rw [colSpread_apply, hmx]
  unfold rowSoftmax
  show Ideal.div (_ : EReal) (broadcastTo ⟨2, ![M, N]⟩ (shapeCast ⟨2, ![M, 1]⟩ _ hc) hb (ix2 a b)) = _
  rw [colSpread_apply, he b]
  congr 1
  refine (Ideal.multiReduction_add_single _ _ hr _ _ (ix1 a)).trans ?_
  refine Finset.sum_congr rfl fun n _ => ?_
  exact (congrArg _ (lift_row hr a n)).trans (he n)

end Cert.Landmark

end
-- ==== Proof.BlkSoftmaxSpec.lean ====
/-
  The row softmax the body computes is the specification's softmax of that row: the same maximum (the fold of max from
  −∞, once more against −∞), the same exponentials, the same quotient.
-/
import proofs.«120126_j23330262352482_2_alg».proof.Proof.Spec
import proofs.«120126_j23330262352482_2_alg».proof.Proof.BlkRowOps

noncomputable section

namespace Cert.Landmark

open Idealize.ShloMosaic Idealize.ShloMosaic.ValueIdx
open scoped BigOperators

variable {M N : Nat}

/-- Entry (a, b) of the row softmax of a table whose row a is `f`: the softmax of `f` at b. -/
theorem rowSoftmax_eq_smax (Z : FVec Ideal ⟨2, ![M, N]⟩ .f32)
    (hr : (⟨2, ![M, N]⟩ : Shape).Reduces [1] ⟨1, ![M]⟩) (hc : (⟨1, ![M]⟩ : Shape).ShapeCasts ⟨2, ![M, 1]⟩)
    (hb : (⟨2, ![M, 1]⟩ : Shape).Broadcasts ⟨2, ![M, N]⟩) (a : Fin M) (b : Fin N)
    (f : Fin N → EReal) (hf : ∀ n, Z (ix2 a n) = f n) :
    rowSoftmax Z hr hc hb (ix2 a b) = smax f b := by
  rw [rowSoftmax_apply]
  have e : (fun n => Z (ix2 a n)) = f := funext hf
  rw [e, hf b]
  unfold smax
  refine congrArg (Ideal.div _) (Finset.sum_congr rfl fun j _ => ?_)
  rw [hf j]
  rfl

end Cert.Landmark

end
-- ==== Proof.BlkK1.lean ====
/-
  The 4096 × 8 table of one head that the first region's body leaves in its first output block.

  Entry (t, m) is the softmax, over the key landmarks m, of the inner product of query row t with key landmark m scaled
  by 1/8: the specification's K1 of the head's query and key tables. (The changes of float format on the way are the
  identity on extended reals.)
-/
import proofs.«120126_j23330262352482_2_alg».proof.Proof.Gen.KernelIdeal.Frame
import proofs.«120126_j23330262352482_2_alg».proof.Proof.Spec
import proofs.«120126_j23330262352482_2_alg».proof.Proof.BlkLandmarks
import proofs.«120126_j23330262352482_2_alg».proof.Proof.BlkSoftmaxSpec

noncomputable section

namespace Cert.Landmark

open Idealize.ShloMosaic Idealize.ShloMosaic.ValueIdx Cert.KernelIdeal Cert.KernelIdeal.Gen
open scoped BigOperators

private theorem hz3 : (![0, 0, 0] : Fin 3 → Nat) = fun _ => 0 := funext fun a => by fin_cases a <;> rfl

/-- The scaled inner products of the query rows with the key landmarks. -/
def k1Logits (x0 x1 : Vec Ideal S1x4096x64 .f32) : FVec Ideal S4096x8 .f32 :=
  mulf (matmul dot_S4096x64_S8x64_S4096x8_1_1_0_0_n_n none (truncf .bf16 (k0_pay3 x0) bitsLt_bf16_f32)
      (truncf .bf16 (kLand x1) bitsLt_bf16_f32) (constant S4096x8 .f32 0x00000000#32))
    (broadcast S4096x8 (Scalar.ofBits .f32 0x3E000000#32))

/-- Entry (t, m) of them. -/
theorem k1Logits_apply (x0 x1 : Vec Ideal S1x4096x64 .f32) (t : Fin 4096) (m : Fin 8) :
    k1Logits x0 x1 (ix2 t m)
      = (∑ d : Fin 64, x0 (ix3 (0 : Fin 1) t d) * land (fun t d => x1 (ix3 (0 : Fin 1) t d)) m d) * cScale := by
  show matmul dot_S4096x64_S8x64_S4096x8_1_1_0_0_n_n none (truncf .bf16 (k0_pay3 x0) bitsLt_bf16_f32)
      (truncf .bf16 (kLand x1) bitsLt_bf16_f32) (constant S4096x8 .f32 0x00000000#32) (ix2 t m)
    * Ideal.ofBits .f32 0x3E000000#32 = _
  refine congrArg (· * cScale)
    ((matmul_rows_apply dot_S4096x64_S8x64_S4096x8_1_1_0_0_n_n_wf none (truncf .bf16 (k0_pay3 x0) bitsLt_bf16_f32)
      (truncf .bf16 (kLand x1) bitsLt_bf16_f32) t m).trans ?_)
  refine Finset.sum_congr rfl fun d _ => ?_
  show k0_pay3 x0 (ix2 t d) * kLand x1 (ix2 m d) = _
  rw [table_apply, kLand_apply]

/-- What the body leaves in the block, over the loaded blocks themselves. -/
theorem out0_3_eq (x0 x1 x2 : Vec Ideal S1x4096x64 .f32) :
    out0_3 x0 x1 x2
      = shapeCast S1x4096x8 (truncf .bf16
          (rowSoftmax (k1Logits x0 x1) reduces_S4096x8_S4096 shapeCasts_S4096_S4096x1 broadcasts_S4096x1_S4096x8)
          bitsLt_bf16_f32) shapeCasts_S4096x8_S1x4096x8 := by
  unfold out0_3
  rw [View.canon_unit_zero hz3]
  simp only [View.ld_unit_zero (S := S1x4096x64) hz3]
  rfl

/-- Entry (t, m) of the block is K1 of the head's query and key tables. -/
theorem out0_3_apply (x0 x1 x2 : Vec Ideal S1x4096x64 .f32) (t : Fin 4096) (m : Fin 8) :
    out0_3 x0 x1 x2 (ix3 (0 : Fin 1) t m)
      = K1 (fun t d => x0 (ix3 (0 : Fin 1) t d)) (fun t d => x1 (ix3 (0 : Fin 1) t d)) t m := by
  rw [out0_3_eq]
  refine (shapeCast_apply _ shapeCasts_S4096x8_S1x4096x8 (ix3 (0 : Fin 1) t m) (ix2 t m) ?_).trans ?_
  · rw [Shape.rowMajor_val_two, Shape.rowMajor_val_three]
    show t.val * 8 + m.val = (0 * 4096 + t.val) * 8 + m.val
    omega
  show rowSoftmax (k1Logits x0 x1) reduces_S4096x8_S4096 shapeCasts_S4096_S4096x1 broadcasts_S4096x1_S4096x8 (ix2 t m) = _
  unfold K1
  exact rowSoftmax_eq_smax _ _ _ _ t m _ fun m' => k1Logits_apply x0 x1 t m'

end Cert.Landmark

end
-- ==== Proof.BlkK2.lean ====
/-
  The 8 × 8 table of one head that the first region's body leaves in its second output block.

  Entry (m, n) is the softmax, over the key landmarks n, of the inner product of query landmark m with key landmark n
  scaled by 1/8: the specification's K2 of the head's query and key tables.
-/
import proofs.«120126_j23330262352482_2_alg».proof.Proof.Gen.KernelIdeal.Frame
import proofs.«120126_j23330262352482_2_alg».proof.Proof.Spec
import proofs.«120126_j23330262352482_2_alg».proof.Proof.BlkLandmarks
import proofs.«120126_j23330262352482_2_alg».proof.Proof.BlkSoftmaxSpec

noncomputable section

namespace Cert.Landmark

open Idealize.ShloMosaic Idealize.ShloMosaic.ValueIdx Cert.KernelIdeal Cert.KernelIdeal.Gen
open scoped BigOperators

private theorem hz3 : (![0, 0, 0] : Fin 3 → Nat) = fun _ => 0 := funext fun a => by fin_cases a <;> rfl

/-- The scaled inner products of the query landmarks with the key landmarks. -/
def k2Logits (x0 x1 : Vec Ideal S1x4096x64 .f32) : FVec Ideal S8x8 .f32 :=
  mulf (matmul dot_S8x64_S8x64_S8x8_1_1_0_0_n_n (some .fp32) (qLand x0) (kLand x1) (constant S8x8 .f32 0x00000000#32))
    (broadcast S8x8 (Scalar.ofBits .f32 0x3E000000#32))

/-- Entry (m, n) of them. -/
theorem k2Logits_apply (x0 x1 : Vec Ideal S1x4096x64 .f32) (m n : Fin 8) :
    k2Logits x0 x1 (ix2 m n)
      = (∑ d : Fin 64, land (fun t d => x0 (ix3 (0 : Fin 1) t d)) m d * land (fun t d => x1 (ix3 (0 : Fin 1) t d)) n d) * cScale := by
  show matmul dot_S8x64_S8x64_S8x8_1_1_0_0_n_n (some .fp32) (qLand x0) (kLand x1) (constant S8x8 .f32 0x00000000#32) (ix2 m n)
    * Ideal.ofBits .f32 0x3E000000#32 = _
  refine congrArg (· * cScale)
    ((matmul_rows_apply dot_S8x64_S8x64_S8x8_1_1_0_0_n_n_wf (some .fp32) (qLand x0) (kLand x1) m n).trans ?_)
  refine Finset.sum_congr rfl fun d _ => ?_
  rw [qLand_apply, kLand_apply]

/-- What the body leaves in the block, over the loaded blocks themselves. -/
theorem out0_4_eq (x0 x1 x2 : Vec Ideal S1x4096x64 .f32) :
    out0_4 x0 x1 x2
      = shapeCast S1x8x8 (rowSoftmax (k2Logits x0 x1) reduces_S8x8_S8 shapeCasts_S8_S8x1 broadcasts_S8x1_S8x8)
          shapeCasts_S8x8_S1x8x8 := by
  unfold out0_4
  rw [View.canon_unit_zero hz3]
  simp only [View.ld_unit_zero (S := S1x4096x64) hz3]
  rfl

/-- Entry (m, n) of the block is K2 of the head's query and key tables. -/
theorem out0_4_apply (x0 x1 x2 : Vec Ideal S1x4096x64 .f32) (m n : Fin 8) :
    out0_4 x0 x1 x2 (ix3 (0 : Fin 1) m n)
      = K2 (fun t d => x0 (ix3 (0 : Fin 1) t d)) (fun t d => x1 (ix3 (0 : Fin 1) t d)) m n := by
  rw [out0_4_eq]
  refine (shapeCast_apply _ shapeCasts_S8x8_S1x8x8 (ix3 (0 : Fin 1) m n) (ix2 m n) ?_).trans ?_
  · rw [Shape.rowMajor_val_two, Shape.rowMajor_val_three]
    show m.val * 8 + n.val = (0 * 8 + m.val) * 8 + n.val
    omega
  unfold K2
  exact rowSoftmax_eq_smax _ _ _ _ m n _ fun n' => k2Logits_apply x0 x1 m n'

end Cert.Landmark

end
-- ==== Proof.BlkArrK2.lean ====
/-
  The second output array of the first region, whole: a [64, 8, 8] array whose slice b is K2 of head b.

  Grid point b reads block b of each input array (head b's 4096 × 64 table under a leading unit axis) and writes block b
  of the output; the 64 blocks tile the array, so after the region entry (b, m, n) is K2 of head b's query and key
  tables at (m, n).
-/
import proofs.«120126_j23330262352482_2_alg».proof.Proof.Gen.KernelIdeal.Frame
import proofs.«120126_j23330262352482_2_alg».proof.Proof.BlkK2
import Idealize.ShloMosaic.Lib.Pipeline.Value

noncomputable section

namespace Cert.Landmark

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Head b of a [64, 4096, 64] array: its 4096 × 64 table. -/
def headTbl (X : S64x4096x64.Idx → EReal) (b : Fin 64) : Fin 4096 → Fin 64 → EReal := fun t d => X (ix3 b t d)

/-- The [64, 8, 8] array of the heads' K2 tables. -/
def arrK2 (Q Kk : S64x4096x64.Idx → EReal) : S64x8x8.Idx → EReal :=
  fun i => K2 (headTbl Q (i 0)) (headTbl Kk (i 0)) (i 1) (i 2)

/-- The grid has 64 points; point t is head t. -/
def headOf (t : Fin cfg0.N) : Fin 64 := ⟨t.val, lt_of_lt_of_eq t.isLt N_0⟩

/-- The printed index maps, decided over the grid: every window's block index at point t is (t, 0, 0). -/
theorem idxK2_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The query block at point t is head t's table of the first input array. -/
theorem blockQ_apply (c : Dev nD) (t : Fin cfg0.N) (tt : Fin 4096) (d : Fin 64) :
    (iblk0 V c 0 t : Vec Ideal S1x4096x64 .f32) (ix3 (0 : Fin 1) tt d)
      = (V c main_v0 : S64x4096x64.Idx → EReal) (ix3 (headOf t) tt d) := by
  obtain ⟨e0, e1, e2, -⟩ := idxK2_facts t
  show (V c main_v0 : S64x4096x64.Idx → EReal) (((cfg0.win 0).blk t).view.emb (ix3 (0 : Fin 1) tt d)) = _
  refine congrArg _ (funext fun a => Fin.ext ?_)
  match a with
  | ⟨0, _⟩ => show win0_0.index t (0 : Fin 3) * 1 + 1 * 0 = t.val; omega
  | ⟨1, _⟩ => show win0_0.index t (1 : Fin 3) * 4096 + 1 * tt.val = tt.val; omega
  | ⟨2, _⟩ => show win0_0.index t (2 : Fin 3) * 64 + 1 * d.val = d.val; omega

/-- The key block at point t is head t's table of the second input array. -/
theorem blockK_apply (c : Dev nD) (t : Fin cfg0.N) (tt : Fin 4096) (d : Fin 64) :
    (iblk0 V c 1 t : Vec Ideal S1x4096x64 .f32) (ix3 (0 : Fin 1) tt d)
      = (V c main_v1 : S64x4096x64.Idx → EReal) (ix3 (headOf t) tt d) := by
  obtain ⟨-, -, -, e0, e1, e2, -⟩ := idxK2_facts t
  show (V c main_v1 : S64x4096x64.Idx → EReal) (((cfg0.win 1).blk t).view.emb (ix3 (0 : Fin 1) tt d)) = _
  refine congrArg _ (funext fun a => Fin.ext ?_)
  match a with
  | ⟨0, _⟩ => show win0_1.index t (0 : Fin 3) * 1 + 1 * 0 = t.val; omega
  | ⟨1, _⟩ => show win0_1.index t (1 : Fin 3) * 4096 + 1 * tt.val = tt.val; omega
  | ⟨2, _⟩ => show win0_1.index t (2 : Fin 3) * 64 + 1 * d.val = d.val; omega

/-- The block the body leaves from blocks that are head b's tables is slice b of the array of K2 tables. -/
theorem out0_4_block (x0 x1 x2 : Vec Ideal S1x4096x64 .f32) (Q Kk : S64x4096x64.Idx → EReal) (b : Fin 64)
    (h0 : ∀ tt d, x0 (ix3 (0 : Fin 1) tt d) = Q (ix3 b tt d)) (h1 : ∀ tt d, x1 (ix3 (0 : Fin 1) tt d) = Kk (ix3 b tt d))
    (y : S1x8x8.Idx) (i : S64x8x8.Idx) (hi0 : (i 0).val = b.val) (hi1 : (i 1).val = (y 1).val) (hi2 : (i 2).val = (y 2).val) :
    out0_4 x0 x1 x2 y = arrK2 Q Kk i := by
  obtain ⟨y0, m, n, rfl⟩ : ∃ (y0 : Fin 1) (m n : Fin 8), y = ix3 y0 m n := ⟨y 0, y 1, y 2, eq_ix3 y⟩
  obtain rfl : y0 = 0 := Fin.ext (by have := y0.isLt; omega)
  obtain ⟨b', m', n', rfl⟩ : ∃ (b' : Fin 64) (m' n' : Fin 8), i = ix3 b' m' n' := ⟨i 0, i 1, i 2, eq_ix3 i⟩
  obtain rfl : b' = b := Fin.ext hi0
  obtain rfl : m' = m := Fin.ext hi1
  obtain rfl : n' = n := Fin.ext hi2
  rw [out0_4_apply]
  show _ = K2 (headTbl Q b') (headTbl Kk b') m' n'
  have eq0 : (fun t d => x0 (ix3 (0 : Fin 1) t d)) = headTbl Q b' := funext fun t => funext fun d => h0 t d
  have eq1 : (fun t d => x1 (ix3 (0 : Fin 1) t d)) = headTbl Kk b' := funext fun t => funext fun d => h1 t d
  rw [eq0, eq1]

/-- WHAT POINT t WRITES BACK is block t of the array of K2 tables. -/
theorem flushedK2_eq (c : Dev nD) (t : Fin cfg0.N) :
    (dat0 V c).flushed 4 t = ((cfg0.win 4).blk t).view.read (Elt Ideal) (arrK2 (V c main_v0) (V c main_v1)) := by
  show (cfg0.win 4).cut (grid0.coords t) ((dat0 V c).after 4 t) = _
  rw [after0_4]
  obtain ⟨-, -, -, -, -, -, e0, e1, e2⟩ := idxK2_facts t
  funext j
  show out0_4 (iblk0 V c 0 t) (iblk0 V c 1 t) (iblk0 V c 2 t) j
    = arrK2 (V c main_v0) (V c main_v1) (((cfg0.win 4).blk t).view.emb j)
  refine out0_4_block (iblk0 V c 0 t) (iblk0 V c 1 t) (iblk0 V c 2 t) (V c main_v0) (V c main_v1) (headOf t)
    (blockQ_apply V c t) (blockK_apply V c t) j (((cfg0.win 4).blk t).view.emb j) ?_ ?_ ?_
  · show win0_4.index t (0 : Fin 3) * 1 + 1 * (j 0).val = t.val
    have hj : (j 0).val < 1 := (j 0).isLt
    omega
  · show win0_4.index t (1 : Fin 3) * 8 + 1 * (j 1).val = (j 1).val
    omega
  · show win0_4.index t (2 : Fin 3) * 8 + 1 * (j 2).val = (j 2).val
    omega

/-- An index of the array is in point t's block iff each coordinate is in the block's range on its axis. -/
theorem mem_blkK2 (t : Fin cfg0.N) (i : S64x8x8.Idx) :
    i ∈ ((cfg0.win 4).blk t).view.set ↔ ∀ a : Fin 3, win0_4.index t a * S1x8x8.size a ≤ (i a).val ∧ (i a).val < win0_4.index t a * S1x8x8.size a + S1x8x8.size a := by
  show i ∈ ((View.whole main_v3_1).slice (win0_4.rect t)).set ↔ _
  rw [View.set_slice_whole, Rect.mem_set_unit]
  exact Iff.rfl

/-- Every index of the array is in the block of the point its first coordinate names. -/
theorem coverK2 (i : S64x8x8.Idx) : ∃ t : Fin cfg0.N, (cfg0.win 4).flush t = true ∧ i ∈ ((cfg0.win 4).blk t).view.set := by
  have hN : cfg0.N = 64 := N_0
  have hi0 : (i 0).val < 64 := (i 0).isLt
  have hi1 : (i 1).val < 8 := (i 1).isLt
  have hi2 : (i 2).val < 8 := (i 2).isLt
  let t : Fin cfg0.N := ⟨(i 0).val, by rw [hN]; exact hi0⟩
  obtain ⟨-, -, -, -, -, -, e0, e1, e2⟩ := idxK2_facts t
  have ht : t.val = (i 0).val := rfl
  refine ⟨t, flush0_4 t, ?_⟩
  rw [mem_blkK2]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 8 ≤ (i 1).val ∧ (i 1).val < win0_4.index t (1 : Fin 3) * 8 + 8; omega
  | ⟨2, _⟩ => show win0_4.index t (2 : Fin 3) * 8 ≤ (i 2).val ∧ (i 2).val < win0_4.index t (2 : Fin 3) * 8 + 8; omega

/-- THE ARRAY after the region: the heads' K2 tables of the first two input arrays as the region found them. -/
theorem arrAt_K2 (c : Dev nD) : (dat0 V c).arrAt 4 cfg0.N = arrK2 (V c main_v0) (V c main_v1) :=
  (dat0 V c).arrAt_eq_of_cover 4 (arrK2 (V c main_v0) (V c main_v1)) (fun t _ => flushedK2_eq V c t) coverK2

end Cert.Landmark

end
-- ==== Proof.BlkArrK1.lean ====
/-
  The first output array of the first region, whole: a [64, 4096, 8] array whose slice b is K1 of head b.

  Grid point b reads block b of each input array (head b's 4096 × 64 table under a leading unit axis) and writes block b
  of the output; the 64 blocks tile the array, so after the region entry (b, t, m) is K1 of head b's query and key
  tables at (t, m).
-/
import proofs.«120126_j23330262352482_2_alg».proof.Proof.Gen.KernelIdeal.Frame
import proofs.«120126_j23330262352482_2_alg».proof.Proof.BlkK1
import proofs.«120126_j23330262352482_2_alg».proof.Proof.BlkArrK2
import Idealize.ShloMosaic.Lib.Pipeline.Value

noncomputable section

namespace Cert.Landmark

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The [64, 4096, 8] array of the heads' K1 tables. -/
def arrK1 (Q Kk : S64x4096x64.Idx → EReal) : S64x4096x8.Idx → EReal :=
  fun i => K1 (headTbl Q (i 0)) (headTbl Kk (i 0)) (i 1) (i 2)

/-- The printed index maps, decided over the grid: the output window's block index at point t is (t, 0, 0). -/
theorem idxK1_facts : ∀ t : Fin cfg0.N,
    win0_3.index t (0 : Fin 3) = t.val ∧ win0_3.index t (1 : Fin 3) = 0 ∧ win0_3.index t (2 : Fin 3) = 0 :=
  (by decide +kernel : ∀ t : Fin grid0.N, _)

/-- The block the body leaves from blocks that are head b's tables is slice b of the array. -/
theorem out0_3_block (x0 x1 x2 : Vec Ideal S1x4096x64 .f32) (Q Kk : S64x4096x64.Idx → EReal) (b : Fin 64)
    (h0 : ∀ tt d, x0 (ix3 (0 : Fin 1) tt d) = Q (ix3 b tt d)) (h1 : ∀ tt d, x1 (ix3 (0 : Fin 1) tt d) = Kk (ix3 b tt d))
    (y : S1x4096x8.Idx) (i : S64x4096x8.Idx) (hi0 : (i 0).val = b.val) (hi1 : (i 1).val = (y 1).val) (hi2 : (i 2).val = (y 2).val) :
    out0_3 x0 x1 x2 y = arrK1 Q Kk i := by
  obtain ⟨y0, m, n, rfl⟩ : ∃ (y0 : Fin 1) (m : Fin 4096) (n : Fin 8), y = ix3 y0 m n := ⟨y 0, y 1, y 2, eq_ix3 y⟩
  obtain rfl : y0 = 0 := Fin.ext (by have := y0.isLt; omega)
  obtain ⟨b', m', n', rfl⟩ : ∃ (b' : Fin 64) (m' : Fin 4096) (n' : Fin 8), i = ix3 b' m' n' := ⟨i 0, i 1, i 2, eq_ix3 i⟩
  obtain rfl : b' = b := Fin.ext hi0
  obtain rfl : m' = m := Fin.ext hi1
  obtain rfl : n' = n := Fin.ext hi2
  rw [out0_3_apply]
  show _ = K1 (headTbl Q b') (headTbl Kk b') m' n'
  have eq0 : (fun t d => x0 (ix3 (0 : Fin 1) t d)) = headTbl Q b' := funext fun t => funext fun d => h0 t d
  have eq1 : (fun t d => x1 (ix3 (0 : Fin 1) t d)) = headTbl Kk b' := funext fun t => funext fun d => h1 t d
  rw [eq0, eq1]

/-- WHAT POINT t WRITES BACK is block t of the array. -/
theorem flushedK1_eq (c : Dev nD) (t : Fin cfg0.N) :
    (dat0 V c).flushed 3 t = ((cfg0.win 3).blk t).view.read (Elt Ideal) (arrK1 (V c main_v0) (V c main_v1)) := by
  show (cfg0.win 3).cut (grid0.coords t) ((dat0 V c).after 3 t) = _
  rw [after0_3]
  obtain ⟨e0, e1, e2⟩ := idxK1_facts t
  funext j
  show out0_3 (iblk0 V c 0 t) (iblk0 V c 1 t) (iblk0 V c 2 t) j
    = arrK1 (V c main_v0) (V c main_v1) (((cfg0.win 3).blk t).view.emb j)
  refine out0_3_block (iblk0 V c 0 t) (iblk0 V c 1 t) (iblk0 V c 2 t) (V c main_v0) (V c main_v1) (headOf t)
    (blockQ_apply V c t) (blockK_apply V c t) j (((cfg0.win 3).blk t).view.emb j) ?_ ?_ ?_
  · show win0_3.index t (0 : Fin 3) * 1 + 1 * (j 0).val = t.val
    have hj : (j 0).val < 1 := (j 0).isLt
    omega
  · show win0_3.index t (1 : Fin 3) * 4096 + 1 * (j 1).val = (j 1).val
    omega
  · show win0_3.index t (2 : Fin 3) * 8 + 1 * (j 2).val = (j 2).val
    omega

/-- An index of the array is in point t's block iff each coordinate is in the block's range on its axis. -/
theorem mem_blkK1 (t : Fin cfg0.N) (i : S64x4096x8.Idx) :
    i ∈ ((cfg0.win 3).blk t).view.set ↔ ∀ a : Fin 3, win0_3.index t a * S1x4096x8.size a ≤ (i a).val ∧ (i a).val < win0_3.index t a * S1x4096x8.size a + S1x4096x8.size a := by
  show i ∈ ((View.whole main_v3_0).slice (win0_3.rect t)).set ↔ _
  rw [View.set_slice_whole, Rect.mem_set_unit]
  exact Iff.rfl

/-- Every index of the array is in the block of the point its first coordinate names. -/
theorem coverK1 (i : S64x4096x8.Idx) : ∃ t : Fin cfg0.N, (cfg0.win 3).flush t = true ∧ i ∈ ((cfg0.win 3).blk t).view.set := by
  have hN : cfg0.N = 64 := N_0
  have hi0 : (i 0).val < 64 := (i 0).isLt
  have hi1 : (i 1).val < 4096 := (i 1).isLt
  have hi2 : (i 2).val < 8 := (i 2).isLt
  let t : Fin cfg0.N := ⟨(i 0).val, by rw [hN]; exact hi0⟩
  obtain ⟨e0, e1, e2⟩ := idxK1_facts t
  have ht : t.val = (i 0).val := rfl
  refine ⟨t, flush0_3 t, ?_⟩
  rw [mem_blkK1]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4096 ≤ (i 1).val ∧ (i 1).val < win0_3.index t (1 : Fin 3) * 4096 + 4096; omega
  | ⟨2, _⟩ => show win0_3.index t (2 : Fin 3) * 8 ≤ (i 2).val ∧ (i 2).val < win0_3.index t (2 : Fin 3) * 8 + 8; omega

/-- THE ARRAY after the region, as a function of the input arrays as the region found them. -/
theorem arrAt_K1 (c : Dev nD) : (dat0 V c).arrAt 3 cfg0.N = arrK1 (V c main_v0) (V c main_v1) :=
  (dat0 V c).arrAt_eq_of_cover 3 (arrK1 (V c main_v0) (V c main_v1)) (fun t _ => flushedK1_eq V c t) coverK1

end Cert.Landmark

end
-- ==== Proof.BlkK3V.lean ====
/-
  The 8 × 64 table of one head that the first region's body leaves in its third output block.

  Row m of K3 is the softmax, over the 4096 tokens, of the inner product of query landmark m with key row t scaled by
  1/8; the block is K3 times the value table: the specification's K3V of the head's query, key and value tables. (The
  changes of float format on the way are the identity on extended reals.)
-/
import proofs.«120126_j23330262352482_2_alg».proof.Proof.Gen.KernelIdeal.Frame
import proofs.«120126_j23330262352482_2_alg».proof.Proof.Spec
import proofs.«120126_j23330262352482_2_alg».proof.Proof.BlkLandmarks
import proofs.«120126_j23330262352482_2_alg».proof.Proof.BlkSoftmaxSpec

noncomputable section

namespace Cert.Landmark

open Idealize.ShloMosaic Idealize.ShloMosaic.ValueIdx Cert.KernelIdeal Cert.KernelIdeal.Gen
open scoped BigOperators

private theorem hz3 : (![0, 0, 0] : Fin 3 → Nat) = fun _ => 0 := funext fun a => by fin_cases a <;> rfl

/-- The scaled inner products of the query landmarks with the key rows. -/
def k3Logits (x0 x1 : Vec Ideal S1x4096x64 .f32) : FVec Ideal S8x4096 .f32 :=
  mulf (matmul dot_S8x64_S4096x64_S8x4096_1_1_0_0_n_n none (truncf .bf16 (qLand x0) bitsLt_bf16_f32)
      (truncf .bf16 (k0_pay4 x1) bitsLt_bf16_f32) (constant S8x4096 .f32 0x00000000#32))
    (broadcast S8x4096 (Scalar.ofBits .f32 0x3E000000#32))

/-- Entry (m, t) of them. -/
theorem k3Logits_apply (x0 x1 : Vec Ideal S1x4096x64 .f32) (m : Fin 8) (t : Fin 4096) :
    k3Logits x0 x1 (ix2 m t)
      = (∑ d : Fin 64, land (fun t d => x0 (ix3 (0 : Fin 1) t d)) m d * x1 (ix3 (0 : Fin 1) t d)) * cScale := by
  show matmul dot_S8x64_S4096x64_S8x4096_1_1_0_0_n_n none (truncf .bf16 (qLand x0) bitsLt_bf16_f32)
      (truncf .bf16 (k0_pay4 x1) bitsLt_bf16_f32) (constant S8x4096 .f32 0x00000000#32) (ix2 m t)
    * Ideal.ofBits .f32 0x3E000000#32 = _
  refine congrArg (· * cScale)
    ((matmul_rows_apply dot_S8x64_S4096x64_S8x4096_1_1_0_0_n_n_wf none (truncf .bf16 (qLand x0) bitsLt_bf16_f32)
      (truncf .bf16 (k0_pay4 x1) bitsLt_bf16_f32) m t).trans ?_)
  refine Finset.sum_congr rfl fun d _ => ?_
  show qLand x0 (ix2 m d) * k0_pay3 x1 (ix2 t d) = _
  rw [qLand_apply, table_apply]

/-- K3 as the body forms it. -/
def k3Tbl (x0 x1 : Vec Ideal S1x4096x64 .f32) : FVec Ideal S8x4096 .f32 :=
  rowSoftmax (k3Logits x0 x1) reduces_S8x4096_S8 shapeCasts_S8_S8x1 broadcasts_S8x1_S8x4096

/-- Entry (m, t) of it is the specification's K3. -/
theorem k3Tbl_apply (x0 x1 : Vec Ideal S1x4096x64 .f32) (m : Fin 8) (t : Fin 4096) :
    k3Tbl x0 x1 (ix2 m t) = K3 (fun t d => x0 (ix3 (0 : Fin 1) t d)) (fun t d => x1 (ix3 (0 : Fin 1) t d)) m t := by
  unfold k3Tbl K3
  exact rowSoftmax_eq_smax _ _ _ _ m t _ fun t' => k3Logits_apply x0 x1 m t'

/-- What the body leaves in the block, over the loaded blocks themselves. -/
theorem out0_5_eq (x0 x1 x2 : Vec Ideal S1x4096x64 .f32) :
    out0_5 x0 x1 x2
      = shapeCast S1x8x64 (matmul dot_S8x4096_S4096x64_S8x64_1_0_0_1_n_n none (truncf .bf16 (k3Tbl x0 x1) bitsLt_bf16_f32)
          (truncf .bf16 (k0_pay5 x2) bitsLt_bf16_f32) (constant S8x64 .f32 0x00000000#32)) shapeCasts_S8x64_S1x8x64 := by
  unfold out0_5
  rw [View.canon_unit_zero hz3]
  simp only [View.ld_unit_zero (S := S1x4096x64) hz3]
  rfl

/-- Entry (m, d) of the block is K3V of the head's query, key and value tables. -/
theorem out0_5_apply (x0 x1 x2 : Vec Ideal S1x4096x64 .f32) (m : Fin 8) (d : Fin 64) :
    out0_5 x0 x1 x2 (ix3 (0 : Fin 1) m d)
      = K3V (fun t d => x0 (ix3 (0 : Fin 1) t d)) (fun t d => x1 (ix3 (0 : Fin 1) t d)) (fun t d => x2 (ix3 (0 : Fin 1) t d)) m d := by
  rw [out0_5_eq]
  refine (shapeCast_apply _ shapeCasts_S8x64_S1x8x64 (ix3 (0 : Fin 1) m d) (ix2 m d) ?_).trans ?_
  · rw [Shape.rowMajor_val_two, Shape.rowMajor_val_three]
    show m.val * 64 + d.val = (0 * 8 + m.val) * 64 + d.val
    omega
  refine (matmul_plain_apply dot_S8x4096_S4096x64_S8x64_1_0_0_1_n_n_wf none (truncf .bf16 (k3Tbl x0 x1) bitsLt_bf16_f32)
    (truncf .bf16 (k0_pay5 x2) bitsLt_bf16_f32) m d).trans ?_
  unfold K3V
  refine Finset.sum_congr rfl fun t _ => ?_
  show k3Tbl x0 x1 (ix2 m t) * k0_pay3 x2 (ix2 t d) = _
  rw [k3Tbl_apply, table_apply]

end Cert.Landmark

end
-- ==== Proof.BlkArrK3V.lean ====
/-
  The third output array of the first region, whole: a [64, 8, 64] array whose slice b is K3V of head b.

  Grid point b reads block b of each input array (head b's 4096 × 64 table under a leading unit axis) and writes block b
  of the output; the 64 blocks tile the array, so after the region entry (b, m, d) is K3V of head b's query, key and
  value tables at (m, d).
-/
import proofs.«120126_j23330262352482_2_alg».proof.Proof.Gen.KernelIdeal.Frame
import proofs.«120126_j23330262352482_2_alg».proof.Proof.BlkK3V
import proofs.«120126_j23330262352482_2_alg».proof.Proof.BlkArrK2
import Idealize.ShloMosaic.Lib.Pipeline.Value

noncomputable section

namespace Cert.Landmark

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The [64, 8, 64] array of the heads' K3V tables. -/
def arrK3V (Q Kk Vv : S64x4096x64.Idx → EReal) : S64x8x64.Idx → EReal :=
  fun i => K3V (headTbl Q (i 0)) (headTbl Kk (i 0)) (headTbl Vv (i 0)) (i 1) (i 2)

/-- The printed index maps, decided over the grid: the output window's block index at point t is (t, 0, 0), and so is the value window's. -/
theorem idxK3V_facts : ∀ t : Fin cfg0.N,
    win0_5.index t (0 : Fin 3) = t.val ∧ win0_5.index t (1 : Fin 3) = 0 ∧ win0_5.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The value block at point t is head t's table of the third input array. -/
theorem blockV_apply (c : Dev nD) (t : Fin cfg0.N) (tt : Fin 4096) (d : Fin 64) :
    (iblk0 V c 2 t : Vec Ideal S1x4096x64 .f32) (ix3 (0 : Fin 1) tt d)
      = (V c main_v2 : S64x4096x64.Idx → EReal) (ix3 (headOf t) tt d) := by
  obtain ⟨-, -, -, e0, e1, e2⟩ := idxK3V_facts t
  show (V c main_v2 : S64x4096x64.Idx → EReal) (((cfg0.win 2).blk t).view.emb (ix3 (0 : Fin 1) tt d)) = _
  refine congrArg _ (funext fun a => Fin.ext ?_)
  match a with
  | ⟨0, _⟩ => show win0_2.index t (0 : Fin 3) * 1 + 1 * 0 = t.val; omega
  | ⟨1, _⟩ => show win0_2.index t (1 : Fin 3) * 4096 + 1 * tt.val = tt.val; omega
  | ⟨2, _⟩ => show win0_2.index t (2 : Fin 3) * 64 + 1 * d.val = d.val; omega

/-- The block the body leaves from blocks that are head b's tables is slice b of the array. -/
theorem out0_5_block (x0 x1 x2 : Vec Ideal S1x4096x64 .f32) (Q Kk Vv : S64x4096x64.Idx → EReal) (b : Fin 64)
    (h0 : ∀ tt d, x0 (ix3 (0 : Fin 1) tt d) = Q (ix3 b tt d)) (h1 : ∀ tt d, x1 (ix3 (0 : Fin 1) tt d) = Kk (ix3 b tt d))
    (h2 : ∀ tt d, x2 (ix3 (0 : Fin 1) tt d) = Vv (ix3 b tt d))
    (y : S1x8x64.Idx) (i : S64x8x64.Idx) (hi0 : (i 0).val = b.val) (hi1 : (i 1).val = (y 1).val) (hi2 : (i 2).val = (y 2).val) :
    out0_5 x0 x1 x2 y = arrK3V Q Kk Vv i := by
  obtain ⟨y0, m, n, rfl⟩ : ∃ (y0 : Fin 1) (m : Fin 8) (n : Fin 64), y = ix3 y0 m n := ⟨y 0, y 1, y 2, eq_ix3 y⟩
  obtain rfl : y0 = 0 := Fin.ext (by have := y0.isLt; omega)
  obtain ⟨b', m', n', rfl⟩ : ∃ (b' : Fin 64) (m' : Fin 8) (n' : Fin 64), i = ix3 b' m' n' := ⟨i 0, i 1, i 2, eq_ix3 i⟩
  obtain rfl : b' = b := Fin.ext hi0
  obtain rfl : m' = m := Fin.ext hi1
  obtain rfl : n' = n := Fin.ext hi2
  rw [out0_5_apply]
  show _ = K3V (headTbl Q b') (headTbl Kk b') (headTbl Vv b') m' n'
  have eq0 : (fun t d => x0 (ix3 (0 : Fin 1) t d)) = headTbl Q b' := funext fun t => funext fun d => h0 t d
  have eq1 : (fun t d => x1 (ix3 (0 : Fin 1) t d)) = headTbl Kk b' := funext fun t => funext fun d => h1 t d
  have eq2 : (fun t d => x2 (ix3 (0 : Fin 1) t d)) = headTbl Vv b' := funext fun t => funext fun d => h2 t d
  rw [eq0, eq1, eq2]

/-- WHAT POINT t WRITES BACK is block t of the array. -/
theorem flushedK3V_eq (c : Dev nD) (t : Fin cfg0.N) :
    (dat0 V c).flushed 5 t = ((cfg0.win 5).blk t).view.read (Elt Ideal) (arrK3V (V c main_v0) (V c main_v1) (V c main_v2)) := by
  show (cfg0.win 5).cut (grid0.coords t) ((dat0 V c).after 5 t) = _
  rw [after0_5]
  obtain ⟨e0, e1, e2, -⟩ := idxK3V_facts t
  funext j
  show out0_5 (iblk0 V c 0 t) (iblk0 V c 1 t) (iblk0 V c 2 t) j
    = arrK3V (V c main_v0) (V c main_v1) (V c main_v2) (((cfg0.win 5).blk t).view.emb j)
  refine out0_5_block (iblk0 V c 0 t) (iblk0 V c 1 t) (iblk0 V c 2 t) (V c main_v0) (V c main_v1) (V c main_v2) (headOf t)
    (blockQ_apply V c t) (blockK_apply V c t) (blockV_apply V c t) j (((cfg0.win 5).blk t).view.emb j) ?_ ?_ ?_
  · show win0_5.index t (0 : Fin 3) * 1 + 1 * (j 0).val = t.val
    have hj : (j 0).val < 1 := (j 0).isLt
    omega
  · show win0_5.index t (1 : Fin 3) * 8 + 1 * (j 1).val = (j 1).val
    omega
  · show win0_5.index t (2 : Fin 3) * 64 + 1 * (j 2).val = (j 2).val
    omega

/-- An index of the array is in point t's block iff each coordinate is in the block's range on its axis. -/
theorem mem_blkK3V (t : Fin cfg0.N) (i : S64x8x64.Idx) :
    i ∈ ((cfg0.win 5).blk t).view.set ↔ ∀ a : Fin 3, win0_5.index t a * S1x8x64.size a ≤ (i a).val ∧ (i a).val < win0_5.index t a * S1x8x64.size a + S1x8x64.size a := by
  show i ∈ ((View.whole main_v3_2).slice (win0_5.rect t)).set ↔ _
  rw [View.set_slice_whole, Rect.mem_set_unit]
  exact Iff.rfl

/-- Every index of the array is in the block of the point its first coordinate names. -/
theorem coverK3V (i : S64x8x64.Idx) : ∃ t : Fin cfg0.N, (cfg0.win 5).flush t = true ∧ i ∈ ((cfg0.win 5).blk t).view.set := by
  have hN : cfg0.N = 64 := N_0
  have hi0 : (i 0).val < 64 := (i 0).isLt
  have hi1 : (i 1).val < 8 := (i 1).isLt
  have hi2 : (i 2).val < 64 := (i 2).isLt
  let t : Fin cfg0.N := ⟨(i 0).val, by rw [hN]; exact hi0⟩
  obtain ⟨e0, e1, e2, -⟩ := idxK3V_facts t
  have ht : t.val = (i 0).val := rfl
  refine ⟨t, flush0_5 t, ?_⟩
  rw [mem_blkK3V]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 8 ≤ (i 1).val ∧ (i 1).val < win0_5.index t (1 : Fin 3) * 8 + 8; omega
  | ⟨2, _⟩ => show win0_5.index t (2 : Fin 3) * 64 ≤ (i 2).val ∧ (i 2).val < win0_5.index t (2 : Fin 3) * 64 + 64; omega

/-- THE ARRAY after the region, as a function of the input arrays as the region found them. -/
theorem arrAt_K3V (c : Dev nD) : (dat0 V c).arrAt 5 cfg0.N = arrK3V (V c main_v0) (V c main_v1) (V c main_v2) :=
  (dat0 V c).arrAt_eq_of_cover 5 (arrK3V (V c main_v0) (V c main_v1) (V c main_v2)) (fun t _ => flushedK3V_eq V c t) coverK3V

end Cert.Landmark

end
-- ==== Proof.Output.lean ====
/-
  The output, head by head, in the two orders of multiplication, and their agreement on real inputs.

  For head b: K1 and K3·v are those of the head's tables; the pseudo-inverse is that of the head's second softmax table,
  started from the scale of the largest column sum over ALL heads. When every input entry is real, every K1, K3·v and
  pseudo-inverse entry is real, and (K1 · P) · K3V = K1 · (P · K3V).
-/
import proofs.«120126_j23330262352482_2_alg».proof.Proof.SoftmaxReal
import proofs.«120126_j23330262352482_2_alg».proof.Proof.PseudoInverse
import proofs.«120126_j23330262352482_2_alg».proof.Proof.ColumnMax

noncomputable section

namespace Cert.Landmark

open Idealize.ShloMosaic Idealize.ShloMosaic.ValueIdx Cert.RealSums
open scoped BigOperators

variable (eye : Mat) (Q Kk Vv : (⟨3, ![4, 4096, 1024]⟩ : Shape).Idx → EReal)

/-- The heads' second softmax tables. -/
def k2Heads : Fin 64 → Mat := fun b => K2 (head Q b) (head Kk b)

/-- The scale of the iteration's start: 1 over the largest column sum over all heads. -/
def scaleAll : EReal := scaleOf (colMax (colSums (k2Heads Q Kk)))

/-- The pseudo-inverse of head b's second softmax table. -/
def pinvHead (b : Fin 64) : Mat := pinv eye (scaleAll Q Kk) (k2Heads Q Kk b)

/-- Head b of the output, the pseudo-inverse applied to K3·v first. -/
def outHeadRight (b : Fin 64) (t : Fin 4096) (d : Fin 64) : EReal :=
  outRight (K1 (head Q b) (head Kk b)) (pinvHead eye Q Kk b) (K3V (head Q b) (head Kk b) (head Vv b)) t d

/-- Head b of the output, K1 applied to the pseudo-inverse first. -/
def outHeadLeft (b : Fin 64) (t : Fin 4096) (d : Fin 64) : EReal :=
  outLeft (K1 (head Q b) (head Kk b)) (pinvHead eye Q Kk b) (K3V (head Q b) (head Kk b) (head Vv b)) t d

variable (hE : ∀ i j, IsR (eye i j)) (hQ : ∀ i, IsR (Q i)) (hK : ∀ i, IsR (Kk i)) (hV : ∀ i, IsR (Vv i))
include hE hQ hK hV

/-- On real inputs the two orders of multiplication give the same output. -/
theorem outHead_eq (b : Fin 64) (t : Fin 4096) (d : Fin 64) :
    outHeadRight eye Q Kk Vv b t d = outHeadLeft eye Q Kk Vv b t d := by
  have hq : ∀ b t d, IsR (head Q b t d) := fun b t d => hQ _
  have hk : ∀ b t d, IsR (head Kk b t d) := fun b t d => hK _
  have hv : ∀ b t d, IsR (head Vv b t d) := fun b t d => hV _
  have h2 : ∀ b i j, IsPos (k2Heads Q Kk b i j) := fun b i j => K2_isPos _ _ (hq b) (hk b) i j
  have hs : IsR (scaleAll Q Kk) := scaleOf_isR (colMax_isPos _ (colSums_isPos _ h2))
  unfold outHeadRight outHeadLeft
  exact outRight_eq_outLeft _ _ _ (fun t m => (K1_isPos _ _ (hq b) (hk b) t m).isR)
    (fun i j => pinv_isR hE (fun i j => (h2 b i j).isR) hs i j)
    (fun j d => K3V_isR _ _ _ (hq b) (hk b) (hv b) j d) t d

end Cert.Landmark

end
-- ==== Proof.KernelHeads.lean ====
/-
  The idealized kernel's intermediate arrays, head by head.

  After the first region the three stacked outputs hold, at head b, K1, K2 and K3·v of the head's tables; after the host
  operations between the regions the second factor of the last product holds, at head b, the head's pseudo-inverse
  (from the scale of the largest column sum over all heads) times K3·v.
-/
import proofs.«120126_j23330262352482_2_alg».proof.Proof.KernelBoundaries
import proofs.«120126_j23330262352482_2_alg».proof.Proof.KernelPinvHeads
import proofs.«120126_j23330262352482_2_alg».proof.Proof.KernelScale
import proofs.«120126_j23330262352482_2_alg».proof.Proof.BlkArrK1
import proofs.«120126_j23330262352482_2_alg».proof.Proof.BlkArrK3V
import proofs.«120126_j23330262352482_2_alg».proof.Proof.Output

set_option maxRecDepth 16384

noncomputable section

namespace Cert.KernelIdeal.Landmark

open Cert.KernelIdeal Cert.KernelIdeal.Gen
open Idealize.ShloMosaic Idealize.ShloMosaic.TcCoe Idealize.ShloMosaic.StableHlo Idealize.ShloMosaic.ValueIdx Cert.Landmark
open scoped BigOperators

variable (m : (ℓ : Loc nD τ sig) → Buf (Elt Ideal) ℓ) (ρ : Dev nD → PrngReg) (c : Dev nD)

/-- The regrouped inputs at the first region's entry, head by head. -/
theorem headTbl_q (b : Fin 64) : headTbl (V1 m ρ c main_v0) b = head (m ((c : Thread nD τ).loc main_arg0)) b := by
  funext t d
  show W1 m ρ c (Proc.devRef .tc main_v0) (ix3 b t d) = _
  rw [W1_q]
  exact regroup3_apply _ b t d

theorem headTbl_k (b : Fin 64) : headTbl (V1 m ρ c main_v1) b = head (m ((c : Thread nD τ).loc main_arg1)) b := by
  funext t d
  show W1 m ρ c (Proc.devRef .tc main_v1) (ix3 b t d) = _
  rw [W1_k]
  exact regroup3_apply _ b t d

theorem headTbl_v (b : Fin 64) : headTbl (V1 m ρ c main_v2) b = head (m ((c : Thread nD τ).loc main_arg2)) b := by
  funext t d
  show W1 m ρ c (Proc.devRef .tc main_v2) (ix3 b t d) = _
  rw [W1_v]
  exact regroup3_apply _ b t d

/-- The first region's first output at head b. -/
theorem k1_at (b : Fin 64) (t : Fin 4096) (j : Fin 8) :
    (dat0 (V1 m ρ) c).arrAt 3 cfg0.N (ix3 b t j)
      = K1 (head (m ((c : Thread nD τ).loc main_arg0)) b) (head (m ((c : Thread nD τ).loc main_arg1)) b) t j := by
  rw [arrAt_K1]
  show K1 (headTbl (V1 m ρ c main_v0) b) (headTbl (V1 m ρ c main_v1) b) t j = _
  rw [headTbl_q, headTbl_k]

/-- The first region's second output at head b. -/
theorem k2_at (b : Fin 64) :
    headMat ((dat0 (V1 m ρ) c).arrAt 4 cfg0.N) b
      = k2Heads (m ((c : Thread nD τ).loc main_arg0)) (m ((c : Thread nD τ).loc main_arg1)) b := by
  funext i j
  show (dat0 (V1 m ρ) c).arrAt 4 cfg0.N (ix3 b i j) = _
  rw [arrAt_K2]
  show K2 (headTbl (V1 m ρ c main_v0) b) (headTbl (V1 m ρ c main_v1) b) i j = _
  rw [headTbl_q, headTbl_k]
  rfl

/-- The first region's third output at head b. -/
theorem k3v_at (b : Fin 64) (j : Fin 8) (d : Fin 64) :
    (dat0 (V1 m ρ) c).arrAt 5 cfg0.N (ix3 b j d)
      = K3V (head (m ((c : Thread nD τ).loc main_arg0)) b) (head (m ((c : Thread nD τ).loc main_arg1)) b)
          (head (m ((c : Thread nD τ).loc main_arg2)) b) j d := by
  rw [arrAt_K3V]
  show K3V (headTbl (V1 m ρ c main_v0) b) (headTbl (V1 m ρ c main_v1) b) (headTbl (V1 m ρ c main_v2) b) j d = _
  rw [headTbl_q, headTbl_k, headTbl_v]

/-- The second region's first input at head b: K1. -/
theorem k1_in (b : Fin 64) (t : Fin 4096) (j : Fin 8) :
    V3 m ρ c main_v3_0 (ix3 b t j)
      = K1 (head (m ((c : Thread nD τ).loc main_arg0)) b) (head (m ((c : Thread nD τ).loc main_arg1)) b) t j := by
  show W3 m ρ c (Proc.devRef .tc main_v3_0) (ix3 b t j) = _
  rw [W3_K1]
  exact k1_at m ρ c b t j

/-- The stacked pseudo-inverses of the first region's second output, at head b. -/
theorem pinv_at (b : Fin 64) :
    headMat (pinvArr ((dat0 (V1 m ρ) c).arrAt 4 cfg0.N)) b
      = pinvHead (eyeMat eyeArr) (m ((c : Thread nD τ).loc main_arg0)) (m ((c : Thread nD τ).loc main_arg1)) b := by
  have hK : ∀ b, headMat ((dat0 (V1 m ρ) c).arrAt 4 cfg0.N) b
      = k2Heads (m ((c : Thread nD τ).loc main_arg0)) (m ((c : Thread nD τ).loc main_arg1)) b := k2_at m ρ c
  rw [pinvArr_apply, startScale_eq _ _ hK, hK b]
  rfl

/-- The host's last product at head b, entry by entry. -/
theorem w_sum (b : Fin 64) (i : Fin 8) (d : Fin 64) :
    (W3 m ρ c (Proc.devRef .tc main_v142) : S64x8x64.Idx → EReal) (ix3 b i d)
      = ∑ l : Fin 8, (pinvArr (F := Ideal) ((dat0 (V1 m ρ) c).arrAt 4 cfg0.N) (ix3 b i l) : EReal)
          * ((dat0 (V1 m ρ) c).arrAt 5 cfg0.N : S64x8x64.Idx → EReal) (ix3 b l d) := by
  rw [W3_W]
  exact wdot_apply _ _ b i d

set_option maxHeartbeats 1000000 in
/-- The second region's second input at head b: the pseudo-inverse times K3·v. -/
theorem w_in (b : Fin 64) (i : Fin 8) (d : Fin 64) :
    (∑ j : Fin 8, pinvHead (eyeMat eyeArr) (m ((c : Thread nD τ).loc main_arg0)) (m ((c : Thread nD τ).loc main_arg1)) b i j
          * K3V (head (m ((c : Thread nD τ).loc main_arg0)) b) (head (m ((c : Thread nD τ).loc main_arg1)) b)
              (head (m ((c : Thread nD τ).loc main_arg2)) b) j d)
      = (W3 m ρ c (Proc.devRef .tc main_v142) : S64x8x64.Idx → EReal) (ix3 b i d) := by
  rw [w_sum]
  refine Finset.sum_congr rfl fun j _ => ?_
  have hP : (pinvArr (F := Ideal) ((dat0 (V1 m ρ) c).arrAt 4 cfg0.N) (ix3 b i j) : EReal)
      = pinvHead (eyeMat eyeArr) (m ((c : Thread nD τ).loc main_arg0)) (m ((c : Thread nD τ).loc main_arg1)) b i j :=
    congrFun (congrFun (pinv_at m ρ c b) i) j
  rw [k3v_at, hP]

end Cert.KernelIdeal.Landmark

end
-- ==== Proof.SndProduct.lean ====
/-
  The block the second region's body leaves: the product of a head's 4096 × 8 table with its 8 × 64 table.

  The body drops the leading unit axis of both blocks, multiplies the tables, and puts the unit axis back; entry (t, d)
  of the result is the sum over the 8 landmarks j of entry (t, j) of the first times entry (j, d) of the second. (The
  change of float format on the way is the identity on extended reals.)
-/
import proofs.«120126_j23330262352482_2_alg».proof.Proof.Gen.KernelIdeal.Frame
import proofs.«120126_j23330262352482_2_alg».proof.Proof.BlkRowOps

noncomputable section

namespace Cert.Landmark

open Idealize.ShloMosaic Idealize.ShloMosaic.ValueIdx Cert.KernelIdeal Cert.KernelIdeal.Gen
open scoped BigOperators

private theorem hz3 : (![0, 0, 0] : Fin 3 → Nat) = fun _ => 0 := funext fun a => by fin_cases a <;> rfl

/-- What the body leaves in the block, over the loaded blocks themselves. -/
theorem out1_2_eq (x0 : Vec Ideal S1x4096x8 .bf16) (x1 : Vec Ideal S1x8x64 .f32) :
    out1_2 x0 x1
      = (shapeCast S1x4096x64 (matmul (F := Ideal) dot_S4096x8_S8x64_S4096x64_1_0_0_1_n_n none
          (shapeCast S4096x8 x0 shapeCasts_S1x4096x8_S4096x8 : FVec Ideal S4096x8 .bf16)
          (truncf .bf16 (shapeCast S8x64 x1 shapeCasts_S1x8x64_S8x64 : FVec Ideal S8x64 .f32) bitsLt_bf16_f32)
          (constant S4096x64 .f32 0x00000000#32)) shapeCasts_S4096x64_S1x4096x64 : FVec Ideal S1x4096x64 .f32) := by
  unfold out1_2
  rw [View.canon_unit_zero hz3]
  simp only [View.ld_unit_zero (S := S1x4096x8) hz3, View.ld_unit_zero (S := S1x8x64) hz3]
  rfl

/-- Entry (t, d) of the block: row t of the first table against column d of the second. -/
theorem out1_2_apply (x0 : Vec Ideal S1x4096x8 .bf16) (x1 : Vec Ideal S1x8x64 .f32) (t : Fin 4096) (d : Fin 64) :
    out1_2 x0 x1 (ix3 (0 : Fin 1) t d)
      = ∑ j : Fin 8, (x0 (ix3 (0 : Fin 1) t j) : EReal) * (x1 (ix3 (0 : Fin 1) j d) : EReal) := by
  rw [out1_2_eq]
  refine (shapeCast_apply _ shapeCasts_S4096x64_S1x4096x64 (ix3 (0 : Fin 1) t d) (ix2 t d) ?_).trans ?_
  · rw [Shape.rowMajor_val_two, Shape.rowMajor_val_three]
    show t.val * 64 + d.val = (0 * 4096 + t.val) * 64 + d.val
    omega
  refine (matmul_plain_apply dot_S4096x8_S8x64_S4096x64_1_0_0_1_n_n_wf none
    (shapeCast S4096x8 x0 shapeCasts_S1x4096x8_S4096x8 : FVec Ideal S4096x8 .bf16)
    (truncf .bf16 (shapeCast S8x64 x1 shapeCasts_S1x8x64_S8x64 : FVec Ideal S8x64 .f32) bitsLt_bf16_f32) t d).trans ?_
  refine Finset.sum_congr rfl fun j _ => ?_
  show (shapeCast S4096x8 x0 shapeCasts_S1x4096x8_S4096x8 (ix2 t j) : EReal)
      * (shapeCast S8x64 x1 shapeCasts_S1x8x64_S8x64 (ix2 j d) : EReal) = _
  congr 1
  · refine shapeCast_apply x0 shapeCasts_S1x4096x8_S4096x8 (ix2 t j) (ix3 (0 : Fin 1) t j) ?_
    rw [Shape.rowMajor_val_two, Shape.rowMajor_val_three]
    show (0 * 4096 + t.val) * 8 + j.val = t.val * 8 + j.val
    omega
  · refine shapeCast_apply x1 shapeCasts_S1x8x64_S8x64 (ix2 j d) (ix3 (0 : Fin 1) j d) ?_
    rw [Shape.rowMajor_val_two, Shape.rowMajor_val_three]
    show (0 * 8 + j.val) * 64 + d.val = j.val * 64 + d.val
    omega

end Cert.Landmark

end
-- ==== Proof.SndArray.lean ====
/-
  The output array of the second region, whole: a [64, 4096, 64] array whose slice b is the product of slice b of the
  [64, 4096, 8] array with slice b of the [64, 8, 64] array.

  Grid point b reads block b of each input array and writes block b of the output; the 64 blocks tile the array.
-/
import proofs.«120126_j23330262352482_2_alg».proof.Proof.Gen.KernelIdeal.Frame
import proofs.«120126_j23330262352482_2_alg».proof.Proof.SndProduct
import Idealize.ShloMosaic.Lib.Pipeline.Value

noncomputable section

namespace Cert.Landmark

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The [64, 4096, 64] array of the heads' products. -/
def arrProd (A : S64x4096x8.Idx → EReal) (W : S64x8x64.Idx → EReal) : S64x4096x64.Idx → EReal :=
  fun i => ∑ j : Fin 8, A (ix3 (i 0) (i 1) j) * W (ix3 (i 0) j (i 2))

/-- The second grid has 64 points; point t is head t. -/
def headOf1 (t : Fin cfg1.N) : Fin 64 := ⟨t.val, lt_of_lt_of_eq t.isLt N_1⟩

/-- The printed index maps, decided over the grid: every window's block index at point t is (t, 0, 0). -/
theorem idxProd_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

/-- The first block at point t is slice t of the [64, 4096, 8] array. -/
theorem blockA_apply (c : Dev nD) (t : Fin cfg1.N) (tt : Fin 4096) (j : Fin 8) :
    ((iblk1 V c 0 t : Vec Ideal S1x4096x8 .bf16) (ix3 (0 : Fin 1) tt j) : EReal)
      = (V c main_v3_0 : S64x4096x8.Idx → EReal) (ix3 (headOf1 t) tt j) := by
  obtain ⟨e0, e1, e2, -⟩ := idxProd_facts t
  show (V c main_v3_0 : S64x4096x8.Idx → EReal) (((cfg1.win 0).blk t).view.emb (ix3 (0 : Fin 1) tt j)) = _
  refine congrArg _ (funext fun a => Fin.ext ?_)
  match a with
  | ⟨0, _⟩ => show win1_0.index t (0 : Fin 3) * 1 + 1 * 0 = t.val; omega
  | ⟨1, _⟩ => show win1_0.index t (1 : Fin 3) * 4096 + 1 * tt.val = tt.val; omega
  | ⟨2, _⟩ => show win1_0.index t (2 : Fin 3) * 8 + 1 * j.val = j.val; omega

/-- The second block at point t is slice t of the [64, 8, 64] array. -/
theorem blockW_apply (c : Dev nD) (t : Fin cfg1.N) (j : Fin 8) (d : Fin 64) :
    ((iblk1 V c 1 t : Vec Ideal S1x8x64 .f32) (ix3 (0 : Fin 1) j d) : EReal)
      = (V c main_v142 : S64x8x64.Idx → EReal) (ix3 (headOf1 t) j d) := by
  obtain ⟨-, -, -, e0, e1, e2, -⟩ := idxProd_facts t
  show (V c main_v142 : S64x8x64.Idx → EReal) (((cfg1.win 1).blk t).view.emb (ix3 (0 : Fin 1) j d)) = _
  refine congrArg _ (funext fun a => Fin.ext ?_)
  match a with
  | ⟨0, _⟩ => show win1_1.index t (0 : Fin 3) * 1 + 1 * 0 = t.val; omega
  | ⟨1, _⟩ => show win1_1.index t (1 : Fin 3) * 8 + 1 * j.val = j.val; omega
  | ⟨2, _⟩ => show win1_1.index t (2 : Fin 3) * 64 + 1 * d.val = d.val; omega

/-- The block the body leaves from blocks that are slice b of the two arrays is slice b of the array of products. -/
theorem out1_2_block (x0 : Vec Ideal S1x4096x8 .bf16) (x1 : Vec Ideal S1x8x64 .f32)
    (A : S64x4096x8.Idx → EReal) (W : S64x8x64.Idx → EReal) (b : Fin 64)
    (h0 : ∀ tt j, (x0 (ix3 (0 : Fin 1) tt j) : EReal) = A (ix3 b tt j))
    (h1 : ∀ j d, (x1 (ix3 (0 : Fin 1) j d) : EReal) = W (ix3 b j d))
    (y : S1x4096x64.Idx) (i : S64x4096x64.Idx) (hi0 : (i 0).val = b.val) (hi1 : (i 1).val = (y 1).val) (hi2 : (i 2).val = (y 2).val) :
    out1_2 x0 x1 y = arrProd A W i := by
  obtain ⟨y0, t, d, rfl⟩ : ∃ (y0 : Fin 1) (t : Fin 4096) (d : Fin 64), y = ix3 y0 t d := ⟨y 0, y 1, y 2, eq_ix3 y⟩
  obtain rfl : y0 = 0 := Fin.ext (by have := y0.isLt; omega)
  obtain ⟨b', t', d', rfl⟩ : ∃ (b' : Fin 64) (t' : Fin 4096) (d' : Fin 64), i = ix3 b' t' d' := ⟨i 0, i 1, i 2, eq_ix3 i⟩
  obtain rfl : b' = b := Fin.ext hi0
  obtain rfl : t' = t := Fin.ext hi1
  obtain rfl : d' = d := Fin.ext hi2
  rw [out1_2_apply]
  show _ = ∑ j : Fin 8, A (ix3 b' t' j) * W (ix3 b' j d')
  refine Finset.sum_congr rfl fun j _ => ?_
  rw [h0 t' j, h1 j d']

/-- WHAT POINT t WRITES BACK is block t of the array of products. -/
theorem flushedProd_eq (c : Dev nD) (t : Fin cfg1.N) :
    (dat1 V c).flushed 2 t = ((cfg1.win 2).blk t).view.read (Elt Ideal) (arrProd (V c main_v3_0) (V c main_v142)) := by
  show (cfg1.win 2).cut (grid1.coords t) ((dat1 V c).after 2 t) = _
  rw [after1_2]
  obtain ⟨-, -, -, -, -, -, e0, e1, e2⟩ := idxProd_facts t
  funext j
  show out1_2 (iblk1 V c 0 t) (iblk1 V c 1 t) j
    = arrProd (V c main_v3_0) (V c main_v142) (((cfg1.win 2).blk t).view.emb j)
  refine out1_2_block (iblk1 V c 0 t) (iblk1 V c 1 t) (V c main_v3_0) (V c main_v142) (headOf1 t)
    (blockA_apply V c t) (blockW_apply V c t) j (((cfg1.win 2).blk t).view.emb j) ?_ ?_ ?_
  · show win1_2.index t (0 : Fin 3) * 1 + 1 * (j 0).val = t.val
    have hj : (j 0).val < 1 := (j 0).isLt
    omega
  · show win1_2.index t (1 : Fin 3) * 4096 + 1 * (j 1).val = (j 1).val
    omega
  · show win1_2.index t (2 : Fin 3) * 64 + 1 * (j 2).val = (j 2).val
    omega

/-- An index of the array is in point t's block iff each coordinate is in the block's range on its axis. -/
theorem mem_blkProd (t : Fin cfg1.N) (i : S64x4096x64.Idx) :
    i ∈ ((cfg1.win 2).blk t).view.set ↔ ∀ a : Fin 3, win1_2.index t a * S1x4096x64.size a ≤ (i a).val ∧ (i a).val < win1_2.index t a * S1x4096x64.size a + S1x4096x64.size a := by
  show i ∈ ((View.whole main_v143).slice (win1_2.rect t)).set ↔ _
  rw [View.set_slice_whole, Rect.mem_set_unit]
  exact Iff.rfl

/-- Every index of the array is in the block of the point its first coordinate names. -/
theorem coverProd (i : S64x4096x64.Idx) : ∃ t : Fin cfg1.N, (cfg1.win 2).flush t = true ∧ i ∈ ((cfg1.win 2).blk t).view.set := by
  have hN : cfg1.N = 64 := N_1
  have hi0 : (i 0).val < 64 := (i 0).isLt
  have hi1 : (i 1).val < 4096 := (i 1).isLt
  have hi2 : (i 2).val < 64 := (i 2).isLt
  let t : Fin cfg1.N := ⟨(i 0).val, by rw [hN]; exact hi0⟩
  obtain ⟨-, -, -, -, -, -, e0, e1, e2⟩ := idxProd_facts t
  have ht : t.val = (i 0).val := rfl
  refine ⟨t, flush1_2 t, ?_⟩
  rw [mem_blkProd]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 4096 ≤ (i 1).val ∧ (i 1).val < win1_2.index t (1 : Fin 3) * 4096 + 4096; omega
  | ⟨2, _⟩ => show win1_2.index t (2 : Fin 3) * 64 ≤ (i 2).val ∧ (i 2).val < win1_2.index t (2 : Fin 3) * 64 + 64; omega

/-- THE ARRAY after the region: the heads' products of the two input arrays as the region found them. -/
theorem arrAt_Prod (c : Dev nD) : (dat1 V c).arrAt 2 cfg1.N = arrProd (V c main_v3_0) (V c main_v142) :=
  (dat1 V c).arrAt_eq_of_cover 2 (arrProd (V c main_v3_0) (V c main_v142)) (fun t _ => flushedProd_eq V c t) coverProd

/-- An entry of the array of products: slice b's row t against slice b's column d. -/
theorem arrProd_apply (A : S64x4096x8.Idx → EReal) (W : S64x8x64.Idx → EReal) (b : Fin 64) (t : Fin 4096) (d : Fin 64) :
    arrProd A W (ix3 b t d) = ∑ j : Fin 8, A (ix3 b t j) * W (ix3 b j d) := rfl

/-- The array after the region at an entry. -/
theorem arrAt_Prod_apply (c : Dev nD) (b : Fin 64) (t : Fin 4096) (d : Fin 64) :
    ((dat1 V c).arrAt 2 cfg1.N : S64x4096x64.Idx → EReal) (ix3 b t d)
      = arrProd (V c main_v3_0) (V c main_v142) (ix3 b t d) :=
  congrFun (arrAt_Prod V c) (ix3 b t d)

end Cert.Landmark

end
-- ==== Proof.KernelValue.lean ====
/-
  The idealized kernel's result, head by head.

  The second region leaves, at head b, K1 times what the host formed — the head's pseudo-inverse times K3·v —: the
  output with the pseudo-inverse applied to K3·v first. The result array is that, regrouped into [4, 4096, 1024].
-/
import proofs.«120126_j23330262352482_2_alg».proof.Proof.KernelHeads
import proofs.«120126_j23330262352482_2_alg».proof.Proof.SndArray

set_option maxRecDepth 16384

noncomputable section

namespace Cert.KernelIdeal.Landmark

open Cert.KernelIdeal Cert.KernelIdeal.Gen
open Idealize.ShloMosaic Idealize.ShloMosaic.TcCoe Idealize.ShloMosaic.StableHlo Idealize.ShloMosaic.ValueIdx Cert.Landmark
open scoped BigOperators

variable (m : (ℓ : Loc nD τ sig) → Buf (Elt Ideal) ℓ) (ρ : Dev nD → PrngReg) (c : Dev nD)

set_option maxHeartbeats 1000000 in
/-- The second region's output at head b. -/
theorem out_at (b : Fin 64) (t : Fin 4096) (d : Fin 64) :
    arrProd (V3 m ρ c main_v3_0) (V3 m ρ c main_v142) (ix3 b t d)
      = outHeadRight (eyeMat eyeArr) (m ((c : Thread nD τ).loc main_arg0)) (m ((c : Thread nD τ).loc main_arg1))
          (m ((c : Thread nD τ).loc main_arg2)) b t d := by
  rw [arrProd_apply]
  unfold outHeadRight outRight
  refine Finset.sum_congr rfl fun j _ => ?_
  rw [w_in m ρ c b j d]
  exact congrArg (· * _) (k1_in m ρ c b t j)

/-- The kernel's result: the heads' outputs, regrouped. -/
theorem kernel_value : W5 m ρ c (Proc.devRef .tc main_v144)
    = shapeCast S4x4096x1024 (fun i : S64x4096x64.Idx =>
        outHeadRight (eyeMat eyeArr) (m ((c : Thread nD τ).loc main_arg0)) (m ((c : Thread nD τ).loc main_arg1))
          (m ((c : Thread nD τ).loc main_arg2)) (i 0) (i 1) (i 2)) shapeCasts_S64x4096x64_S4x4096x1024 := by
  rw [W5_result, arrAt_Prod]
  refine congrArg (fun X => shapeCast S4x4096x1024 X shapeCasts_S64x4096x64_S4x4096x1024) (funext fun i => ?_)
  obtain ⟨b, t, d, rfl⟩ : ∃ (b : Fin 64) (t : Fin 4096) (d : Fin 64), i = ix3 b t d := ⟨i 0, i 1, i 2, eq_ix3 i⟩
  exact out_at m ρ c b t d

end Cert.KernelIdeal.Landmark

end
-- ==== Proof.RefTail.lean ====
/-
  The reference's last stretch read as functions of its three softmax tables.

  From the stacked 8 × 8 tables K (4 × 16 of them) the reference forms the identity matrix, the column sums, their
  largest value over all heads, its reciprocal c, the start c · Kᵀ and six steps of the iteration
  V ↦ (V/4) · (13·I − KV · (15·I − KV · (7·I − KV))) with KV = K · V; its result is (K1 · P) · (K3 · v), regrouped.
-/
import proofs.«120126_j23330262352482_2_alg».proof.Proof.Gen.ReferenceIdeal.Run

set_option maxRecDepth 16384

noncomputable section

namespace Cert.ReferenceIdeal.Landmark

open Cert.ReferenceIdeal Cert.ReferenceIdeal.Gen Cert.ReferenceIdeal.Value
open Idealize.ShloMosaic Idealize.ShloMosaic.TcCoe Idealize.ShloMosaic.StableHlo

variable {F : FTy → Type} [FloatOps F]

/-- The identity matrix as the reference forms it: the row index compared with the column index, converted to a float. -/
def eyeArr : FVec F S8x8 .f32 :=
  uitofp .f32 (cmpi .eq (addi (iotaInDim S8x8 32 0) (broadcastInDim S8x8 ![] bcast_S_S8x8 (constantI S_ 32 0#32))) (iotaInDim S8x8 32 1))

/-- The start of the iteration: the reciprocal of the largest column sum over all heads, times the transposes. -/
def initArr (K : FVec F S4x16x8x8 .f32) : FVec F S4x16x8x8 .f32 :=
  mulf
    (broadcastInDim S4x16x8x8 ![] bcast_S_S4x16x8x8
      (Host.divf (constant S_ .f32 0x3F800000#32)
        (Host.reduce FloatOps.maximumf
          (Host.reduceAdd K (constant S_ .f32 0x00000000#32) reducesTo_S4x16x8x8_S4x16x8_d2 h_S_)
          (constant S_ .f32 0xFF800000#32) reducesTo_S4x16x8_S_d0_1_2 h_S_)))
    (transpose S4x16x8x8 [0, 1, 3, 2] K transposes_S4x16x8x8_S4x16x8x8_0_1_3_2)

/-- A multiple of the identity, stacked 4 × 16 times. -/
def eyeTimes (w : BitVec 32) (E : FVec F S8x8 .f32) : FVec F S4x16x8x8 .f32 :=
  broadcastInDim S4x16x8x8 ![0, 1, 2, 3] bcast_S1x1x8x8_S4x16x8x8_0_1_2_3
    (broadcastInDim S1x1x8x8 ![2, 3] bcast_S8x8_S1x1x8x8_2_3
      (mulf (broadcastInDim S8x8 ![] bcast_S_S8x8 (constant S_ .f32 w)) E))

/-- The stacked matrix product, head by head. -/
def bmm (A B : FVec F S4x16x8x8 .f32) : FVec F S4x16x8x8 .f32 :=
  Host.dotGeneral dot_S4x16x8x8_S4x16x8x8_S4x16x8x8_3_2_2_3_01_01 none A B

/-- One step of the iteration on the stacked matrices. -/
def stepArr (E : FVec F S8x8 .f32) (K V : FVec F S4x16x8x8 .f32) : FVec F S4x16x8x8 .f32 :=
  bmm (mulf (broadcastInDim S4x16x8x8 ![] bcast_S_S4x16x8x8 (constant S_ .f32 0x3E800000#32)) V)
    (subf (eyeTimes 0x41500000#32 E)
      (bmm (bmm K V)
        (subf (eyeTimes 0x41700000#32 E)
          (bmm (bmm K V) (subf (eyeTimes 0x40E00000#32 E) (bmm K V))))))

/-- The stacked pseudo-inverses: six steps from the start. -/
def pinvArr (K : FVec F S4x16x8x8 .f32) : FVec F S4x16x8x8 .f32 :=
  stepArr eyeArr K (stepArr eyeArr K (stepArr eyeArr K (stepArr eyeArr K (stepArr eyeArr K (stepArr eyeArr K (initArr K))))))

/-- The first softmax table as the reference's run names it. -/
def k1Arr (V0 : Valuation τ sig (Elt F)) : FVec F S4x16x4096x8 .f32 :=
  Host.divf (res_main_v20 V0) (broadcastInDim S4x16x4096x8 ![0, 1, 2, 3] bcast_S4x16x4096x1_S4x16x4096x8_0_1_2_3 (broadcastInDim S4x16x4096x1 ![0, 1, 2] bcast_S4x16x4096_S4x16x4096x1_0_1_2 (Host.reduceAdd (res_main_v20 V0) (constant S_ .f32 0x00000000#32) reducesTo_S4x16x4096x8_S4x16x4096_d3 h_S_)))

/-- The third softmax table as the reference's run names it. -/
def k3Arr (V0 : Valuation τ sig (Elt F)) : FVec F S4x16x8x4096 .f32 :=
  Host.divf (res_main_v48 V0) (broadcastInDim S4x16x8x4096 ![0, 1, 2, 3] bcast_S4x16x8x1_S4x16x8x4096_0_1_2_3 (broadcastInDim S4x16x8x1 ![0, 1, 2] bcast_S4x16x8_S4x16x8x1_0_1_2 (Host.reduceAdd (res_main_v48 V0) (constant S_ .f32 0x00000000#32) reducesTo_S4x16x8x4096_S4x16x8_d3 h_S_)))

theorem v85_eq (V0 : Valuation τ sig (Elt F)) : res_main_v85 V0 = stepArr eyeArr (res_main_v38 V0) (initArr (res_main_v38 V0)) := rfl
theorem v106_eq (V0 : Valuation τ sig (Elt F)) : res_main_v106 V0 = stepArr eyeArr (res_main_v38 V0) (res_main_v85 V0) := rfl
theorem v127_eq (V0 : Valuation τ sig (Elt F)) : res_main_v127 V0 = stepArr eyeArr (res_main_v38 V0) (res_main_v106 V0) := rfl
theorem v148_eq (V0 : Valuation τ sig (Elt F)) : res_main_v148 V0 = stepArr eyeArr (res_main_v38 V0) (res_main_v127 V0) := rfl
theorem v169_eq (V0 : Valuation τ sig (Elt F)) : res_main_v169 V0 = stepArr eyeArr (res_main_v38 V0) (res_main_v148 V0) := rfl

/-- The reference's result: (K1 · P) · (K3 · v), regrouped, P the stacked pseudo-inverses of the second softmax table. -/
theorem ref_result (V0 : Valuation τ sig (Elt F)) : val4 V0 (Proc.devRef .tc main_v194) =
    shapeCast _ (Host.dotGeneral dot_S4x16x4096x8_S4x16x8x64_S4x16x4096x64_3_2_2_3_01_01 none
      (Host.dotGeneral dot_S4x16x4096x8_S4x16x8x8_S4x16x4096x8_3_2_2_3_01_01 none (k1Arr V0) (pinvArr (res_main_v38 V0)))
      (Host.dotGeneral dot_S4x16x8x4096_S4x16x4096x64_S4x16x8x64_3_2_2_3_01_01 none (k3Arr V0)
        (shapeCast _ (V0 (Proc.devRef .tc main_arg2)) shapeCasts_S4x4096x1024_S4x16x4096x64)))
      shapeCasts_S4x16x4096x64_S4x4096x1024 := by
  rw [val4_main_v194]
  unfold pinvArr
  rw [← v85_eq, ← v106_eq, ← v127_eq, ← v148_eq, ← v169_eq]
  rfl

end Cert.ReferenceIdeal.Landmark

end
-- ==== Proof.RefPinvHeads.lean ====
/-
  The reference's iteration read head by head.

  At head (a, h) the stacked matrix product is the product of the head's 8 × 8 matrices, a stacked multiple of the
  identity is that multiple of the identity, and so one step of the iteration on the stacked matrices is, entry by entry,
  one step on the head's matrices; six steps from the scaled transposes give the head's pseudo-inverse.
-/
import proofs.«120126_j23330262352482_2_alg».proof.Proof.RefTail
import proofs.«120126_j23330262352482_2_alg».proof.Proof.PseudoInverse
import Idealize.ShloMosaic.PureOps.Ideal.Laws
import Idealize.ShloMosaic.Lib.Pipeline.Value
import Idealize.ShloMosaic.Lib.ValueIdx

set_option maxRecDepth 16384

noncomputable section

namespace Cert.ReferenceIdeal.Landmark

open Cert.ReferenceIdeal Cert.ReferenceIdeal.Gen Cert.ReferenceIdeal.Value
open Idealize.ShloMosaic Idealize.ShloMosaic.ValueIdx Cert.Landmark
open scoped BigOperators

/-- The stacked product at a head is the product of the head's matrices. -/
theorem bmm_apply (A B : FVec Ideal S4x16x8x8 .f32) (a : Fin 4) (h : Fin 16) (i j : Fin 8) :
    bmm A B (ix4 a h i j) = ∑ l : Fin 8, A (ix4 a h i l) * B (ix4 a h l j) := by
  unfold bmm
  simp only [Host.dotGeneral]
  rw [Ideal.dotGeneral_apply]
  rw [← Equiv.sum_comp (contrEquiv1 dot_S4x16x8x8_S4x16x8x8_S4x16x8x8_3_2_2_3_01_01 8 rfl rfl).symm]
  refine Finset.sum_congr rfl fun l _ => ?_
  have hk := contrEquiv1_symm_val dot_S4x16x8x8_S4x16x8x8_S4x16x8x8_3_2_2_3_01_01 8 rfl rfl l
  congr 2
  · funext c
    refine Fin.ext ?_
    match c with
    | ⟨0, _⟩ => rfl
    | ⟨1, _⟩ => rfl
    | ⟨2, _⟩ => rfl
    | ⟨3, _⟩ => exact (dot_S4x16x8x8_S4x16x8x8_S4x16x8x8_3_2_2_3_01_01.lhsIdx_val_of_single rfl (ix4 a h i j) _).trans hk
  · funext c
    refine Fin.ext ?_
    match c with
    | ⟨0, _⟩ => rfl
    | ⟨1, _⟩ => rfl
    | ⟨2, _⟩ => exact (dot_S4x16x8x8_S4x16x8x8_S4x16x8x8_3_2_2_3_01_01.rhsIdx_val_of_single rfl (ix4 a h i j) _).trans hk
    | ⟨3, _⟩ => rfl

/-- A stacked multiple of the identity at a head. -/
theorem eyeTimes_apply (w : BitVec 32) (E : FVec Ideal S8x8 .f32) (a : Fin 4) (h : Fin 16) (i j : Fin 8) :
    eyeTimes w E (ix4 a h i j) = Ideal.ofBits .f32 w * E (ix2 i j) := by
  unfold eyeTimes
  rw [broadcastInDim_apply _ _ _ _ (ix4 (0 : Fin 1) (0 : Fin 1) i j) (by intro a; match a with | ⟨0, _⟩ => rfl | ⟨1, _⟩ => rfl | ⟨2, _⟩ => rfl | ⟨3, _⟩ => rfl)]
  rw [broadcastInDim_apply _ _ _ _ (ix2 i j) (by intro a; match a with | ⟨0, _⟩ => rfl | ⟨1, _⟩ => rfl)]
  rfl

/-- A scalar spread over the stack reads the scalar everywhere. -/
theorem splat_apply (x : FVec Ideal S_ .f32) (a : Fin 4) (h : Fin 16) (i j : Fin 8) :
    broadcastInDim S4x16x8x8 ![] bcast_S_S4x16x8x8 x (ix4 a h i j) = x ix0 := by
  rw [broadcastInDim_apply _ _ _ _ ix0 (by intro a; exact a.elim0)]

/-- The head's matrix of a stack. -/
def headMat (X : FVec Ideal S4x16x8x8 .f32) (a : Fin 4) (h : Fin 16) : Mat := fun i j => X (ix4 a h i j)

/-- The identity matrix as a matrix of extended reals. -/
def eyeMat (E : FVec Ideal S8x8 .f32) : Mat := fun i j => E (ix2 i j)

/-- One step on the stack is, at a head, one step on the head's matrices. -/
theorem stepArr_apply (E : FVec Ideal S8x8 .f32) (K V : FVec Ideal S4x16x8x8 .f32) (a : Fin 4) (h : Fin 16) :
    headMat (stepArr E K V) a h = nsStep (eyeMat E) (headMat K a h) (headMat V a h) := by
  have hKV : headMat (bmm K V) a h = mmul (headMat K a h) (headMat V a h) := by
    funext i j; exact bmm_apply K V a h i j
  have inner : ∀ (w : BitVec 32) (X : FVec Ideal S4x16x8x8 .f32) (Xs : Mat), headMat X a h = Xs →
      headMat (subf (eyeTimes w E) (bmm (bmm K V) X)) a h
        = fun i j => Ideal.ofBits .f32 w * eyeMat E i j - mmul (mmul (headMat K a h) (headMat V a h)) Xs i j := by
    intro w X Xs hX
    funext i j
    show eyeTimes w E (ix4 a h i j) - bmm (bmm K V) X (ix4 a h i j) = _
    rw [eyeTimes_apply, bmm_apply]
    have e1 : ∀ l, bmm K V (ix4 a h i l) = mmul (headMat K a h) (headMat V a h) i l := fun l => congrFun (congrFun hKV i) l
    have e2 : ∀ l, X (ix4 a h l j) = Xs l j := fun l => congrFun (congrFun hX l) j
    simp only [e1, e2]
    rfl
  have h7 : headMat (subf (eyeTimes 0x40E00000#32 E) (bmm K V)) a h
      = fun i j => c7 * eyeMat E i j - mmul (headMat K a h) (headMat V a h) i j := by
    funext i j
    show eyeTimes _ E (ix4 a h i j) - bmm K V (ix4 a h i j) = _
    rw [eyeTimes_apply, bmm_apply]
    rfl
  have h15 := inner 0x41700000#32 _ _ h7
  have h13 := inner 0x41500000#32 _ _ h15
  funext i j
  show bmm _ _ (ix4 a h i j) = _
  rw [bmm_apply]
  unfold nsStep
  show _ = ∑ l : Fin 8, _
  refine Finset.sum_congr rfl fun l _ => ?_
  have eL : (mulf (broadcastInDim S4x16x8x8 ![] bcast_S_S4x16x8x8 (constant S_ .f32 0x3E800000#32)) V) (ix4 a h i l)
      = cQuarter * headMat V a h i l := by
    show broadcastInDim S4x16x8x8 ![] bcast_S_S4x16x8x8 (constant S_ .f32 0x3E800000#32) (ix4 a h i l) * V (ix4 a h i l) = _
    rw [splat_apply]
    rfl
  rw [eL]
  exact congrArg (cQuarter * headMat V a h i l * ·) (congrFun (congrFun h13 l) j)

/-- The scale of the start: the reciprocal of the largest column sum over all heads. -/
def startScale (K : FVec Ideal S4x16x8x8 .f32) : EReal :=
  (Host.divf (constant S_ .f32 0x3F800000#32)
    (Host.reduce FloatOps.maximumf
      (Host.reduceAdd K (constant S_ .f32 0x00000000#32) reducesTo_S4x16x8x8_S4x16x8_d2 h_S_)
      (constant S_ .f32 0xFF800000#32) reducesTo_S4x16x8_S_d0_1_2 h_S_)) ix0

/-- The start at a head: the scaled transpose. -/
theorem initArr_apply (K : FVec Ideal S4x16x8x8 .f32) (a : Fin 4) (h : Fin 16) :
    headMat (initArr K) a h = nsInit (startScale K) (headMat K a h) := by
  funext i j
  show initArr K (ix4 a h i j) = _
  unfold initArr
  rw [mulf_apply, splat_apply, transpose_apply _ _ _ _ (ix4 a h j i) (by intro a; match a with | ⟨0, _⟩ => rfl | ⟨1, _⟩ => rfl | ⟨2, _⟩ => rfl | ⟨3, _⟩ => rfl)]
  rfl

/-- Six steps on the stack are, at a head, the head's pseudo-inverse. -/
theorem pinvArr_apply (K : FVec Ideal S4x16x8x8 .f32) (a : Fin 4) (h : Fin 16) :
    headMat (pinvArr K) a h = pinv (eyeMat eyeArr) (startScale K) (headMat K a h) := by
  have h0 := initArr_apply K a h
  have h1 := (stepArr_apply eyeArr K _ a h).trans (congrArg (nsStep (eyeMat eyeArr) (headMat K a h)) h0)
  have h2 := (stepArr_apply eyeArr K _ a h).trans (congrArg (nsStep (eyeMat eyeArr) (headMat K a h)) h1)
  have h3 := (stepArr_apply eyeArr K _ a h).trans (congrArg (nsStep (eyeMat eyeArr) (headMat K a h)) h2)
  have h4 := (stepArr_apply eyeArr K _ a h).trans (congrArg (nsStep (eyeMat eyeArr) (headMat K a h)) h3)
  have h5 := (stepArr_apply eyeArr K _ a h).trans (congrArg (nsStep (eyeMat eyeArr) (headMat K a h)) h4)
  exact (stepArr_apply eyeArr K _ a h).trans (congrArg (nsStep (eyeMat eyeArr) (headMat K a h)) h5)

end Cert.ReferenceIdeal.Landmark

end
-- ==== Proof.RefHeads.lean ====
/-
  The reference's first step regroups each [4, 4096, 1024] input, in row-major order, into [4, 16, 4096, 64].
  Entry (a, h, t, d) of the regrouped array sits at flat position ((16·a + h)·4096 + t)·64 + d, which is the
  position of entry (t, d) of head 16·a + h: the regrouped array, read at (a, h, t, d), is that head at (t, d).
-/
import proofs.«120126_j23330262352482_2_alg».proof.Proof.Gen.ReferenceIdeal.Run
import proofs.«120126_j23330262352482_2_alg».proof.Proof.Spec
import Idealize.ShloMosaic.Lib.Pipeline.Value

noncomputable section

namespace Cert.Landmark

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx

/-- The head that batch `a` and group `h` name: 16·a + h. -/
def hd (a : Fin 4) (h : Fin 16) : Fin 64 := ⟨16 * a.val + h.val, by have := a.isLt; have := h.isLt; omega⟩

theorem hd_val (a : Fin 4) (h : Fin 16) : (hd a h).val = 16 * a.val + h.val := rfl

/-- The row-major regrouping [4, 4096, 1024] → [4, 16, 4096, 64] read at (a, h, t, d): head 16·a + h at (t, d). -/
theorem regroup_apply (X : S4x4096x1024.Idx → EReal) (a : Fin 4) (h : Fin 16) (t : Fin 4096) (d : Fin 64) :
    shapeCast S4x16x4096x64 X shapeCasts_S4x4096x1024_S4x16x4096x64 (ix4 a h t d) = head X (hd a h) t d := by
  unfold head
  refine shapeCast_apply X _ (ix4 a h t d) _ ?_
  rw [Shape.rowMajor_val_three, Shape.rowMajor_val_four]
  show (((16 * a.val + h.val) / 16) * 4096 + ((16 * a.val + h.val) % 16 * 256 + t.val / 16)) * 1024 + (t.val % 16 * 64 + d.val)
      = ((a.val * 16 + h.val) * 4096 + t.val) * 64 + d.val
  have := a.isLt; have := h.isLt; have := t.isLt; have := d.isLt
  omega

variable (V0 : Valuation τ sig (Elt Ideal))

set_option maxRecDepth 8192 in
/-- The regrouped queries at (a, h, t, d). -/
theorem ref_q_apply (a : Fin 4) (h : Fin 16) (t : Fin 4096) (d : Fin 64) :
    res_main_v0 (F := Ideal) V0 (ix4 a h t d) = head (V0 (Proc.devRef .tc main_arg0)) (hd a h) t d :=
  regroup_apply _ a h t d

set_option maxRecDepth 8192 in
/-- The regrouped keys at (a, h, t, d). -/
theorem ref_k_apply (a : Fin 4) (h : Fin 16) (t : Fin 4096) (d : Fin 64) :
    res_main_v1 (F := Ideal) V0 (ix4 a h t d) = head (V0 (Proc.devRef .tc main_arg1)) (hd a h) t d :=
  regroup_apply _ a h t d

set_option maxRecDepth 8192 in
/-- The regrouped values at (a, h, t, d). -/
theorem ref_v_apply (a : Fin 4) (h : Fin 16) (t : Fin 4096) (d : Fin 64) :
    shapeCast S4x16x4096x64 (V0 (Proc.devRef .tc main_arg2)) shapeCasts_S4x4096x1024_S4x16x4096x64 (ix4 a h t d)
      = head (V0 (Proc.devRef .tc main_arg2)) (hd a h) t d :=
  regroup_apply _ a h t d

end Cert.Landmark

end
-- ==== Proof.RefScale.lean ====
/-
  The scale of the iteration's start, in the reference.

  The column sums of the stacked tables (from 0) are folded by `max` from −∞ over every head and column, and 1 is divided
  by the result: that is the scale of the largest column sum over the (head, column) pairs, however the stack is indexed.
-/
import proofs.«120126_j23330262352482_2_alg».proof.Proof.RefPinvHeads
import proofs.«120126_j23330262352482_2_alg».proof.Proof.ColumnMax
import proofs.«120126_j23330262352482_2_alg».proof.Proof.RefHeads
import Idealize.ShloMosaic.PureOps.Reduce

set_option maxRecDepth 16384

noncomputable section

namespace Cert.ReferenceIdeal.Landmark

open Cert.ReferenceIdeal Cert.ReferenceIdeal.Gen Cert.ReferenceIdeal.Value
open Idealize.ShloMosaic Idealize.ShloMosaic.ValueIdx Cert.Landmark
open scoped BigOperators

instance : Subsingleton S_.Idx := ⟨fun a b => funext fun d => d.elim0⟩

/-- The (batch, head, column) triples are the (head, column) pairs, the head being 16 · batch + head. -/
def pairEquiv : S4x16x8.Idx ≃ Fin 64 × Fin 8 where
  toFun q := (hd (q 0) (q 1), q 2)
  invFun p := ix3 (⟨p.1.val / 16, by have := p.1.isLt; omega⟩ : Fin 4) (⟨p.1.val % 16, Nat.mod_lt _ (by norm_num)⟩ : Fin 16) p.2
  left_inv q := by
    funext c
    refine Fin.ext ?_
    have h0 : (q 0).val < 4 := (q 0).isLt
    have h1 : (q 1).val < 16 := (q 1).isLt
    match c with
    | ⟨0, _⟩ => show (16 * (q 0).val + (q 1).val) / 16 = (q 0).val; omega
    | ⟨1, _⟩ => show (16 * (q 0).val + (q 1).val) % 16 = (q 1).val; omega
    | ⟨2, _⟩ => rfl
  right_inv p := by
    refine Prod.ext (Fin.ext ?_) rfl
    show 16 * (p.1.val / 16) + p.1.val % 16 = p.1.val
    omega

/-- The scale is 1 over the largest column sum over the (head, column) pairs. -/
theorem startScale_eq (K : FVec Ideal S4x16x8x8 .f32) (Kh : Fin 64 → Mat) (hK : ∀ a h, headMat K a h = Kh (hd a h)) :
    startScale K = scaleOf (colMax (colSums Kh)) := by
  have hR : S4x16x8x8.Reduces [2] S4x16x8 := by decide
  unfold startScale scaleOf
  show Ideal.div cOne (Host.reduce (FloatOps.maximumf (F := Ideal) (φ := .f32)) _ _ _ _ ix0) = _
  refine congrArg (Ideal.div cOne) ?_
  rw [Host.reduce_eq_fold, Finset.filter_true_of_mem (fun i _ => Subsingleton.elim _ _),
    ← colMax_equiv pairEquiv (colSums Kh)]
  unfold colMax
  show (Finset.univ : Finset S4x16x8.Idx).fold max negInf _ = _
  refine Finset.fold_congr fun x _ => ?_
  obtain ⟨a, h, n, rfl⟩ : ∃ (a : Fin 4) (h : Fin 16) (n : Fin 8), x = ix3 a h n := ⟨x 0, x 1, x 2, eq_ix3 x⟩
  show Ideal.hostReduceAdd reducesTo_S4x16x8x8_S4x16x8_d2 K (Ideal.ofBits .f32 0x00000000#32) (ix3 a h n) = colSums Kh (hd a h, n)
  rw [Ideal.hostReduceAdd_single _ hR, Ideal.ofBits_zero_f32, zero_add]
  unfold colSums
  refine Finset.sum_congr rfl fun m _ => ?_
  rw [← hK a h]
  exact congrArg K (funext fun c => Fin.ext (by match c with | ⟨0, _⟩ => rfl | ⟨1, _⟩ => rfl | ⟨2, _⟩ => rfl | ⟨3, _⟩ => rfl))

end Cert.ReferenceIdeal.Landmark

end
-- ==== Proof.RefLandmarks.lean ====
/-
  The reference's landmark rows. The regrouped [4, 16, 4096, 64] array is regrouped once more, in row-major
  order, into [4, 16, 8, 512, 64]: row r of segment m is row 512·m + r. Summing over the 512 rows of a segment
  (from the initial value 0) and dividing by 512 gives, at (a, h, m, d), the mean of segment m of head 16·a + h
  in column d.
-/
import proofs.«120126_j23330262352482_2_alg».proof.Proof.RefHeads
import Idealize.ShloMosaic.PureOps.Ideal.Laws

noncomputable section

namespace Cert.Landmark

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx
open scoped BigOperators

/-- The segment sums, from 0, over 512, of an array regrouped into segments, read at (a, h, m, d): the mean over
    the rows 512·m + r of the entries (a, h, ·, d). -/
theorem seg_mean_apply (X : S4x16x4096x64.Idx → EReal) (a : Fin 4) (h : Fin 16) (m : Fin 8) (d : Fin 64) :
    Host.divf (F := Ideal)
        (Host.reduceAdd (shapeCast S4x16x8x512x64 X shapeCasts_S4x16x4096x64_S4x16x8x512x64) (constant S_ .f32 0x00000000#32)
          reducesTo_S4x16x8x512x64_S4x16x8x64_d3 h_S_)
        (broadcastInDim S4x16x8x64 ![] bcast_S_S4x16x8x64 (constant S_ .f32 0x44000000#32)) (ix4 a h m d)
      = Ideal.div (∑ r : Fin 512, X (ix4 a h (seg m r) d)) c512 := by
  have hR : S4x16x8x512x64.Reduces [3] S4x16x8x64 := by decide
  show Ideal.div (Ideal.hostReduceAdd reducesTo_S4x16x8x512x64_S4x16x8x64_d3
      (shapeCast S4x16x8x512x64 X shapeCasts_S4x16x4096x64_S4x16x8x512x64) (Ideal.ofBits .f32 0x00000000#32) (ix4 a h m d))
      (Ideal.ofBits .f32 0x44000000#32) = _
  rw [Ideal.hostReduceAdd_single _ hR, Ideal.ofBits_zero_f32, zero_add]
  refine congrArg (fun z => Ideal.div z c512) ?_
  show (∑ r : Fin 512, shapeCast S4x16x8x512x64 X shapeCasts_S4x16x4096x64_S4x16x8x512x64 (hR.lift (ix4 a h m d) r)) = _
  refine Finset.sum_congr rfl fun r _ => ?_
  refine shapeCast_apply X _ _ (ix4 a h (seg m r) d) ?_
  rw [Shape.rowMajor_val_four, Shape.rowMajor_val_five]
  show ((a.val * 16 + h.val) * 4096 + (512 * m.val + r.val)) * 64 + d.val
      = (((a.val * 16 + h.val) * 8 + m.val) * 512 + r.val) * 64 + d.val
  have := a.isLt; have := h.isLt; have := m.isLt; have := r.isLt; have := d.isLt
  omega

variable (V0 : Valuation τ sig (Elt Ideal))

set_option maxRecDepth 8192 in
/-- The reference's query landmarks at (a, h, m, d): the landmark rows of head 16·a + h of the queries. -/
theorem ref_qland_apply (a : Fin 4) (h : Fin 16) (m : Fin 8) (d : Fin 64) :
    res_main_v6 (F := Ideal) V0 (ix4 a h m d) = land (head (V0 (Proc.devRef .tc main_arg0)) (hd a h)) m d := by
  unfold res_main_v6 land
  rw [seg_mean_apply]
  exact congrArg (fun z => Ideal.div z c512) (Finset.sum_congr rfl fun r _ => ref_q_apply V0 a h (seg m r) d)

set_option maxRecDepth 8192 in
/-- The reference's key landmarks at (a, h, m, d): the landmark rows of head 16·a + h of the keys. -/
theorem ref_kland_apply (a : Fin 4) (h : Fin 16) (m : Fin 8) (d : Fin 64) :
    res_main_v10 (F := Ideal) V0 (ix4 a h m d) = land (head (V0 (Proc.devRef .tc main_arg1)) (hd a h)) m d := by
  unfold res_main_v10 land
  rw [seg_mean_apply]
  exact congrArg (fun z => Ideal.div z c512) (Finset.sum_congr rfl fun r _ => ref_k_apply V0 a h (seg m r) d)

end Cert.Landmark

end
-- ==== Proof.RefProducts.lean ====
/-
  The reference's batched products, read at an index. Each has batch axes (0, 1) on both sides and contracts one
  axis; the result's axes are the batch axes, then the left operand's free axis, then the right operand's. At a
  result index the product is the plain sum, over the contracted coordinate, of the products of the two operands'
  entries (no accumulator: the host product starts from 0). Three of them are then scaled by 1/8.
-/
import proofs.«120126_j23330262352482_2_alg».proof.Proof.Gen.ReferenceIdeal.Run
import proofs.«120126_j23330262352482_2_alg».proof.Proof.Spec
import Idealize.ShloMosaic.PureOps.Ideal.Laws
import Idealize.ShloMosaic.Lib.ValueIdx

noncomputable section

namespace Cert.Landmark

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx
open scoped BigOperators

/-! ### Tokens against landmarks -/

theorem lhsA_0 (i : S4x16x4096x8.Idx) (q : dot_S4x16x4096x64_S4x16x8x64_S4x16x4096x8_3_3_2_2_01_01.contr.Idx) :
    (dot_S4x16x4096x64_S4x16x8x64_S4x16x4096x8_3_3_2_2_01_01.lhsIdx i q 0).val = (i 0).val := by
  unfold DotDims.lhsIdx
  rw [dif_pos (show (0 : Fin S4x16x4096x64.rank) ∈ dot_S4x16x4096x64_S4x16x8x64_S4x16x4096x8_3_3_2_2_01_01.lhsBatch by decide)]
  rfl

theorem lhsA_1 (i : S4x16x4096x8.Idx) (q : dot_S4x16x4096x64_S4x16x8x64_S4x16x4096x8_3_3_2_2_01_01.contr.Idx) :
    (dot_S4x16x4096x64_S4x16x8x64_S4x16x4096x8_3_3_2_2_01_01.lhsIdx i q 1).val = (i 1).val := by
  unfold DotDims.lhsIdx
  rw [dif_pos (show (1 : Fin S4x16x4096x64.rank) ∈ dot_S4x16x4096x64_S4x16x8x64_S4x16x4096x8_3_3_2_2_01_01.lhsBatch by decide)]
  rfl

theorem lhsA_2 (i : S4x16x4096x8.Idx) (q : dot_S4x16x4096x64_S4x16x8x64_S4x16x4096x8_3_3_2_2_01_01.contr.Idx) :
    (dot_S4x16x4096x64_S4x16x8x64_S4x16x4096x8_3_3_2_2_01_01.lhsIdx i q 2).val = (i 2).val := by
  unfold DotDims.lhsIdx
  rw [dif_neg (show ¬(2 : Fin S4x16x4096x64.rank) ∈ dot_S4x16x4096x64_S4x16x8x64_S4x16x4096x8_3_3_2_2_01_01.lhsBatch by decide), dif_pos (show (2 : Fin S4x16x4096x64.rank) ∈ dot_S4x16x4096x64_S4x16x8x64_S4x16x4096x8_3_3_2_2_01_01.lhsNonContracting by decide)]
  rfl

theorem lhsA_3 (i : S4x16x4096x8.Idx) (q : dot_S4x16x4096x64_S4x16x8x64_S4x16x4096x8_3_3_2_2_01_01.contr.Idx) :
    (dot_S4x16x4096x64_S4x16x8x64_S4x16x4096x8_3_3_2_2_01_01.lhsIdx i q 3).val = (q ⟨0, by decide⟩).val :=
  dot_S4x16x4096x64_S4x16x8x64_S4x16x4096x8_3_3_2_2_01_01.lhsIdx_val_of_single rfl i q

theorem rhsA_0 (i : S4x16x4096x8.Idx) (q : dot_S4x16x4096x64_S4x16x8x64_S4x16x4096x8_3_3_2_2_01_01.contr.Idx) :
    (dot_S4x16x4096x64_S4x16x8x64_S4x16x4096x8_3_3_2_2_01_01.rhsIdx i q 0).val = (i 0).val := by
  unfold DotDims.rhsIdx
  rw [dif_pos (show (0 : Fin S4x16x8x64.rank) ∈ dot_S4x16x4096x64_S4x16x8x64_S4x16x4096x8_3_3_2_2_01_01.rhsBatch by decide)]
  rfl

theorem rhsA_1 (i : S4x16x4096x8.Idx) (q : dot_S4x16x4096x64_S4x16x8x64_S4x16x4096x8_3_3_2_2_01_01.contr.Idx) :
    (dot_S4x16x4096x64_S4x16x8x64_S4x16x4096x8_3_3_2_2_01_01.rhsIdx i q 1).val = (i 1).val := by
  unfold DotDims.rhsIdx
  rw [dif_pos (show (1 : Fin S4x16x8x64.rank) ∈ dot_S4x16x4096x64_S4x16x8x64_S4x16x4096x8_3_3_2_2_01_01.rhsBatch by decide)]
  rfl

theorem rhsA_2 (i : S4x16x4096x8.Idx) (q : dot_S4x16x4096x64_S4x16x8x64_S4x16x4096x8_3_3_2_2_01_01.contr.Idx) :
    (dot_S4x16x4096x64_S4x16x8x64_S4x16x4096x8_3_3_2_2_01_01.rhsIdx i q 2).val = (i 3).val := by
  unfold DotDims.rhsIdx
  rw [dif_neg (show ¬(2 : Fin S4x16x8x64.rank) ∈ dot_S4x16x4096x64_S4x16x8x64_S4x16x4096x8_3_3_2_2_01_01.rhsBatch by decide), dif_pos (show (2 : Fin S4x16x8x64.rank) ∈ dot_S4x16x4096x64_S4x16x8x64_S4x16x4096x8_3_3_2_2_01_01.rhsNonContracting by decide)]
  rfl

theorem rhsA_3 (i : S4x16x4096x8.Idx) (q : dot_S4x16x4096x64_S4x16x8x64_S4x16x4096x8_3_3_2_2_01_01.contr.Idx) :
    (dot_S4x16x4096x64_S4x16x8x64_S4x16x4096x8_3_3_2_2_01_01.rhsIdx i q 3).val = (q ⟨0, by decide⟩).val :=
  dot_S4x16x4096x64_S4x16x8x64_S4x16x4096x8_3_3_2_2_01_01.rhsIdx_val_of_single rfl i q

/-- The batched product of a [4, 16, 4096, 64] array with a [4, 16, 8, 64] array over their last axes, at (a, h, t, m): the inner product of row t of the first with row m of the second, both in batch (a, h). -/
theorem dotA_apply (L : S4x16x4096x64.Idx → EReal) (R : S4x16x8x64.Idx → EReal) (a : Fin 4) (h : Fin 16) (t : Fin 4096) (m : Fin 8) :
    Host.dotGeneral (F := Ideal) (φ₁ := .f32) (φ₂ := .f32) dot_S4x16x4096x64_S4x16x8x64_S4x16x4096x8_3_3_2_2_01_01 none L R (ix4 a h t m)
      = ∑ k : Fin 64, L (ix4 a h t k) * R (ix4 a h m k) := by
  simp only [Host.dotGeneral]
  rw [Ideal.dotGeneral_apply, ← Equiv.sum_comp (contrEquiv1 dot_S4x16x4096x64_S4x16x8x64_S4x16x4096x8_3_3_2_2_01_01 64 rfl rfl).symm]
  refine Finset.sum_congr rfl fun k _ => ?_
  have hk := contrEquiv1_symm_val dot_S4x16x4096x64_S4x16x8x64_S4x16x4096x8_3_3_2_2_01_01 64 rfl rfl k
  have el : dot_S4x16x4096x64_S4x16x8x64_S4x16x4096x8_3_3_2_2_01_01.lhsIdx (ix4 a h t m) ((contrEquiv1 dot_S4x16x4096x64_S4x16x8x64_S4x16x4096x8_3_3_2_2_01_01 64 rfl rfl).symm k) = ix4 a h t k := funext fun c => Fin.ext (by
    match c with
    | ⟨0, _⟩ => exact lhsA_0 _ _
    | ⟨1, _⟩ => exact lhsA_1 _ _
    | ⟨2, _⟩ => exact lhsA_2 _ _
    | ⟨3, _⟩ => exact (lhsA_3 _ _).trans hk)
  have er : dot_S4x16x4096x64_S4x16x8x64_S4x16x4096x8_3_3_2_2_01_01.rhsIdx (ix4 a h t m) ((contrEquiv1 dot_S4x16x4096x64_S4x16x8x64_S4x16x4096x8_3_3_2_2_01_01 64 rfl rfl).symm k) = ix4 a h m k := funext fun c => Fin.ext (by
    match c with
    | ⟨0, _⟩ => exact rhsA_0 _ _
    | ⟨1, _⟩ => exact rhsA_1 _ _
    | ⟨2, _⟩ => exact rhsA_2 _ _
    | ⟨3, _⟩ => exact (rhsA_3 _ _).trans hk)
  rw [el, er]

/-- … and scaled by 1/8. -/
theorem scaledA_apply (L : S4x16x4096x64.Idx → EReal) (R : S4x16x8x64.Idx → EReal) (a : Fin 4) (h : Fin 16) (t : Fin 4096) (m : Fin 8) :
    mulf (F := Ideal) (Host.dotGeneral (φ₁ := .f32) (φ₂ := .f32) dot_S4x16x4096x64_S4x16x8x64_S4x16x4096x8_3_3_2_2_01_01 none L R)
        (broadcastInDim S4x16x4096x8 ![] bcast_S_S4x16x4096x8 (constant S_ .f32 0x3E000000#32)) (ix4 a h t m)
      = (∑ k : Fin 64, L (ix4 a h t k) * R (ix4 a h m k)) * cScale := by
  show Host.dotGeneral (F := Ideal) (φ₁ := .f32) (φ₂ := .f32) dot_S4x16x4096x64_S4x16x8x64_S4x16x4096x8_3_3_2_2_01_01 none L R (ix4 a h t m) * cScale = _
  rw [dotA_apply]

/-! ### Landmarks against landmarks -/

theorem lhsB_0 (i : S4x16x8x8.Idx) (q : dot_S4x16x8x64_S4x16x8x64_S4x16x8x8_3_3_2_2_01_01.contr.Idx) :
    (dot_S4x16x8x64_S4x16x8x64_S4x16x8x8_3_3_2_2_01_01.lhsIdx i q 0).val = (i 0).val := by
  unfold DotDims.lhsIdx
  rw [dif_pos (show (0 : Fin S4x16x8x64.rank) ∈ dot_S4x16x8x64_S4x16x8x64_S4x16x8x8_3_3_2_2_01_01.lhsBatch by decide)]
  rfl

theorem lhsB_1 (i : S4x16x8x8.Idx) (q : dot_S4x16x8x64_S4x16x8x64_S4x16x8x8_3_3_2_2_01_01.contr.Idx) :
    (dot_S4x16x8x64_S4x16x8x64_S4x16x8x8_3_3_2_2_01_01.lhsIdx i q 1).val = (i 1).val := by
  unfold DotDims.lhsIdx
  rw [dif_pos (show (1 : Fin S4x16x8x64.rank) ∈ dot_S4x16x8x64_S4x16x8x64_S4x16x8x8_3_3_2_2_01_01.lhsBatch by decide)]
  rfl

theorem lhsB_2 (i : S4x16x8x8.Idx) (q : dot_S4x16x8x64_S4x16x8x64_S4x16x8x8_3_3_2_2_01_01.contr.Idx) :
    (dot_S4x16x8x64_S4x16x8x64_S4x16x8x8_3_3_2_2_01_01.lhsIdx i q 2).val = (i 2).val := by
  unfold DotDims.lhsIdx
  rw [dif_neg (show ¬(2 : Fin S4x16x8x64.rank) ∈ dot_S4x16x8x64_S4x16x8x64_S4x16x8x8_3_3_2_2_01_01.lhsBatch by decide), dif_pos (show (2 : Fin S4x16x8x64.rank) ∈ dot_S4x16x8x64_S4x16x8x64_S4x16x8x8_3_3_2_2_01_01.lhsNonContracting by decide)]
  rfl

theorem lhsB_3 (i : S4x16x8x8.Idx) (q : dot_S4x16x8x64_S4x16x8x64_S4x16x8x8_3_3_2_2_01_01.contr.Idx) :
    (dot_S4x16x8x64_S4x16x8x64_S4x16x8x8_3_3_2_2_01_01.lhsIdx i q 3).val = (q ⟨0, by decide⟩).val :=
  dot_S4x16x8x64_S4x16x8x64_S4x16x8x8_3_3_2_2_01_01.lhsIdx_val_of_single rfl i q

theorem rhsB_0 (i : S4x16x8x8.Idx) (q : dot_S4x16x8x64_S4x16x8x64_S4x16x8x8_3_3_2_2_01_01.contr.Idx) :
    (dot_S4x16x8x64_S4x16x8x64_S4x16x8x8_3_3_2_2_01_01.rhsIdx i q 0).val = (i 0).val := by
  unfold DotDims.rhsIdx
  rw [dif_pos (show (0 : Fin S4x16x8x64.rank) ∈ dot_S4x16x8x64_S4x16x8x64_S4x16x8x8_3_3_2_2_01_01.rhsBatch by decide)]
  rfl

theorem rhsB_1 (i : S4x16x8x8.Idx) (q : dot_S4x16x8x64_S4x16x8x64_S4x16x8x8_3_3_2_2_01_01.contr.Idx) :
    (dot_S4x16x8x64_S4x16x8x64_S4x16x8x8_3_3_2_2_01_01.rhsIdx i q 1).val = (i 1).val := by
  unfold DotDims.rhsIdx
  rw [dif_pos (show (1 : Fin S4x16x8x64.rank) ∈ dot_S4x16x8x64_S4x16x8x64_S4x16x8x8_3_3_2_2_01_01.rhsBatch by decide)]
  rfl

theorem rhsB_2 (i : S4x16x8x8.Idx) (q : dot_S4x16x8x64_S4x16x8x64_S4x16x8x8_3_3_2_2_01_01.contr.Idx) :
    (dot_S4x16x8x64_S4x16x8x64_S4x16x8x8_3_3_2_2_01_01.rhsIdx i q 2).val = (i 3).val := by
  unfold DotDims.rhsIdx
  rw [dif_neg (show ¬(2 : Fin S4x16x8x64.rank) ∈ dot_S4x16x8x64_S4x16x8x64_S4x16x8x8_3_3_2_2_01_01.rhsBatch by decide), dif_pos (show (2 : Fin S4x16x8x64.rank) ∈ dot_S4x16x8x64_S4x16x8x64_S4x16x8x8_3_3_2_2_01_01.rhsNonContracting by decide)]
  rfl

theorem rhsB_3 (i : S4x16x8x8.Idx) (q : dot_S4x16x8x64_S4x16x8x64_S4x16x8x8_3_3_2_2_01_01.contr.Idx) :
    (dot_S4x16x8x64_S4x16x8x64_S4x16x8x8_3_3_2_2_01_01.rhsIdx i q 3).val = (q ⟨0, by decide⟩).val :=
  dot_S4x16x8x64_S4x16x8x64_S4x16x8x8_3_3_2_2_01_01.rhsIdx_val_of_single rfl i q

/-- The batched product of two [4, 16, 8, 64] arrays over their last axes, at (a, h, m, n): the inner product of row m of the first with row n of the second. -/
theorem dotB_apply (L : S4x16x8x64.Idx → EReal) (R : S4x16x8x64.Idx → EReal) (a : Fin 4) (h : Fin 16) (m n : Fin 8) :
    Host.dotGeneral (F := Ideal) (φ₁ := .f32) (φ₂ := .f32) dot_S4x16x8x64_S4x16x8x64_S4x16x8x8_3_3_2_2_01_01 none L R (ix4 a h m n)
      = ∑ k : Fin 64, L (ix4 a h m k) * R (ix4 a h n k) := by
  simp only [Host.dotGeneral]
  rw [Ideal.dotGeneral_apply, ← Equiv.sum_comp (contrEquiv1 dot_S4x16x8x64_S4x16x8x64_S4x16x8x8_3_3_2_2_01_01 64 rfl rfl).symm]
  refine Finset.sum_congr rfl fun k _ => ?_
  have hk := contrEquiv1_symm_val dot_S4x16x8x64_S4x16x8x64_S4x16x8x8_3_3_2_2_01_01 64 rfl rfl k
  have el : dot_S4x16x8x64_S4x16x8x64_S4x16x8x8_3_3_2_2_01_01.lhsIdx (ix4 a h m n) ((contrEquiv1 dot_S4x16x8x64_S4x16x8x64_S4x16x8x8_3_3_2_2_01_01 64 rfl rfl).symm k) = ix4 a h m k := funext fun c => Fin.ext (by
    match c with
    | ⟨0, _⟩ => exact lhsB_0 _ _
    | ⟨1, _⟩ => exact lhsB_1 _ _
    | ⟨2, _⟩ => exact lhsB_2 _ _
    | ⟨3, _⟩ => exact (lhsB_3 _ _).trans hk)
  have er : dot_S4x16x8x64_S4x16x8x64_S4x16x8x8_3_3_2_2_01_01.rhsIdx (ix4 a h m n) ((contrEquiv1 dot_S4x16x8x64_S4x16x8x64_S4x16x8x8_3_3_2_2_01_01 64 rfl rfl).symm k) = ix4 a h n k := funext fun c => Fin.ext (by
    match c with
    | ⟨0, _⟩ => exact rhsB_0 _ _
    | ⟨1, _⟩ => exact rhsB_1 _ _
    | ⟨2, _⟩ => exact rhsB_2 _ _
    | ⟨3, _⟩ => exact (rhsB_3 _ _).trans hk)
  rw [el, er]

/-- … and scaled by 1/8. -/
theorem scaledB_apply (L : S4x16x8x64.Idx → EReal) (R : S4x16x8x64.Idx → EReal) (a : Fin 4) (h : Fin 16) (m n : Fin 8) :
    mulf (F := Ideal) (Host.dotGeneral (φ₁ := .f32) (φ₂ := .f32) dot_S4x16x8x64_S4x16x8x64_S4x16x8x8_3_3_2_2_01_01 none L R)
        (broadcastInDim S4x16x8x8 ![] bcast_S_S4x16x8x8 (constant S_ .f32 0x3E000000#32)) (ix4 a h m n)
      = (∑ k : Fin 64, L (ix4 a h m k) * R (ix4 a h n k)) * cScale := by
  show Host.dotGeneral (F := Ideal) (φ₁ := .f32) (φ₂ := .f32) dot_S4x16x8x64_S4x16x8x64_S4x16x8x8_3_3_2_2_01_01 none L R (ix4 a h m n) * cScale = _
  rw [dotB_apply]

/-! ### Landmarks against tokens -/

theorem lhsC_0 (i : S4x16x8x4096.Idx) (q : dot_S4x16x8x64_S4x16x4096x64_S4x16x8x4096_3_3_2_2_01_01.contr.Idx) :
    (dot_S4x16x8x64_S4x16x4096x64_S4x16x8x4096_3_3_2_2_01_01.lhsIdx i q 0).val = (i 0).val := by
  unfold DotDims.lhsIdx
  rw [dif_pos (show (0 : Fin S4x16x8x64.rank) ∈ dot_S4x16x8x64_S4x16x4096x64_S4x16x8x4096_3_3_2_2_01_01.lhsBatch by decide)]
  rfl

theorem lhsC_1 (i : S4x16x8x4096.Idx) (q : dot_S4x16x8x64_S4x16x4096x64_S4x16x8x4096_3_3_2_2_01_01.contr.Idx) :
    (dot_S4x16x8x64_S4x16x4096x64_S4x16x8x4096_3_3_2_2_01_01.lhsIdx i q 1).val = (i 1).val := by
  unfold DotDims.lhsIdx
  rw [dif_pos (show (1 : Fin S4x16x8x64.rank) ∈ dot_S4x16x8x64_S4x16x4096x64_S4x16x8x4096_3_3_2_2_01_01.lhsBatch by decide)]
  rfl

theorem lhsC_2 (i : S4x16x8x4096.Idx) (q : dot_S4x16x8x64_S4x16x4096x64_S4x16x8x4096_3_3_2_2_01_01.contr.Idx) :
    (dot_S4x16x8x64_S4x16x4096x64_S4x16x8x4096_3_3_2_2_01_01.lhsIdx i q 2).val = (i 2).val := by
  unfold DotDims.lhsIdx
  rw [dif_neg (show ¬(2 : Fin S4x16x8x64.rank) ∈ dot_S4x16x8x64_S4x16x4096x64_S4x16x8x4096_3_3_2_2_01_01.lhsBatch by decide), dif_pos (show (2 : Fin S4x16x8x64.rank) ∈ dot_S4x16x8x64_S4x16x4096x64_S4x16x8x4096_3_3_2_2_01_01.lhsNonContracting by decide)]
  rfl

theorem lhsC_3 (i : S4x16x8x4096.Idx) (q : dot_S4x16x8x64_S4x16x4096x64_S4x16x8x4096_3_3_2_2_01_01.contr.Idx) :
    (dot_S4x16x8x64_S4x16x4096x64_S4x16x8x4096_3_3_2_2_01_01.lhsIdx i q 3).val = (q ⟨0, by decide⟩).val :=
  dot_S4x16x8x64_S4x16x4096x64_S4x16x8x4096_3_3_2_2_01_01.lhsIdx_val_of_single rfl i q

theorem rhsC_0 (i : S4x16x8x4096.Idx) (q : dot_S4x16x8x64_S4x16x4096x64_S4x16x8x4096_3_3_2_2_01_01.contr.Idx) :
    (dot_S4x16x8x64_S4x16x4096x64_S4x16x8x4096_3_3_2_2_01_01.rhsIdx i q 0).val = (i 0).val := by
  unfold DotDims.rhsIdx
  rw [dif_pos (show (0 : Fin S4x16x4096x64.rank) ∈ dot_S4x16x8x64_S4x16x4096x64_S4x16x8x4096_3_3_2_2_01_01.rhsBatch by decide)]
  rfl

theorem rhsC_1 (i : S4x16x8x4096.Idx) (q : dot_S4x16x8x64_S4x16x4096x64_S4x16x8x4096_3_3_2_2_01_01.contr.Idx) :
    (dot_S4x16x8x64_S4x16x4096x64_S4x16x8x4096_3_3_2_2_01_01.rhsIdx i q 1).val = (i 1).val := by
  unfold DotDims.rhsIdx
  rw [dif_pos (show (1 : Fin S4x16x4096x64.rank) ∈ dot_S4x16x8x64_S4x16x4096x64_S4x16x8x4096_3_3_2_2_01_01.rhsBatch by decide)]
  rfl

theorem rhsC_2 (i : S4x16x8x4096.Idx) (q : dot_S4x16x8x64_S4x16x4096x64_S4x16x8x4096_3_3_2_2_01_01.contr.Idx) :
    (dot_S4x16x8x64_S4x16x4096x64_S4x16x8x4096_3_3_2_2_01_01.rhsIdx i q 2).val = (i 3).val := by
  unfold DotDims.rhsIdx
  rw [dif_neg (show ¬(2 : Fin S4x16x4096x64.rank) ∈ dot_S4x16x8x64_S4x16x4096x64_S4x16x8x4096_3_3_2_2_01_01.rhsBatch by decide), dif_pos (show (2 : Fin S4x16x4096x64.rank) ∈ dot_S4x16x8x64_S4x16x4096x64_S4x16x8x4096_3_3_2_2_01_01.rhsNonContracting by decide)]
  rfl

theorem rhsC_3 (i : S4x16x8x4096.Idx) (q : dot_S4x16x8x64_S4x16x4096x64_S4x16x8x4096_3_3_2_2_01_01.contr.Idx) :
    (dot_S4x16x8x64_S4x16x4096x64_S4x16x8x4096_3_3_2_2_01_01.rhsIdx i q 3).val = (q ⟨0, by decide⟩).val :=
  dot_S4x16x8x64_S4x16x4096x64_S4x16x8x4096_3_3_2_2_01_01.rhsIdx_val_of_single rfl i q

/-- The batched product of a [4, 16, 8, 64] array with a [4, 16, 4096, 64] array over their last axes, at (a, h, m, t): the inner product of row m of the first with row t of the second. -/
theorem dotC_apply (L : S4x16x8x64.Idx → EReal) (R : S4x16x4096x64.Idx → EReal) (a : Fin 4) (h : Fin 16) (m : Fin 8) (t : Fin 4096) :
    Host.dotGeneral (F := Ideal) (φ₁ := .f32) (φ₂ := .f32) dot_S4x16x8x64_S4x16x4096x64_S4x16x8x4096_3_3_2_2_01_01 none L R (ix4 a h m t)
      = ∑ k : Fin 64, L (ix4 a h m k) * R (ix4 a h t k) := by
  simp only [Host.dotGeneral]
  rw [Ideal.dotGeneral_apply, ← Equiv.sum_comp (contrEquiv1 dot_S4x16x8x64_S4x16x4096x64_S4x16x8x4096_3_3_2_2_01_01 64 rfl rfl).symm]
  refine Finset.sum_congr rfl fun k _ => ?_
  have hk := contrEquiv1_symm_val dot_S4x16x8x64_S4x16x4096x64_S4x16x8x4096_3_3_2_2_01_01 64 rfl rfl k
  have el : dot_S4x16x8x64_S4x16x4096x64_S4x16x8x4096_3_3_2_2_01_01.lhsIdx (ix4 a h m t) ((contrEquiv1 dot_S4x16x8x64_S4x16x4096x64_S4x16x8x4096_3_3_2_2_01_01 64 rfl rfl).symm k) = ix4 a h m k := funext fun c => Fin.ext (by
    match c with
    | ⟨0, _⟩ => exact lhsC_0 _ _
    | ⟨1, _⟩ => exact lhsC_1 _ _
    | ⟨2, _⟩ => exact lhsC_2 _ _
    | ⟨3, _⟩ => exact (lhsC_3 _ _).trans hk)
  have er : dot_S4x16x8x64_S4x16x4096x64_S4x16x8x4096_3_3_2_2_01_01.rhsIdx (ix4 a h m t) ((contrEquiv1 dot_S4x16x8x64_S4x16x4096x64_S4x16x8x4096_3_3_2_2_01_01 64 rfl rfl).symm k) = ix4 a h t k := funext fun c => Fin.ext (by
    match c with
    | ⟨0, _⟩ => exact rhsC_0 _ _
    | ⟨1, _⟩ => exact rhsC_1 _ _
    | ⟨2, _⟩ => exact rhsC_2 _ _
    | ⟨3, _⟩ => exact (rhsC_3 _ _).trans hk)
  rw [el, er]

/-- … and scaled by 1/8. -/
theorem scaledC_apply (L : S4x16x8x64.Idx → EReal) (R : S4x16x4096x64.Idx → EReal) (a : Fin 4) (h : Fin 16) (m : Fin 8) (t : Fin 4096) :
    mulf (F := Ideal) (Host.dotGeneral (φ₁ := .f32) (φ₂ := .f32) dot_S4x16x8x64_S4x16x4096x64_S4x16x8x4096_3_3_2_2_01_01 none L R)
        (broadcastInDim S4x16x8x4096 ![] bcast_S_S4x16x8x4096 (constant S_ .f32 0x3E000000#32)) (ix4 a h m t)
      = (∑ k : Fin 64, L (ix4 a h m k) * R (ix4 a h t k)) * cScale := by
  show Host.dotGeneral (F := Ideal) (φ₁ := .f32) (φ₂ := .f32) dot_S4x16x8x64_S4x16x4096x64_S4x16x8x4096_3_3_2_2_01_01 none L R (ix4 a h m t) * cScale = _
  rw [dotC_apply]

/-! ### A [8, 4096] table times the values -/

theorem lhsD_0 (i : S4x16x8x64.Idx) (q : dot_S4x16x8x4096_S4x16x4096x64_S4x16x8x64_3_2_2_3_01_01.contr.Idx) :
    (dot_S4x16x8x4096_S4x16x4096x64_S4x16x8x64_3_2_2_3_01_01.lhsIdx i q 0).val = (i 0).val := by
  unfold DotDims.lhsIdx
  rw [dif_pos (show (0 : Fin S4x16x8x4096.rank) ∈ dot_S4x16x8x4096_S4x16x4096x64_S4x16x8x64_3_2_2_3_01_01.lhsBatch by decide)]
  rfl

theorem lhsD_1 (i : S4x16x8x64.Idx) (q : dot_S4x16x8x4096_S4x16x4096x64_S4x16x8x64_3_2_2_3_01_01.contr.Idx) :
    (dot_S4x16x8x4096_S4x16x4096x64_S4x16x8x64_3_2_2_3_01_01.lhsIdx i q 1).val = (i 1).val := by
  unfold DotDims.lhsIdx
  rw [dif_pos (show (1 : Fin S4x16x8x4096.rank) ∈ dot_S4x16x8x4096_S4x16x4096x64_S4x16x8x64_3_2_2_3_01_01.lhsBatch by decide)]
  rfl

theorem lhsD_2 (i : S4x16x8x64.Idx) (q : dot_S4x16x8x4096_S4x16x4096x64_S4x16x8x64_3_2_2_3_01_01.contr.Idx) :
    (dot_S4x16x8x4096_S4x16x4096x64_S4x16x8x64_3_2_2_3_01_01.lhsIdx i q 2).val = (i 2).val := by
  unfold DotDims.lhsIdx
  rw [dif_neg (show ¬(2 : Fin S4x16x8x4096.rank) ∈ dot_S4x16x8x4096_S4x16x4096x64_S4x16x8x64_3_2_2_3_01_01.lhsBatch by decide), dif_pos (show (2 : Fin S4x16x8x4096.rank) ∈ dot_S4x16x8x4096_S4x16x4096x64_S4x16x8x64_3_2_2_3_01_01.lhsNonContracting by decide)]
  rfl

theorem lhsD_3 (i : S4x16x8x64.Idx) (q : dot_S4x16x8x4096_S4x16x4096x64_S4x16x8x64_3_2_2_3_01_01.contr.Idx) :
    (dot_S4x16x8x4096_S4x16x4096x64_S4x16x8x64_3_2_2_3_01_01.lhsIdx i q 3).val = (q ⟨0, by decide⟩).val :=
  dot_S4x16x8x4096_S4x16x4096x64_S4x16x8x64_3_2_2_3_01_01.lhsIdx_val_of_single rfl i q

theorem rhsD_0 (i : S4x16x8x64.Idx) (q : dot_S4x16x8x4096_S4x16x4096x64_S4x16x8x64_3_2_2_3_01_01.contr.Idx) :
    (dot_S4x16x8x4096_S4x16x4096x64_S4x16x8x64_3_2_2_3_01_01.rhsIdx i q 0).val = (i 0).val := by
  unfold DotDims.rhsIdx
  rw [dif_pos (show (0 : Fin S4x16x4096x64.rank) ∈ dot_S4x16x8x4096_S4x16x4096x64_S4x16x8x64_3_2_2_3_01_01.rhsBatch by decide)]
  rfl

theorem rhsD_1 (i : S4x16x8x64.Idx) (q : dot_S4x16x8x4096_S4x16x4096x64_S4x16x8x64_3_2_2_3_01_01.contr.Idx) :
    (dot_S4x16x8x4096_S4x16x4096x64_S4x16x8x64_3_2_2_3_01_01.rhsIdx i q 1).val = (i 1).val := by
  unfold DotDims.rhsIdx
  rw [dif_pos (show (1 : Fin S4x16x4096x64.rank) ∈ dot_S4x16x8x4096_S4x16x4096x64_S4x16x8x64_3_2_2_3_01_01.rhsBatch by decide)]
  rfl

theorem rhsD_2 (i : S4x16x8x64.Idx) (q : dot_S4x16x8x4096_S4x16x4096x64_S4x16x8x64_3_2_2_3_01_01.contr.Idx) :
    (dot_S4x16x8x4096_S4x16x4096x64_S4x16x8x64_3_2_2_3_01_01.rhsIdx i q 2).val = (q ⟨0, by decide⟩).val :=
  dot_S4x16x8x4096_S4x16x4096x64_S4x16x8x64_3_2_2_3_01_01.rhsIdx_val_of_single rfl i q

theorem rhsD_3 (i : S4x16x8x64.Idx) (q : dot_S4x16x8x4096_S4x16x4096x64_S4x16x8x64_3_2_2_3_01_01.contr.Idx) :
    (dot_S4x16x8x4096_S4x16x4096x64_S4x16x8x64_3_2_2_3_01_01.rhsIdx i q 3).val = (i 3).val := by
  unfold DotDims.rhsIdx
  rw [dif_neg (show ¬(3 : Fin S4x16x4096x64.rank) ∈ dot_S4x16x8x4096_S4x16x4096x64_S4x16x8x64_3_2_2_3_01_01.rhsBatch by decide), dif_pos (show (3 : Fin S4x16x4096x64.rank) ∈ dot_S4x16x8x4096_S4x16x4096x64_S4x16x8x64_3_2_2_3_01_01.rhsNonContracting by decide)]
  rfl

/-- The batched matrix product of a [4, 16, 8, 4096] array with a [4, 16, 4096, 64] array, at (a, h, m, d): the sum over the 4096 rows t of entry (m, t) of the first times entry (t, d) of the second. -/
theorem dotD_apply (L : S4x16x8x4096.Idx → EReal) (R : S4x16x4096x64.Idx → EReal) (a : Fin 4) (h : Fin 16) (m : Fin 8) (d : Fin 64) :
    Host.dotGeneral (F := Ideal) (φ₁ := .f32) (φ₂ := .f32) dot_S4x16x8x4096_S4x16x4096x64_S4x16x8x64_3_2_2_3_01_01 none L R (ix4 a h m d)
      = ∑ k : Fin 4096, L (ix4 a h m k) * R (ix4 a h k d) := by
  simp only [Host.dotGeneral]
  rw [Ideal.dotGeneral_apply, ← Equiv.sum_comp (contrEquiv1 dot_S4x16x8x4096_S4x16x4096x64_S4x16x8x64_3_2_2_3_01_01 4096 rfl rfl).symm]
  refine Finset.sum_congr rfl fun k _ => ?_
  have hk := contrEquiv1_symm_val dot_S4x16x8x4096_S4x16x4096x64_S4x16x8x64_3_2_2_3_01_01 4096 rfl rfl k
  have el : dot_S4x16x8x4096_S4x16x4096x64_S4x16x8x64_3_2_2_3_01_01.lhsIdx (ix4 a h m d) ((contrEquiv1 dot_S4x16x8x4096_S4x16x4096x64_S4x16x8x64_3_2_2_3_01_01 4096 rfl rfl).symm k) = ix4 a h m k := funext fun c => Fin.ext (by
    match c with
    | ⟨0, _⟩ => exact lhsD_0 _ _
    | ⟨1, _⟩ => exact lhsD_1 _ _
    | ⟨2, _⟩ => exact lhsD_2 _ _
    | ⟨3, _⟩ => exact (lhsD_3 _ _).trans hk)
  have er : dot_S4x16x8x4096_S4x16x4096x64_S4x16x8x64_3_2_2_3_01_01.rhsIdx (ix4 a h m d) ((contrEquiv1 dot_S4x16x8x4096_S4x16x4096x64_S4x16x8x64_3_2_2_3_01_01 4096 rfl rfl).symm k) = ix4 a h k d := funext fun c => Fin.ext (by
    match c with
    | ⟨0, _⟩ => exact rhsD_0 _ _
    | ⟨1, _⟩ => exact rhsD_1 _ _
    | ⟨2, _⟩ => exact (rhsD_2 _ _).trans hk
    | ⟨3, _⟩ => exact rhsD_3 _ _)
  rw [el, er]

end Cert.Landmark

end
-- ==== Proof.RefRowMax.lean ====
/-
  A row's maximum as the reference takes it. The host reduces one axis with max from −∞ and then takes the
  maximum once more against an array that is −∞ everywhere; at a reduced index this is the maximum, against −∞
  twice, of the entries along that axis: the specification's row maximum.
-/
import proofs.«120126_j23330262352482_2_alg».proof.Proof.Gen.ReferenceIdeal.Run
import proofs.«120126_j23330262352482_2_alg».proof.Proof.Spec
import Idealize.ShloMosaic.PureOps.Ideal.Laws
import Idealize.ShloMosaic.PureOps.Reduce
import Idealize.ShloMosaic.Lib.Pipeline.Value
import Idealize.ShloMosaic.Lib.ValueIdx

noncomputable section

namespace Cert.Landmark

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx
open scoped BigOperators

/-- The host's maximum over one axis from −∞, taken once more against an array that is −∞ everywhere, is the row
    maximum of the entries along that axis — for any shapes. -/
theorem hostRowMax_eq {s t : Shape} {ax : Fin s.rank} (Z : FVec Ideal s .f32) (h' : s.ReducesTo [ax] t) (h : s.Reduces [ax] t)
    (hu : 0 < S_.numel) (A : FVec Ideal t .f32) (hA : ∀ j, A j = negInf) (j : t.Idx) :
    maximumf (F := Ideal) (φ := .f32) A (Host.reduce (FloatOps.maximumf (F := Ideal) (φ := .f32)) Z (constant (F := Ideal) S_ .f32 0xFF800000#32) h' hu) j
      = rowMax fun k : Fin (s.size ax) => Z (h.lift j k) := by
  show max (A j) (Host.reduce (FloatOps.maximumf (F := Ideal) (φ := .f32)) Z (constant (F := Ideal) S_ .f32 0xFF800000#32) h' hu j) = _
  rw [hA, Host.reduce_eq_fold_single (FloatOps.maximumf (F := Ideal) (φ := .f32)) Z _ h' h hu]
  rfl

end Cert.Landmark

end
-- ==== Proof.RefSoftmaxA.lean ====
/-
  The two stages of the reference's row-wise softmax over the last axis, read at an index, for rows of a [4, 16, 4096, 8] array (eight landmarks per token).
  First every entry has its row's maximum subtracted and is exponentiated; the maximum is kept as a column and
  spread back along the row. Then every entry is divided by its row's sum (from 0), kept and spread back the
  same way. Together, at (a, h, x, y), they give the specification's softmax of row (a, h, x) at y.
-/
import proofs.«120126_j23330262352482_2_alg».proof.Proof.RefRowMax

noncomputable section

namespace Cert.Landmark

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx
open scoped BigOperators

/-! ### Rows of a [4, 16, 4096, 8] array (eight landmarks per token) -/

/-- A row's index with the last coordinate put back. -/
theorem liftA (hR : S4x16x4096x8.Reduces [3] S4x16x4096) (a : Fin 4) (h : Fin 16) (t : Fin 4096) (m : Fin 8) :
    hR.lift (ix3 a h t) m = ix4 a h t m := by
  funext c; apply Fin.ext
  match c with
  | ⟨0, _⟩ => rfl
  | ⟨1, _⟩ => rfl
  | ⟨2, _⟩ => rfl
  | ⟨3, _⟩ => rfl

/-- The exponential of an entry minus its row's maximum, the maximum taken from −∞ and once more against −∞ and
    spread back along the row. -/
theorem expA_apply (Z : FVec Ideal S4x16x4096x8 .f32) (a : Fin 4) (h : Fin 16) (t : Fin 4096) (m : Fin 8) :
    Host.exp (F := Ideal) (φ := .f32) (subf (F := Ideal) (φ := .f32) Z (broadcastInDim S4x16x4096x8 ![0, 1, 2, 3] bcast_S4x16x4096x1_S4x16x4096x8_0_1_2_3
      (broadcastInDim S4x16x4096x1 ![0, 1, 2] bcast_S4x16x4096_S4x16x4096x1_0_1_2
        (maximumf (F := Ideal) (φ := .f32) (broadcastInDim S4x16x4096 ![] bcast_S_S4x16x4096 (constant (F := Ideal) S_ .f32 0xFF800000#32))
          (Host.reduce (FloatOps.maximumf (F := Ideal) (φ := .f32)) Z (constant (F := Ideal) S_ .f32 0xFF800000#32) reducesTo_S4x16x4096x8_S4x16x4096_d3 h_S_))))) (ix4 a h t m)
      = Ideal.exp (Z (ix4 a h t m) - rowMax fun m' : Fin 8 => Z (ix4 a h t m')) := by
  have hR : S4x16x4096x8.Reduces [3] S4x16x4096 := by decide
  show Ideal.exp (Z (ix4 a h t m) - (broadcastInDim S4x16x4096x8 ![0, 1, 2, 3] bcast_S4x16x4096x1_S4x16x4096x8_0_1_2_3
      (broadcastInDim S4x16x4096x1 ![0, 1, 2] bcast_S4x16x4096_S4x16x4096x1_0_1_2
        (maximumf (F := Ideal) (φ := .f32) (broadcastInDim S4x16x4096 ![] bcast_S_S4x16x4096 (constant (F := Ideal) S_ .f32 0xFF800000#32))
          (Host.reduce (FloatOps.maximumf (F := Ideal) (φ := .f32)) Z (constant (F := Ideal) S_ .f32 0xFF800000#32) reducesTo_S4x16x4096x8_S4x16x4096_d3 h_S_)))) (ix4 a h t m)) = _
  rw [broadcastInDim_apply _ _ _ (ix4 a h t m) (ix4 a h t (0 : Fin 1)) (fun c => by
        match c with
        | ⟨0, _⟩ => rfl
        | ⟨1, _⟩ => rfl
        | ⟨2, _⟩ => rfl
        | ⟨3, _⟩ => rfl),
      broadcastInDim_apply _ _ _ (ix4 a h t (0 : Fin 1)) (ix3 a h t) (fun c => by
        match c with
        | ⟨0, _⟩ => rfl
        | ⟨1, _⟩ => rfl
        | ⟨2, _⟩ => rfl),
      hostRowMax_eq Z reducesTo_S4x16x4096x8_S4x16x4096_d3 hR h_S_ (broadcastInDim S4x16x4096 ![] bcast_S_S4x16x4096 (constant (F := Ideal) S_ .f32 0xFF800000#32)) (fun _ => rfl)]
  have e : (fun m' : Fin 8 => Z (hR.lift (ix3 a h t) m')) = fun m' : Fin 8 => Z (ix4 a h t m') :=
    funext fun m' => congrArg Z (liftA hR a h t m')
  exact congrArg (fun f : Fin 8 → EReal => Ideal.exp (Z (ix4 a h t m) - rowMax f)) e

/-- An entry over its row's sum (from 0), the sum spread back along the row. -/
theorem normA_apply (E : S4x16x4096x8.Idx → EReal) (a : Fin 4) (h : Fin 16) (t : Fin 4096) (m : Fin 8) :
    Host.divf (F := Ideal) (φ := .f32) E (broadcastInDim S4x16x4096x8 ![0, 1, 2, 3] bcast_S4x16x4096x1_S4x16x4096x8_0_1_2_3
      (broadcastInDim S4x16x4096x1 ![0, 1, 2] bcast_S4x16x4096_S4x16x4096x1_0_1_2
        (Host.reduceAdd (F := Ideal) (φ := .f32) E (constant S_ .f32 0x00000000#32) reducesTo_S4x16x4096x8_S4x16x4096_d3 h_S_))) (ix4 a h t m)
      = Ideal.div (E (ix4 a h t m)) (∑ m' : Fin 8, E (ix4 a h t m')) := by
  have hR : S4x16x4096x8.Reduces [3] S4x16x4096 := by decide
  show Ideal.div (E (ix4 a h t m)) (broadcastInDim S4x16x4096x8 ![0, 1, 2, 3] bcast_S4x16x4096x1_S4x16x4096x8_0_1_2_3
      (broadcastInDim S4x16x4096x1 ![0, 1, 2] bcast_S4x16x4096_S4x16x4096x1_0_1_2
        (Host.reduceAdd (F := Ideal) (φ := .f32) E (constant S_ .f32 0x00000000#32) reducesTo_S4x16x4096x8_S4x16x4096_d3 h_S_)) (ix4 a h t m)) = _
  rw [broadcastInDim_apply _ _ _ (ix4 a h t m) (ix4 a h t (0 : Fin 1)) (fun c => by
        match c with
        | ⟨0, _⟩ => rfl
        | ⟨1, _⟩ => rfl
        | ⟨2, _⟩ => rfl
        | ⟨3, _⟩ => rfl),
      broadcastInDim_apply _ _ _ (ix4 a h t (0 : Fin 1)) (ix3 a h t) (fun c => by
        match c with
        | ⟨0, _⟩ => rfl
        | ⟨1, _⟩ => rfl
        | ⟨2, _⟩ => rfl)]
  show Ideal.div (E (ix4 a h t m)) (Ideal.hostReduceAdd reducesTo_S4x16x4096x8_S4x16x4096_d3 E (Ideal.ofBits .f32 0x00000000#32) (ix3 a h t)) = _
  rw [Ideal.hostReduceAdd_single _ hR, Ideal.ofBits_zero_f32, zero_add]
  show Ideal.div (E (ix4 a h t m)) (∑ m' : Fin 8, E (hR.lift (ix3 a h t) m')) = _
  exact congrArg (Ideal.div (E (ix4 a h t m))) (Finset.sum_congr rfl fun m' _ => congrArg E (liftA hR a h t m'))

end Cert.Landmark

end
-- ==== Proof.RefK1.lean ====
/-
  The reference's first softmax is the specification's K1, head by head: its logits are the inner products of a
  token's query row with the key landmarks, scaled by 1/8; the softmax runs over the eight key landmarks.
-/
import proofs.«120126_j23330262352482_2_alg».proof.Proof.RefLandmarks
import proofs.«120126_j23330262352482_2_alg».proof.Proof.RefProducts
import proofs.«120126_j23330262352482_2_alg».proof.Proof.RefSoftmaxA

noncomputable section

namespace Cert.Landmark

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx
open scoped BigOperators

variable (V0 : Valuation τ sig (Elt Ideal))

set_option maxRecDepth 8192 in
/-- The reference's first softmax at (a, h, t, m): token t against the key landmarks in head 16·a + h. -/
theorem ref_K1_apply (a : Fin 4) (h : Fin 16) (t : Fin 4096) (m : Fin 8) :
    (Host.divf (F := Ideal) (φ := .f32) (res_main_v20 (F := Ideal) V0) (broadcastInDim S4x16x4096x8 ![0, 1, 2, 3] bcast_S4x16x4096x1_S4x16x4096x8_0_1_2_3 (broadcastInDim S4x16x4096x1 ![0, 1, 2] bcast_S4x16x4096_S4x16x4096x1_0_1_2 (Host.reduceAdd (F := Ideal) (φ := .f32) (res_main_v20 (F := Ideal) V0) (constant (F := Ideal) S_ .f32 0x00000000#32) reducesTo_S4x16x4096x8_S4x16x4096_d3 h_S_)))) (ix4 a h t m)
      = K1 (head (V0 (Proc.devRef .tc main_arg0)) (hd a h)) (head (V0 (Proc.devRef .tc main_arg1)) (hd a h)) t m := by
  have hZ : ∀ m' : Fin 8, res_main_v13 (F := Ideal) V0 (ix4 a h t m')
      = (∑ d : Fin 64, (head (V0 (Proc.devRef .tc main_arg0)) (hd a h)) t d * land (head (V0 (Proc.devRef .tc main_arg1)) (hd a h)) m' d) * cScale := by
    intro m'
    unfold res_main_v13
    rw [scaledA_apply]
    simp only [ref_q_apply, ref_kland_apply]
  have hE : ∀ m' : Fin 8, res_main_v20 (F := Ideal) V0 (ix4 a h t m')
      = Ideal.exp ((fun m'' : Fin 8 => (∑ d : Fin 64, (head (V0 (Proc.devRef .tc main_arg0)) (hd a h)) t d * land (head (V0 (Proc.devRef .tc main_arg1)) (hd a h)) m'' d) * cScale) m'
          - rowMax fun m'' : Fin 8 => (∑ d : Fin 64, (head (V0 (Proc.devRef .tc main_arg0)) (hd a h)) t d * land (head (V0 (Proc.devRef .tc main_arg1)) (hd a h)) m'' d) * cScale) := by
    intro m'
    unfold res_main_v20
    rw [expA_apply]
    simp only [hZ]
  rw [normA_apply]
  simp only [hE]
  rfl

end Cert.Landmark

end
-- ==== Proof.RefSoftmaxB.lean ====
/-
  The two stages of the reference's row-wise softmax over the last axis, read at an index, for rows of a [4, 16, 8, 8] array (eight landmarks per landmark).
  First every entry has its row's maximum subtracted and is exponentiated; the maximum is kept as a column and
  spread back along the row. Then every entry is divided by its row's sum (from 0), kept and spread back the
  same way. Together, at (a, h, x, y), they give the specification's softmax of row (a, h, x) at y.
-/
import proofs.«120126_j23330262352482_2_alg».proof.Proof.RefRowMax

noncomputable section

namespace Cert.Landmark

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx
open scoped BigOperators

/-! ### Rows of a [4, 16, 8, 8] array (eight landmarks per landmark) -/

/-- A row's index with the last coordinate put back. -/
theorem liftB (hR : S4x16x8x8.Reduces [3] S4x16x8) (a : Fin 4) (h : Fin 16) (m : Fin 8) (n : Fin 8) :
    hR.lift (ix3 a h m) n = ix4 a h m n := by
  funext c; apply Fin.ext
  match c with
  | ⟨0, _⟩ => rfl
  | ⟨1, _⟩ => rfl
  | ⟨2, _⟩ => rfl
  | ⟨3, _⟩ => rfl

/-- The exponential of an entry minus its row's maximum, the maximum taken from −∞ and once more against −∞ and
    spread back along the row. -/
theorem expB_apply (Z : FVec Ideal S4x16x8x8 .f32) (a : Fin 4) (h : Fin 16) (m : Fin 8) (n : Fin 8) :
    Host.exp (F := Ideal) (φ := .f32) (subf (F := Ideal) (φ := .f32) Z (broadcastInDim S4x16x8x8 ![0, 1, 2, 3] bcast_S4x16x8x1_S4x16x8x8_0_1_2_3
      (broadcastInDim S4x16x8x1 ![0, 1, 2] bcast_S4x16x8_S4x16x8x1_0_1_2
        (maximumf (F := Ideal) (φ := .f32) (broadcastInDim S4x16x8 ![] bcast_S_S4x16x8 (constant (F := Ideal) S_ .f32 0xFF800000#32))
          (Host.reduce (FloatOps.maximumf (F := Ideal) (φ := .f32)) Z (constant (F := Ideal) S_ .f32 0xFF800000#32) reducesTo_S4x16x8x8_S4x16x8_d3 h_S_))))) (ix4 a h m n)
      = Ideal.exp (Z (ix4 a h m n) - rowMax fun n' : Fin 8 => Z (ix4 a h m n')) := by
  have hR : S4x16x8x8.Reduces [3] S4x16x8 := by decide
  show Ideal.exp (Z (ix4 a h m n) - (broadcastInDim S4x16x8x8 ![0, 1, 2, 3] bcast_S4x16x8x1_S4x16x8x8_0_1_2_3
      (broadcastInDim S4x16x8x1 ![0, 1, 2] bcast_S4x16x8_S4x16x8x1_0_1_2
        (maximumf (F := Ideal) (φ := .f32) (broadcastInDim S4x16x8 ![] bcast_S_S4x16x8 (constant (F := Ideal) S_ .f32 0xFF800000#32))
          (Host.reduce (FloatOps.maximumf (F := Ideal) (φ := .f32)) Z (constant (F := Ideal) S_ .f32 0xFF800000#32) reducesTo_S4x16x8x8_S4x16x8_d3 h_S_)))) (ix4 a h m n)) = _
  rw [broadcastInDim_apply _ _ _ (ix4 a h m n) (ix4 a h m (0 : Fin 1)) (fun c => by
        match c with
        | ⟨0, _⟩ => rfl
        | ⟨1, _⟩ => rfl
        | ⟨2, _⟩ => rfl
        | ⟨3, _⟩ => rfl),
      broadcastInDim_apply _ _ _ (ix4 a h m (0 : Fin 1)) (ix3 a h m) (fun c => by
        match c with
        | ⟨0, _⟩ => rfl
        | ⟨1, _⟩ => rfl
        | ⟨2, _⟩ => rfl),
      hostRowMax_eq Z reducesTo_S4x16x8x8_S4x16x8_d3 hR h_S_ (broadcastInDim S4x16x8 ![] bcast_S_S4x16x8 (constant (F := Ideal) S_ .f32 0xFF800000#32)) (fun _ => rfl)]
  have e : (fun n' : Fin 8 => Z (hR.lift (ix3 a h m) n')) = fun n' : Fin 8 => Z (ix4 a h m n') :=
    funext fun n' => congrArg Z (liftB hR a h m n')
  exact congrArg (fun f : Fin 8 → EReal => Ideal.exp (Z (ix4 a h m n) - rowMax f)) e

/-- An entry over its row's sum (from 0), the sum spread back along the row. -/
theorem normB_apply (E : S4x16x8x8.Idx → EReal) (a : Fin 4) (h : Fin 16) (m : Fin 8) (n : Fin 8) :
    Host.divf (F := Ideal) (φ := .f32) E (broadcastInDim S4x16x8x8 ![0, 1, 2, 3] bcast_S4x16x8x1_S4x16x8x8_0_1_2_3
      (broadcastInDim S4x16x8x1 ![0, 1, 2] bcast_S4x16x8_S4x16x8x1_0_1_2
        (Host.reduceAdd (F := Ideal) (φ := .f32) E (constant S_ .f32 0x00000000#32) reducesTo_S4x16x8x8_S4x16x8_d3 h_S_))) (ix4 a h m n)
      = Ideal.div (E (ix4 a h m n)) (∑ n' : Fin 8, E (ix4 a h m n')) := by
  have hR : S4x16x8x8.Reduces [3] S4x16x8 := by decide
  show Ideal.div (E (ix4 a h m n)) (broadcastInDim S4x16x8x8 ![0, 1, 2, 3] bcast_S4x16x8x1_S4x16x8x8_0_1_2_3
      (broadcastInDim S4x16x8x1 ![0, 1, 2] bcast_S4x16x8_S4x16x8x1_0_1_2
        (Host.reduceAdd (F := Ideal) (φ := .f32) E (constant S_ .f32 0x00000000#32) reducesTo_S4x16x8x8_S4x16x8_d3 h_S_)) (ix4 a h m n)) = _
  rw [broadcastInDim_apply _ _ _ (ix4 a h m n) (ix4 a h m (0 : Fin 1)) (fun c => by
        match c with
        | ⟨0, _⟩ => rfl
        | ⟨1, _⟩ => rfl
        | ⟨2, _⟩ => rfl
        | ⟨3, _⟩ => rfl),
      broadcastInDim_apply _ _ _ (ix4 a h m (0 : Fin 1)) (ix3 a h m) (fun c => by
        match c with
        | ⟨0, _⟩ => rfl
        | ⟨1, _⟩ => rfl
        | ⟨2, _⟩ => rfl)]
  show Ideal.div (E (ix4 a h m n)) (Ideal.hostReduceAdd reducesTo_S4x16x8x8_S4x16x8_d3 E (Ideal.ofBits .f32 0x00000000#32) (ix3 a h m)) = _
  rw [Ideal.hostReduceAdd_single _ hR, Ideal.ofBits_zero_f32, zero_add]
  show Ideal.div (E (ix4 a h m n)) (∑ n' : Fin 8, E (hR.lift (ix3 a h m) n')) = _
  exact congrArg (Ideal.div (E (ix4 a h m n))) (Finset.sum_congr rfl fun n' _ => congrArg E (liftB hR a h m n'))

end Cert.Landmark

end
-- ==== Proof.RefK2.lean ====
/-
  The reference's second softmax is the specification's K2, head by head: its logits are the inner products of
  the query landmarks with the key landmarks, scaled by 1/8; the softmax runs over the key landmarks.
-/
import proofs.«120126_j23330262352482_2_alg».proof.Proof.RefLandmarks
import proofs.«120126_j23330262352482_2_alg».proof.Proof.RefProducts
import proofs.«120126_j23330262352482_2_alg».proof.Proof.RefSoftmaxB

noncomputable section

namespace Cert.Landmark

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx
open scoped BigOperators

variable (V0 : Valuation τ sig (Elt Ideal))

set_option maxRecDepth 8192 in
/-- The reference's second softmax at (a, h, m, n): query landmarks against key landmarks in head 16·a + h. -/
theorem ref_K2_apply (a : Fin 4) (h : Fin 16) (m n : Fin 8) :
    res_main_v38 (F := Ideal) V0 (ix4 a h m n)
      = K2 (head (V0 (Proc.devRef .tc main_arg0)) (hd a h)) (head (V0 (Proc.devRef .tc main_arg1)) (hd a h)) m n := by
  have hZ : ∀ n' : Fin 8, res_main_v27 (F := Ideal) V0 (ix4 a h m n')
      = (∑ d : Fin 64, land (head (V0 (Proc.devRef .tc main_arg0)) (hd a h)) m d * land (head (V0 (Proc.devRef .tc main_arg1)) (hd a h)) n' d) * cScale := by
    intro n'
    unfold res_main_v27
    rw [scaledB_apply]
    simp only [ref_qland_apply, ref_kland_apply]
  have hE : ∀ n' : Fin 8, res_main_v34 (F := Ideal) V0 (ix4 a h m n')
      = Ideal.exp ((fun n'' : Fin 8 => (∑ d : Fin 64, land (head (V0 (Proc.devRef .tc main_arg0)) (hd a h)) m d * land (head (V0 (Proc.devRef .tc main_arg1)) (hd a h)) n'' d) * cScale) n'
          - rowMax fun n'' : Fin 8 => (∑ d : Fin 64, land (head (V0 (Proc.devRef .tc main_arg0)) (hd a h)) m d * land (head (V0 (Proc.devRef .tc main_arg1)) (hd a h)) n'' d) * cScale) := by
    intro n'
    unfold res_main_v34
    rw [expB_apply]
    simp only [hZ]
  unfold res_main_v38
  rw [normB_apply]
  simp only [hE]
  rfl

end Cert.Landmark

end
-- ==== Proof.RefSoftmaxC.lean ====
/-
  The two stages of the reference's row-wise softmax over the last axis, read at an index, for rows of a [4, 16, 8, 4096] array (4096 tokens per landmark).
  First every entry has its row's maximum subtracted and is exponentiated; the maximum is kept as a column and
  spread back along the row. Then every entry is divided by its row's sum (from 0), kept and spread back the
  same way. Together, at (a, h, x, y), they give the specification's softmax of row (a, h, x) at y.
-/
import proofs.«120126_j23330262352482_2_alg».proof.Proof.RefRowMax

noncomputable section

namespace Cert.Landmark

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx
open scoped BigOperators

/-! ### Rows of a [4, 16, 8, 4096] array (4096 tokens per landmark) -/

/-- A row's index with the last coordinate put back. -/
theorem liftC (hR : S4x16x8x4096.Reduces [3] S4x16x8) (a : Fin 4) (h : Fin 16) (m : Fin 8) (t : Fin 4096) :
    hR.lift (ix3 a h m) t = ix4 a h m t := by
  funext c; apply Fin.ext
  match c with
  | ⟨0, _⟩ => rfl
  | ⟨1, _⟩ => rfl
  | ⟨2, _⟩ => rfl
  | ⟨3, _⟩ => rfl

/-- The exponential of an entry minus its row's maximum, the maximum taken from −∞ and once more against −∞ and
    spread back along the row. -/
theorem expC_apply (Z : FVec Ideal S4x16x8x4096 .f32) (a : Fin 4) (h : Fin 16) (m : Fin 8) (t : Fin 4096) :
    Host.exp (F := Ideal) (φ := .f32) (subf (F := Ideal) (φ := .f32) Z (broadcastInDim S4x16x8x4096 ![0, 1, 2, 3] bcast_S4x16x8x1_S4x16x8x4096_0_1_2_3
      (broadcastInDim S4x16x8x1 ![0, 1, 2] bcast_S4x16x8_S4x16x8x1_0_1_2
        (maximumf (F := Ideal) (φ := .f32) (broadcastInDim S4x16x8 ![] bcast_S_S4x16x8 (constant (F := Ideal) S_ .f32 0xFF800000#32))
          (Host.reduce (FloatOps.maximumf (F := Ideal) (φ := .f32)) Z (constant (F := Ideal) S_ .f32 0xFF800000#32) reducesTo_S4x16x8x4096_S4x16x8_d3 h_S_))))) (ix4 a h m t)
      = Ideal.exp (Z (ix4 a h m t) - rowMax fun t' : Fin 4096 => Z (ix4 a h m t')) := by
  have hR : S4x16x8x4096.Reduces [3] S4x16x8 := by decide
  show Ideal.exp (Z (ix4 a h m t) - (broadcastInDim S4x16x8x4096 ![0, 1, 2, 3] bcast_S4x16x8x1_S4x16x8x4096_0_1_2_3
      (broadcastInDim S4x16x8x1 ![0, 1, 2] bcast_S4x16x8_S4x16x8x1_0_1_2
        (maximumf (F := Ideal) (φ := .f32) (broadcastInDim S4x16x8 ![] bcast_S_S4x16x8 (constant (F := Ideal) S_ .f32 0xFF800000#32))
          (Host.reduce (FloatOps.maximumf (F := Ideal) (φ := .f32)) Z (constant (F := Ideal) S_ .f32 0xFF800000#32) reducesTo_S4x16x8x4096_S4x16x8_d3 h_S_)))) (ix4 a h m t)) = _
  rw [broadcastInDim_apply _ _ _ (ix4 a h m t) (ix4 a h m (0 : Fin 1)) (fun c => by
        match c with
        | ⟨0, _⟩ => rfl
        | ⟨1, _⟩ => rfl
        | ⟨2, _⟩ => rfl
        | ⟨3, _⟩ => rfl),
      broadcastInDim_apply _ _ _ (ix4 a h m (0 : Fin 1)) (ix3 a h m) (fun c => by
        match c with
        | ⟨0, _⟩ => rfl
        | ⟨1, _⟩ => rfl
        | ⟨2, _⟩ => rfl),
      hostRowMax_eq Z reducesTo_S4x16x8x4096_S4x16x8_d3 hR h_S_ (broadcastInDim S4x16x8 ![] bcast_S_S4x16x8 (constant (F := Ideal) S_ .f32 0xFF800000#32)) (fun _ => rfl)]
  have e : (fun t' : Fin 4096 => Z (hR.lift (ix3 a h m) t')) = fun t' : Fin 4096 => Z (ix4 a h m t') :=
    funext fun t' => congrArg Z (liftC hR a h m t')
  exact congrArg (fun f : Fin 4096 → EReal => Ideal.exp (Z (ix4 a h m t) - rowMax f)) e

/-- An entry over its row's sum (from 0), the sum spread back along the row. -/
theorem normC_apply (E : S4x16x8x4096.Idx → EReal) (a : Fin 4) (h : Fin 16) (m : Fin 8) (t : Fin 4096) :
    Host.divf (F := Ideal) (φ := .f32) E (broadcastInDim S4x16x8x4096 ![0, 1, 2, 3] bcast_S4x16x8x1_S4x16x8x4096_0_1_2_3
      (broadcastInDim S4x16x8x1 ![0, 1, 2] bcast_S4x16x8_S4x16x8x1_0_1_2
        (Host.reduceAdd (F := Ideal) (φ := .f32) E (constant S_ .f32 0x00000000#32) reducesTo_S4x16x8x4096_S4x16x8_d3 h_S_))) (ix4 a h m t)
      = Ideal.div (E (ix4 a h m t)) (∑ t' : Fin 4096, E (ix4 a h m t')) := by
  have hR : S4x16x8x4096.Reduces [3] S4x16x8 := by decide
  show Ideal.div (E (ix4 a h m t)) (broadcastInDim S4x16x8x4096 ![0, 1, 2, 3] bcast_S4x16x8x1_S4x16x8x4096_0_1_2_3
      (broadcastInDim S4x16x8x1 ![0, 1, 2] bcast_S4x16x8_S4x16x8x1_0_1_2
        (Host.reduceAdd (F := Ideal) (φ := .f32) E (constant S_ .f32 0x00000000#32) reducesTo_S4x16x8x4096_S4x16x8_d3 h_S_)) (ix4 a h m t)) = _
  rw [broadcastInDim_apply _ _ _ (ix4 a h m t) (ix4 a h m (0 : Fin 1)) (fun c => by
        match c with
        | ⟨0, _⟩ => rfl
        | ⟨1, _⟩ => rfl
        | ⟨2, _⟩ => rfl
        | ⟨3, _⟩ => rfl),
      broadcastInDim_apply _ _ _ (ix4 a h m (0 : Fin 1)) (ix3 a h m) (fun c => by
        match c with
        | ⟨0, _⟩ => rfl
        | ⟨1, _⟩ => rfl
        | ⟨2, _⟩ => rfl)]
  show Ideal.div (E (ix4 a h m t)) (Ideal.hostReduceAdd reducesTo_S4x16x8x4096_S4x16x8_d3 E (Ideal.ofBits .f32 0x00000000#32) (ix3 a h m)) = _
  rw [Ideal.hostReduceAdd_single _ hR, Ideal.ofBits_zero_f32, zero_add]
  show Ideal.div (E (ix4 a h m t)) (∑ t' : Fin 4096, E (hR.lift (ix3 a h m) t')) = _
  exact congrArg (Ideal.div (E (ix4 a h m t))) (Finset.sum_congr rfl fun t' _ => congrArg E (liftC hR a h m t'))

end Cert.Landmark

end
-- ==== Proof.RefK3.lean ====
/-
  The reference's third softmax is the specification's K3, head by head: its logits are the inner products of a
  query landmark with every key row, scaled by 1/8; the softmax runs over the 4096 tokens. Its product with the
  regrouped values is the specification's K3V.
-/
import proofs.«120126_j23330262352482_2_alg».proof.Proof.RefLandmarks
import proofs.«120126_j23330262352482_2_alg».proof.Proof.RefProducts
import proofs.«120126_j23330262352482_2_alg».proof.Proof.RefSoftmaxC

noncomputable section

namespace Cert.Landmark

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx
open scoped BigOperators

variable (V0 : Valuation τ sig (Elt Ideal))

set_option maxRecDepth 8192 in
/-- The reference's third softmax at (a, h, m, t): query landmark m against the keys in head 16·a + h. -/
theorem ref_K3_apply (a : Fin 4) (h : Fin 16) (m : Fin 8) (t : Fin 4096) :
    (Host.divf (F := Ideal) (φ := .f32) (res_main_v48 (F := Ideal) V0) (broadcastInDim S4x16x8x4096 ![0, 1, 2, 3] bcast_S4x16x8x1_S4x16x8x4096_0_1_2_3 (broadcastInDim S4x16x8x1 ![0, 1, 2] bcast_S4x16x8_S4x16x8x1_0_1_2 (Host.reduceAdd (F := Ideal) (φ := .f32) (res_main_v48 (F := Ideal) V0) (constant (F := Ideal) S_ .f32 0x00000000#32) reducesTo_S4x16x8x4096_S4x16x8_d3 h_S_)))) (ix4 a h m t)
      = K3 (head (V0 (Proc.devRef .tc main_arg0)) (hd a h)) (head (V0 (Proc.devRef .tc main_arg1)) (hd a h)) m t := by
  have hZ : ∀ t' : Fin 4096, res_main_v41 (F := Ideal) V0 (ix4 a h m t')
      = (∑ d : Fin 64, land (head (V0 (Proc.devRef .tc main_arg0)) (hd a h)) m d * (head (V0 (Proc.devRef .tc main_arg1)) (hd a h)) t' d) * cScale := by
    intro t'
    unfold res_main_v41
    rw [scaledC_apply]
    simp only [ref_qland_apply, ref_k_apply]
  have hE : ∀ t' : Fin 4096, res_main_v48 (F := Ideal) V0 (ix4 a h m t')
      = Ideal.exp ((fun t'' : Fin 4096 => (∑ d : Fin 64, land (head (V0 (Proc.devRef .tc main_arg0)) (hd a h)) m d * (head (V0 (Proc.devRef .tc main_arg1)) (hd a h)) t'' d) * cScale) t'
          - rowMax fun t'' : Fin 4096 => (∑ d : Fin 64, land (head (V0 (Proc.devRef .tc main_arg0)) (hd a h)) m d * (head (V0 (Proc.devRef .tc main_arg1)) (hd a h)) t'' d) * cScale) := by
    intro t'
    unfold res_main_v48
    rw [expC_apply]
    simp only [hZ]
  rw [normC_apply]
  simp only [hE]
  rfl

set_option maxRecDepth 8192 in
/-- The reference's third softmax times the regrouped values at (a, h, m, d): K3 times v in head 16·a + h. -/
theorem ref_K3V_apply (a : Fin 4) (h : Fin 16) (m : Fin 8) (d : Fin 64) :
    Host.dotGeneral (F := Ideal) (φ₁ := .f32) (φ₂ := .f32) dot_S4x16x8x4096_S4x16x4096x64_S4x16x8x64_3_2_2_3_01_01 none
        (Host.divf (F := Ideal) (φ := .f32) (res_main_v48 (F := Ideal) V0) (broadcastInDim S4x16x8x4096 ![0, 1, 2, 3] bcast_S4x16x8x1_S4x16x8x4096_0_1_2_3 (broadcastInDim S4x16x8x1 ![0, 1, 2] bcast_S4x16x8_S4x16x8x1_0_1_2 (Host.reduceAdd (F := Ideal) (φ := .f32) (res_main_v48 (F := Ideal) V0) (constant (F := Ideal) S_ .f32 0x00000000#32) reducesTo_S4x16x8x4096_S4x16x8_d3 h_S_))))
        (shapeCast S4x16x4096x64 (V0 (Proc.devRef .tc main_arg2)) shapeCasts_S4x4096x1024_S4x16x4096x64) (ix4 a h m d)
      = K3V (head (V0 (Proc.devRef .tc main_arg0)) (hd a h)) (head (V0 (Proc.devRef .tc main_arg1)) (hd a h)) (head (V0 (Proc.devRef .tc main_arg2)) (hd a h)) m d := by
  rw [dotD_apply]
  unfold K3V
  exact Finset.sum_congr rfl fun t _ => by rw [ref_K3_apply, ref_v_apply]

end Cert.Landmark

end
-- ==== Proof.RefValue.lean ====
/-
  The reference's result, head by head.

  At head 16·a + h the stacked pseudo-inverses are the head's pseudo-inverse from the scale of the largest column sum
  over all heads, the first softmax table times them is K1 · P, and that times the stacked K3·v tables is
  (K1 · P) · K3V: the output with K1 applied to the pseudo-inverse first.
-/
import proofs.«120126_j23330262352482_2_alg».proof.Proof.RefTail
import proofs.«120126_j23330262352482_2_alg».proof.Proof.RefPinvHeads
import proofs.«120126_j23330262352482_2_alg».proof.Proof.RefScale
import proofs.«120126_j23330262352482_2_alg».proof.Proof.RefK1
import proofs.«120126_j23330262352482_2_alg».proof.Proof.RefK2
import proofs.«120126_j23330262352482_2_alg».proof.Proof.RefK3
import proofs.«120126_j23330262352482_2_alg».proof.Proof.Output

set_option maxRecDepth 16384

noncomputable section

namespace Cert.ReferenceIdeal.Landmark

open Cert.ReferenceIdeal Cert.ReferenceIdeal.Gen Cert.ReferenceIdeal.Value
open Idealize.ShloMosaic Idealize.ShloMosaic.TcCoe Idealize.ShloMosaic.StableHlo Idealize.ShloMosaic.ValueIdx Cert.Landmark
open scoped BigOperators

/-- The first softmax table times the stacked pseudo-inverses, at a head. -/
theorem k1p_apply (A : FVec Ideal S4x16x4096x8 .f32) (B : FVec Ideal S4x16x8x8 .f32) (a : Fin 4) (h : Fin 16) (t : Fin 4096) (j : Fin 8) :
    Host.dotGeneral (F := Ideal) (φ₁ := .f32) (φ₂ := .f32) dot_S4x16x4096x8_S4x16x8x8_S4x16x4096x8_3_2_2_3_01_01 none A B (ix4 a h t j)
      = ∑ l : Fin 8, A (ix4 a h t l) * B (ix4 a h l j) := by
  simp only [Host.dotGeneral]
  rw [Ideal.dotGeneral_apply]
  rw [← Equiv.sum_comp (contrEquiv1 dot_S4x16x4096x8_S4x16x8x8_S4x16x4096x8_3_2_2_3_01_01 8 rfl rfl).symm]
  refine Finset.sum_congr rfl fun l _ => ?_
  have hk := contrEquiv1_symm_val dot_S4x16x4096x8_S4x16x8x8_S4x16x4096x8_3_2_2_3_01_01 8 rfl rfl l
  congr 2
  · funext c
    refine Fin.ext ?_
    match c with
    | ⟨0, _⟩ => rfl
    | ⟨1, _⟩ => rfl
    | ⟨2, _⟩ => rfl
    | ⟨3, _⟩ => exact (dot_S4x16x4096x8_S4x16x8x8_S4x16x4096x8_3_2_2_3_01_01.lhsIdx_val_of_single rfl (ix4 a h t j) _).trans hk
  · funext c
    refine Fin.ext ?_
    match c with
    | ⟨0, _⟩ => rfl
    | ⟨1, _⟩ => rfl
    | ⟨2, _⟩ => exact (dot_S4x16x4096x8_S4x16x8x8_S4x16x4096x8_3_2_2_3_01_01.rhsIdx_val_of_single rfl (ix4 a h t j) _).trans hk
    | ⟨3, _⟩ => rfl

/-- A stacked 4096 × 8 table times the stacked K3·v tables, at a head. -/
theorem xk3v_apply (A : FVec Ideal S4x16x4096x8 .f32) (B : FVec Ideal S4x16x8x64 .f32) (a : Fin 4) (h : Fin 16) (t : Fin 4096) (d : Fin 64) :
    Host.dotGeneral (F := Ideal) (φ₁ := .f32) (φ₂ := .f32) dot_S4x16x4096x8_S4x16x8x64_S4x16x4096x64_3_2_2_3_01_01 none A B (ix4 a h t d)
      = ∑ l : Fin 8, A (ix4 a h t l) * B (ix4 a h l d) := by
  simp only [Host.dotGeneral]
  rw [Ideal.dotGeneral_apply]
  rw [← Equiv.sum_comp (contrEquiv1 dot_S4x16x4096x8_S4x16x8x64_S4x16x4096x64_3_2_2_3_01_01 8 rfl rfl).symm]
  refine Finset.sum_congr rfl fun l _ => ?_
  have hk := contrEquiv1_symm_val dot_S4x16x4096x8_S4x16x8x64_S4x16x4096x64_3_2_2_3_01_01 8 rfl rfl l
  congr 2
  · funext c
    refine Fin.ext ?_
    match c with
    | ⟨0, _⟩ => rfl
    | ⟨1, _⟩ => rfl
    | ⟨2, _⟩ => rfl
    | ⟨3, _⟩ => exact (dot_S4x16x4096x8_S4x16x8x64_S4x16x4096x64_3_2_2_3_01_01.lhsIdx_val_of_single rfl (ix4 a h t d) _).trans hk
  · funext c
    refine Fin.ext ?_
    match c with
    | ⟨0, _⟩ => rfl
    | ⟨1, _⟩ => rfl
    | ⟨2, _⟩ => exact (dot_S4x16x4096x8_S4x16x8x64_S4x16x4096x64_3_2_2_3_01_01.rhsIdx_val_of_single rfl (ix4 a h t d) _).trans hk
    | ⟨3, _⟩ => rfl

variable (V0 : Valuation τ sig (Elt Ideal))

/-- The stacked pseudo-inverses at head 16·a + h. -/
theorem ref_pinv_apply (a : Fin 4) (h : Fin 16) :
    headMat (pinvArr (res_main_v38 (F := Ideal) V0)) a h
      = pinvHead (eyeMat eyeArr) (V0 (Proc.devRef .tc main_arg0)) (V0 (Proc.devRef .tc main_arg1)) (hd a h) := by
  have hK : ∀ a h, headMat (res_main_v38 (F := Ideal) V0) a h
      = k2Heads (V0 (Proc.devRef .tc main_arg0)) (V0 (Proc.devRef .tc main_arg1)) (hd a h) :=
    fun a h => funext fun i => funext fun j => ref_K2_apply V0 a h i j
  rw [pinvArr_apply, startScale_eq _ _ hK, hK a h]
  rfl

/-- The reference's result before the last regrouping, at (a, h, t, d). -/
theorem ref_out_apply (a : Fin 4) (h : Fin 16) (t : Fin 4096) (d : Fin 64) :
    Host.dotGeneral (F := Ideal) (φ₁ := .f32) (φ₂ := .f32) dot_S4x16x4096x8_S4x16x8x64_S4x16x4096x64_3_2_2_3_01_01 none
      (Host.dotGeneral (F := Ideal) (φ₁ := .f32) (φ₂ := .f32) dot_S4x16x4096x8_S4x16x8x8_S4x16x4096x8_3_2_2_3_01_01 none (k1Arr V0) (pinvArr (res_main_v38 V0)))
      (Host.dotGeneral (F := Ideal) (φ₁ := .f32) (φ₂ := .f32) dot_S4x16x8x4096_S4x16x4096x64_S4x16x8x64_3_2_2_3_01_01 none (k3Arr V0)
        (shapeCast _ (V0 (Proc.devRef .tc main_arg2)) shapeCasts_S4x4096x1024_S4x16x4096x64)) (ix4 a h t d)
    = outHeadLeft (eyeMat eyeArr) (V0 (Proc.devRef .tc main_arg0)) (V0 (Proc.devRef .tc main_arg1)) (V0 (Proc.devRef .tc main_arg2)) (hd a h) t d := by
  rw [xk3v_apply]
  unfold outHeadLeft outLeft
  refine Finset.sum_congr rfl fun j _ => ?_
  rw [k1p_apply]
  have e3 := ref_K3V_apply V0 a h j d
  unfold k3Arr
  rw [e3]
  refine congrArg (· * _) (Finset.sum_congr rfl fun m _ => ?_)
  have e1 := ref_K1_apply V0 a h t m
  unfold k1Arr
  rw [e1]
  exact congrArg (_ * ·) (congrFun (congrFun (ref_pinv_apply V0 a h) m) j)

end Cert.ReferenceIdeal.Landmark

end
-- ==== Proof.OutRegroup.lean ====
/-
  The regrouping of the result into [4, 4096, 1024].

  One program holds the result as 64 heads of 4096 × 64, the other as 4 × 16 heads of 4096 × 64; both regroup it,
  row-major, into [4, 4096, 1024]. Entry (a, r, c) of the regrouped array has flat position (a · 4096 + r) · 1024 + c,
  which is entry (r % 256) · 16 + c / 64, c % 64 of head 16 a + r / 256 — head (a, r / 256) of the 4 × 16 — so two arrays
  that agree head by head regroup to the same array.
-/
import proofs.«120126_j23330262352482_2_alg».proof.Proof.Gen.KernelIdeal
import proofs.«120126_j23330262352482_2_alg».proof.Proof.RefHeads
import proofs.«120126_j23330262352482_2_alg».proof.Proof.Spec
import Idealize.ShloMosaic.Lib.Pipeline.Value
import Idealize.ShloMosaic.Lib.ValueIdx

noncomputable section

namespace Cert.Landmark

open Idealize.ShloMosaic Idealize.ShloMosaic.ValueIdx

/-- Two arrays that agree head by head regroup to the same [4, 4096, 1024] array. -/
theorem out_regroup (X3 : Cert.KernelIdeal.S64x4096x64.Idx → EReal) (X4 : Cert.ReferenceIdeal.S4x16x4096x64.Idx → EReal)
    (hX : ∀ (a : Fin 4) (h : Fin 16) (t : Fin 4096) (d : Fin 64), X4 (ix4 a h t d) = X3 (ix3 (hd a h) t d)) :
    shapeCast Cert.ReferenceIdeal.S4x4096x1024 X4 Cert.ReferenceIdeal.Gen.shapeCasts_S4x16x4096x64_S4x4096x1024
      = shapeCast Cert.KernelIdeal.S4x4096x1024 X3 Cert.KernelIdeal.Gen.shapeCasts_S64x4096x64_S4x4096x1024 := by
  funext j
  obtain ⟨a', r, c, rfl⟩ : ∃ (a' : Fin 4) (r : Fin 4096) (c : Fin 1024), j = ix3 a' r c := ⟨j 0, j 1, j 2, eq_ix3 j⟩
  have ha := a'.isLt
  have hr := r.isLt
  have hc := c.isLt
  refine (shapeCast_apply X4 _ (ix3 a' r c)
    (ix4 a' (⟨r.val / 256, by omega⟩ : Fin 16) (⟨(r.val % 256) * 16 + c.val / 64, by omega⟩ : Fin 4096) (⟨c.val % 64, by omega⟩ : Fin 64)) ?_).trans
    ((hX a' ⟨r.val / 256, by omega⟩ ⟨(r.val % 256) * 16 + c.val / 64, by omega⟩ ⟨c.val % 64, by omega⟩).trans
      (shapeCast_apply X3 _ (ix3 a' r c)
        (ix3 (hd a' ⟨r.val / 256, by omega⟩) (⟨(r.val % 256) * 16 + c.val / 64, by omega⟩ : Fin 4096) (⟨c.val % 64, by omega⟩ : Fin 64)) ?_).symm)
  · rw [Shape.rowMajor_val_four, Shape.rowMajor_val_three]
    show ((a'.val * 16 + r.val / 256) * 4096 + ((r.val % 256) * 16 + c.val / 64)) * 64 + c.val % 64
      = (a'.val * 4096 + r.val) * 1024 + c.val
    omega
  · rw [Shape.rowMajor_val_three, Shape.rowMajor_val_three]
    show ((16 * a'.val + r.val / 256) * 4096 + ((r.val % 256) * 16 + c.val / 64)) * 64 + c.val % 64
      = (a'.val * 4096 + r.val) * 1024 + c.val
    omega

end Cert.Landmark

end
-- ==== Proof.FiniteInputs.lean ====
/-
  Finite inputs are real.

  The precondition says that every entry of the three inputs has an absolute value below +∞ (three conjunctions over
  all entries, joined). An extended real whose absolute value is below +∞ is neither infinity: it is a real number.
-/
import proofs.«120126_j23330262352482_2_alg».proof.Pre_finite_inputs
import proofs.«120126_j23330262352482_2_alg».proof.Proof.Gen.Pre_finite_inputs
import proofs.«120126_j23330262352482_2_alg».proof.Proof.LibRealSums
import Idealize.ShloMosaic.Lib.ReduceAll
import Idealize.ShloMosaic.Lib.Affine
import Idealize.ShloMosaic.Lib.ValueIdx
import Idealize.ShloMosaic.PureOps.Ideal.Laws

noncomputable section

namespace Cert.Landmark

open Idealize.ShloMosaic Cert.RealSums

instance : Subsingleton Cert.Pre_finite_inputs.S_.Idx := ⟨fun a b => funext fun d => d.elim0⟩

/-- An extended real whose absolute value is below +∞ is a real number. -/
theorem isR_of_abs_lt_inf (x : EReal)
    (h : Ideal.cmp .olt (max x (-x)) (Ideal.ofBits .f32 0x7F800000#32) = 1#1) : IsR x := by
  have hinf : Ideal.ofBits .f32 0x7F800000#32 = ⊤ := by simp [Ideal.ofBits, Ideal.ieee]
  rw [hinf] at h
  induction x using EReal.rec with
  | bot => exfalso; simp [Ideal.cmp] at h
  | coe r => exact ⟨r, rfl⟩
  | top => exfalso; simp [Ideal.cmp] at h

/-- Under the precondition every entry of each input is a real number. -/
theorem finite_of_pre (a0 a1 a2 : FVec Ideal Cert.Pre_finite_inputs.S4x4096x1024 .f32)
    (h : Cert.Pre_finite_inputs.fn (F := Ideal) a0 a1 a2 = fun _ => 1#1) :
    (∀ i, IsR (a0 i)) ∧ (∀ i, IsR (a1 i)) ∧ (∀ i, IsR (a2 i)) := by
  have h0 := congrFun h ValueIdx.ix0
  dsimp only [Cert.Pre_finite_inputs.fn] at h0
  obtain ⟨h01, h2⟩ := IntOp.andi_eq_one.mp h0
  obtain ⟨h0', h1⟩ := IntOp.andi_eq_one.mp h01
  exact ⟨fun i => isR_of_abs_lt_inf _ (Host.reduce_andi_all _ _ _ _ _ h0' i),
    fun i => isR_of_abs_lt_inf _ (Host.reduce_andi_all _ _ _ _ _ h1 i),
    fun i => isR_of_abs_lt_inf _ (Host.reduce_andi_all _ _ _ _ _ h2 i)⟩

end Cert.Landmark

end
-- ==== Proof.lean ====
/-
  Landmark attention with an iterated pseudo-inverse: the two-region kernel against its plain reference, at the
  extended reals.

  Both programs regroup the three [4, 4096, 1024] inputs into 64 heads of 4096 × 64 tables. Per head they form eight
  landmark rows (means of segments of 512 rows), three row-wise softmaxes of scaled inner products (K1: tokens against
  key landmarks; K2: query landmarks against key landmarks; K3: query landmarks against keys) and K3·v; from K2 a
  pseudo-inverse P by six steps of V ↦ (V/4)·(13·I − KV·(15·I − KV·(7·I − KV))), KV = K2·V, started at c·K2ᵀ with c the
  reciprocal of the largest column sum of K2 over ALL heads. The kernel computes K1, K2, K3·v in its first region,
  P and W = P·(K3·v) on the host, and K1·W in its second region; the reference computes (K1·P)·(K3·v). The two
  differ only in the order of the last two products, and agree because every entry involved is a real number when the
  inputs are finite (the precondition): the exponentials are positive reals, so every softmax denominator and the
  largest column sum are positive reals, and the matrix product over the reals is associative.

  The three frames: the two kernels' are the generated frames; the reference's is its generated run with the result
  dropped. No rewrite was applied by the idealization, so there is nothing to preserve.
-/
import proofs.«120126_j23330262352482_2_alg».proof.Defs
import proofs.«120126_j23330262352482_2_alg».proof.Proof.Gen.Kernel
import proofs.«120126_j23330262352482_2_alg».proof.Proof.Gen.Kernel.Skeleton
import proofs.«120126_j23330262352482_2_alg».proof.Proof.Gen.Kernel.Launch
import proofs.«120126_j23330262352482_2_alg».proof.Proof.Gen.Kernel.Points
import proofs.«120126_j23330262352482_2_alg».proof.Proof.Gen.Kernel.Frame
import proofs.«120126_j23330262352482_2_alg».proof.Proof.Gen.KernelIdeal
import proofs.«120126_j23330262352482_2_alg».proof.Proof.Gen.KernelIdeal.Skeleton
import proofs.«120126_j23330262352482_2_alg».proof.Proof.Gen.KernelIdeal.Launch
import proofs.«120126_j23330262352482_2_alg».proof.Proof.Gen.KernelIdeal.Points
import proofs.«120126_j23330262352482_2_alg».proof.Proof.Gen.KernelIdeal.Frame
import proofs.«120126_j23330262352482_2_alg».proof.Proof.Gen.ReferenceIdeal
import proofs.«120126_j23330262352482_2_alg».proof.Proof.Gen.ReferenceIdeal.Run
import proofs.«120126_j23330262352482_2_alg».proof.Proof.Gen.Pre_finite_inputs
import proofs.«120126_j23330262352482_2_alg».proof.Proof.KernelRun
import proofs.«120126_j23330262352482_2_alg».proof.Proof.KernelValue
import proofs.«120126_j23330262352482_2_alg».proof.Proof.RefValue
import proofs.«120126_j23330262352482_2_alg».proof.Proof.OutRegroup
import proofs.«120126_j23330262352482_2_alg».proof.Proof.FiniteInputs
import proofs.«120126_j23330262352482_2_alg».proof.Proof.Output
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo Idealize.ShloMosaic.ValueIdx
open Cert.Landmark Cert.RealSums

/-- The two programs form the same identity matrix. -/
theorem eye_eq : Cert.ReferenceIdeal.Landmark.eyeMat (Cert.ReferenceIdeal.Landmark.eyeArr (F := Ideal))
    = Cert.KernelIdeal.Landmark.eyeMat (Cert.KernelIdeal.Landmark.eyeArr (F := Ideal)) := rfl

/-- Its entries (0 or 1, from a converted comparison) are real. -/
theorem eye_isR (i j : Fin 8) : IsR (Cert.KernelIdeal.Landmark.eyeMat (Cert.KernelIdeal.Landmark.eyeArr (F := Ideal)) i j) :=
  ⟨_, rfl⟩

/-- From memories that agree on the three inputs, and finite inputs, the reference's result is the kernel's. -/
theorem value_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (hQ : ∀ i, IsR (m ((c.tc : Thread Cert.KernelIdeal.nD Cert.KernelIdeal.τ).loc Cert.KernelIdeal.main_arg0) i))
    (hK : ∀ i, IsR (m ((c.tc : Thread Cert.KernelIdeal.nD Cert.KernelIdeal.τ).loc Cert.KernelIdeal.main_arg1) i))
    (hV : ∀ i, IsR (m ((c.tc : Thread Cert.KernelIdeal.nD Cert.KernelIdeal.τ).loc Cert.KernelIdeal.main_arg2) i)) :
    Cert.ReferenceIdeal.Value.val4 (F := Ideal) (launchContents m' c) (Proc.devRef .tc Cert.ReferenceIdeal.main_v194)
      = Cert.KernelIdeal.Gen.W5 m ρ c (Proc.devRef .tc Cert.KernelIdeal.main_v144) := by
  rw [Cert.ReferenceIdeal.Landmark.ref_result, Cert.KernelIdeal.Landmark.kernel_value]
  refine out_regroup _ _ fun a h t d => ?_
  rw [Cert.ReferenceIdeal.Landmark.ref_out_apply]
  have e0 : launchContents m' c (Proc.devRef .tc Cert.ReferenceIdeal.main_arg0)
      = m ((c.tc : Thread Cert.KernelIdeal.nD Cert.KernelIdeal.τ).loc Cert.KernelIdeal.main_arg0) := h0
  have e1 : launchContents m' c (Proc.devRef .tc Cert.ReferenceIdeal.main_arg1)
      = m ((c.tc : Thread Cert.KernelIdeal.nD Cert.KernelIdeal.τ).loc Cert.KernelIdeal.main_arg1) := h1
  have e2 : launchContents m' c (Proc.devRef .tc Cert.ReferenceIdeal.main_arg2)
      = m ((c.tc : Thread Cert.KernelIdeal.nD Cert.KernelIdeal.τ).loc Cert.KernelIdeal.main_arg2) := h2
  rw [e0, e1, e2, eye_eq]
  exact (outHead_eq _ _ _ _ eye_isR hQ hK hV (hd a h) t d).symm

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs run to the same result. -/
theorem algebraic : Cert.algebraic_KernelIdeal_ReferenceIdeal := by
  intro m ρ m' ρ' hpre hagree
  refine ⟨fun c => Cert.KernelIdeal.Gen.W5 m ρ c (Proc.devRef .tc Cert.KernelIdeal.main_v144),
    Cert.KernelIdeal.Landmark.run_value m ρ, ?_⟩
  refine (θ_run Cert.ReferenceIdeal.defs _ _).mono (fun _ h c => ⟨(h c).1.trans ?_, (h c).2⟩)
    (Cert.ReferenceIdeal.Value.run (F := Ideal) m' ρ')
  obtain ⟨hQ, hK, hV⟩ := finite_of_pre _ _ _ (hpre c)
  exact (Cert.ReferenceIdeal.Value.val4_main_v194 (launchContents m' c)).symm.trans
    (value_eq m ρ m' c (hagree c).1 (hagree c).2.1 (hagree c).2.2 hQ hK hV)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
